-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S64x1 .f32) (main_arg24 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x1 .f32 := Host.absf main_arg23
  let main_cst_40 : FVec F S_ .f32 := constant S_ .f32 0x7F800000#32
  let main_v105 : FVec F S64x1 .f32 := broadcastInDim S64x1 ![] bcast_S_S64x1 main_cst_40
  let main_v106 : IVec S64x1 1 := cmpf .olt main_v104 main_v105
  let main_c_41 : IVec S_ 1 := constantI S_ 1 1#1
  let main_v107 : IVec S_ 1 := (fun x v => Host.reduce IntOp.andi x v reducesTo_S64x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg20 : FVec F S128 .f32) (main_arg21 : FVec F S128x64 .f32) (main_arg22 : FVec F S64 .f32) (main_arg23 : FVec F S64x1 .f32) (main_arg24 : FVec F S1 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S256 .f32) (main_arg17 : FVec F S256x256 .f32) (main_arg18 : FVec F S256 .f32) (main_arg19 : FVec F S256x128 .f32) (main_arg20 : FVec F S128 .f32) (main_arg21 : FVec F S128x64 .f32) (main_arg22 : FVec F S64 .f32) (main_arg23 : FVec F S64x1 .f32) (main_arg24 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S256x128 .f32) (main_arg20 : FVec F S128 .f32) (main_arg21 : FVec F S128x64 .f32) (main_arg22 : FVec F S64 .f32) (main_arg23 : FVec F S64x1 .f32) (main_arg24 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S256x128 .f32) (main_arg20 : FVec F S128 .f32) (main_arg21 : FVec F S128x64 .f32) (main_arg22 : FVec F S64 .f32) (main_arg23 : FVec F S64x1 .f32) (main_arg24 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S256 .f32) (main_arg7 : FVec F S256x128 .f32) (main_arg8 : FVec F S128 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S256x128 .f32) (main_arg20 : FVec F S128 .f32) (main_arg21 : FVec F S128x64 .f32) (main_arg22 : FVec F S64 .f32) (main_arg23 : FVec F S64x1 .f32) (main_arg24 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x800000 32) (main_arg2 : IVec S2x200000 32) (main_arg3 : FVec F S128x256 .f32) (main_arg4 : FVec F S256 .f32) (main_arg5 : FVec F S256x256 .f32) (main_arg6 : FVec F S256 .f32) (main_arg7 : FVec F S256x128 .f32) (main_arg8 : FVec F S128 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S256x128 .f32) (main_arg20 : FVec F S128 .f32) (main_arg21 : FVec F S128x64 .f32) (main_arg22 : FVec F S64 .f32) (main_arg23 : FVec F S64x1 .f32) (main_arg24 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x256 : Shape := ⟨2, ![1, 256]⟩
abbrev S2000x256 : Shape := ⟨2, ![2000, 256]⟩
abbrev S2000x1 : Shape := ⟨2, ![2000, 1]⟩
abbrev S800000x128 : Shape := ⟨2, ![800000, 128]⟩
abbrev S1x128 : Shape := ⟨2, ![1, 128]⟩
abbrev S2000x128 : Shape := ⟨2, ![2000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S1x64 : Shape := ⟨2, ![1, 64]⟩
abbrev S1x1 : Shape := ⟨2, ![1, 1]⟩
abbrev S5000x1 : Shape := ⟨2, ![5000, 1]⟩
abbrev S5000x64 : Shape := ⟨2, ![5000, 64]⟩

abbrev nBuf : Space → Nat
  | .hbm => 195
  | .vmem => 65
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256x256, .f32⟩
  | 18 => ⟨S256, .f32⟩
  | 19 => ⟨S256x128, .f32⟩
  | 20 => ⟨S128, .f32⟩
  | 21 => ⟨S128x64, .f32⟩
  | 22 => ⟨S64, .f32⟩
  | 23 => ⟨S64x1, .f32⟩
  | 24 => ⟨S1, .f32⟩
  | 25 => ⟨S1x800000, .i32⟩
  | 26 => ⟨S800000, .i32⟩
  | 27 => ⟨S1x800000, .i32⟩
  | 28 => ⟨S800000, .i32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000, .f32⟩
  | 39 => ⟨S50000, .f32⟩
  | 40 => ⟨S50000x1, .f32⟩
  | 41 => ⟨S50000x256, .bf16⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x256, .bf16⟩
  | 70 => ⟨S800000x256, .f32⟩
  | 71 => ⟨S800000x1, .f32⟩
  | 72 => ⟨S800000x256, .f32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S1x256, .f32⟩
  | 79 => ⟨S1x256, .f32⟩
  | 80 => ⟨S1x256, .f32⟩
  | 81 => ⟨S1x256, .f32⟩
  | 82 => ⟨S1x256, .f32⟩
  | 83 => ⟨S50000x256, .bf16⟩
  | 84 => ⟨S50000x256, .bf16⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x256, .bf16⟩
  | 113 => ⟨S800000x256, .f32⟩
  | 114 => ⟨S800000x1, .f32⟩
  | 115 => ⟨S800000x256, .f32⟩
  | 116 => ⟨S800000x256, .f32⟩
  | 117 => ⟨S_, .f32⟩
  | 118 => ⟨S50000x256, .f32⟩
  | 119 => ⟨S800000x1, .i32⟩
  | 120 => ⟨S50000x256, .f32⟩
  | 121 => ⟨S1x256, .f32⟩
  | 122 => ⟨S1x256, .f32⟩
  | 123 => ⟨S1x256, .f32⟩
  | 124 => ⟨S1x256, .f32⟩
  | 125 => ⟨S1x256, .f32⟩
  | 126 => ⟨S50000x256, .bf16⟩
  | 127 => ⟨S50000x128, .bf16⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .bf16⟩
  | 28 => ⟨S800000x128, .f32⟩
  | 29 => ⟨S800000x1, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S1x128, .f32⟩
  | 37 => ⟨S50000x128, .bf16⟩
  | 38 => ⟨S1x200000, .i32⟩
  | 39 => ⟨S200000, .i32⟩
  | 40 => ⟨S1x200000, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x128, .bf16⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x128, .bf16⟩
  | 60 => ⟨S128x256, .f32⟩
  | 61 => ⟨S128x256, .f32⟩
  | 62 => ⟨S1x256, .f32⟩
  | 63 => ⟨S1x128, .f32⟩
  | 64 => ⟨S1x64, .f32⟩
  | 65 => ⟨S1x1, .f32⟩
  | 66 => ⟨S200000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .bf16⟩
  | .local _ .vmem, ⟨4, _⟩ => ⟨S5000x256, .bf16⟩
  | .local _ .vmem, ⟨5, _⟩ => ⟨S2000x256, .f32⟩
  | .local _ .vmem, ⟨6, _⟩ => ⟨S2000x256, .f32⟩
  | .local _ .vmem, ⟨7, _⟩ => ⟨S2000x256, .bf16⟩
  | .local _ .vmem, ⟨8, _⟩ => ⟨S2000x256, .bf16⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .bf16⟩
  | .local _ .vmem, ⟨17, _⟩ => ⟨S2000x256, .bf16⟩
  | .local _ .vmem, ⟨18, _⟩ => ⟨S5000x256, .bf16⟩
  | .local _ .vmem, ⟨19, _⟩ => ⟨S5000x256, .bf16⟩
  | .local _ .vmem, ⟨20, _⟩ => ⟨S256x256, .f32⟩
  | .local _ .vmem, ⟨21, _⟩ => ⟨S5000x256, .bf16⟩
  | .local _ .vmem, ⟨22, _⟩ => ⟨S5000x256, .bf16⟩
  | .local _ .vmem, ⟨23, _⟩ => ⟨S2000x256, .f32⟩
  | .local _ .vmem, ⟨24, _⟩ => ⟨S2000x256, .f32⟩
  | .local _ .vmem, ⟨25, _⟩ => ⟨S2000x256, .bf16⟩
  | .local _ .vmem, ⟨26, _⟩ => ⟨S2000x256, .bf16⟩
  | .local _ .vmem, ⟨27, _⟩ => ⟨S2000x1, .f32⟩
  | .local _ .vmem, ⟨28, _⟩ => ⟨S2000x1, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .bf16⟩
  | .local _ .vmem, ⟨35, _⟩ => ⟨S2000x256, .bf16⟩
  | .local _ .vmem, ⟨36, _⟩ => ⟨S5000x256, .bf16⟩
  | .local _ .vmem, ⟨37, _⟩ => ⟨S5000x256, .bf16⟩
  | .local _ .vmem, ⟨38, _⟩ => ⟨S256x128, .f32⟩
  | .local _ .vmem, ⟨39, _⟩ => ⟨S5000x128, .bf16⟩
  | .local _ .vmem, ⟨40, _⟩ => ⟨S5000x128, .bf16⟩
  | .local _ .vmem, ⟨41, _⟩ => ⟨S2000x128, .f32⟩
  | .local _ .vmem, ⟨42, _⟩ => ⟨S2000x128, .f32⟩
  | .local _ .vmem, ⟨43, _⟩ => ⟨S2000x128, .bf16⟩
  | .local _ .vmem, ⟨44, _⟩ => ⟨S2000x128, .bf16⟩
  | .local _ .vmem, ⟨45, _⟩ => ⟨S2000x1, .f32⟩
  | .local _ .vmem, ⟨46, _⟩ => ⟨S2000x1, .f32⟩
  | .local _ .vmem, ⟨47, _⟩ => ⟨S1x128, .f32⟩
  | .local _ .vmem, ⟨48, _⟩ => ⟨S2000x128, .bf16⟩
  | .local _ .vmem, ⟨49, _⟩ => ⟨S2000x128, .bf16⟩
  | .local _ .vmem, ⟨50, _⟩ => ⟨S5000x128, .bf16⟩
  | .local _ .vmem, ⟨51, _⟩ => ⟨S5000x128, .bf16⟩
  | .local _ .vmem, ⟨52, _⟩ => ⟨S5000x128, .bf16⟩
  | .local _ .vmem, ⟨53, _⟩ => ⟨S5000x128, .bf16⟩
  | .local _ .vmem, ⟨54, _⟩ => ⟨S128x256, .f32⟩
  | .local _ .vmem, ⟨55, _⟩ => ⟨S128x256, .f32⟩
  | .local _ .vmem, ⟨56, _⟩ => ⟨S1x256, .f32⟩
  | .local _ .vmem, ⟨57, _⟩ => ⟨S256x128, .f32⟩
  | .local _ .vmem, ⟨58, _⟩ => ⟨S1x128, .f32⟩
  | .local _ .vmem, ⟨59, _⟩ => ⟨S128x64, .f32⟩
  | .local _ .vmem, ⟨60, _⟩ => ⟨S1x64, .f32⟩
  | .local _ .vmem, ⟨61, _⟩ => ⟨S64x1, .f32⟩
  | .local _ .vmem, ⟨62, _⟩ => ⟨S1x1, .f32⟩
  | .local _ .vmem, ⟨63, _⟩ => ⟨S5000x1, .f32⟩
  | .local _ .vmem, ⟨64, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c : Ref sig .tc := ⟨.hbm, 42, rfl⟩
abbrev main_v14 : Ref sig .tc := ⟨.hbm, 43, rfl⟩
abbrev main_v15 : Ref sig .tc := ⟨.hbm, 44, rfl⟩
abbrev main_c_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_3 : Ref sig .tc := ⟨.hbm, 51, rfl⟩
abbrev main_v21 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_8 : Ref sig .tc := ⟨.hbm, 85, rfl⟩
abbrev main_v50 : Ref sig .tc := ⟨.hbm, 86, rfl⟩
abbrev main_v51 : Ref sig .tc := ⟨.hbm, 87, rfl⟩
abbrev main_c_9 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_10 : Ref sig .tc := ⟨.hbm, 94, rfl⟩
abbrev main_v57 : Ref sig .tc := ⟨.hbm, 95, rfl⟩
abbrev main_v58 : Ref sig .tc := ⟨.hbm, 96, rfl⟩
abbrev main_c_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_12 : Ref sig .tc := ⟨.hbm, 104, rfl⟩
abbrev main_v65 : Ref sig .tc := ⟨.hbm, 105, rfl⟩
abbrev main_v66 : Ref sig .tc := ⟨.hbm, 106, rfl⟩
abbrev main_c_13 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_14 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_15 : Ref sig .tc := ⟨.hbm, 128, rfl⟩
abbrev main_v86 : Ref sig .tc := ⟨.hbm, 129, rfl⟩
abbrev main_v87 : Ref sig .tc := ⟨.hbm, 130, rfl⟩
abbrev main_c_16 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_17 : Ref sig .tc := ⟨.hbm, 137, rfl⟩
abbrev main_v93 : Ref sig .tc := ⟨.hbm, 138, rfl⟩
abbrev main_v94 : Ref sig .tc := ⟨.hbm, 139, rfl⟩
abbrev main_c_18 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_19 : Ref sig .tc := ⟨.hbm, 147, rfl⟩
abbrev main_v101 : Ref sig .tc := ⟨.hbm, 148, rfl⟩
abbrev main_v102 : Ref sig .tc := ⟨.hbm, 149, rfl⟩
abbrev main_c_20 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_21 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_22 : Ref sig .tc := ⟨.hbm, 170, rfl⟩
abbrev main_v121 : Ref sig .tc := ⟨.hbm, 171, rfl⟩
abbrev main_v122 : Ref sig .tc := ⟨.hbm, 172, rfl⟩
abbrev main_c_23 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_24 : Ref sig .tc := ⟨.hbm, 179, rfl⟩
abbrev main_v128 : Ref sig .tc := ⟨.hbm, 180, rfl⟩
abbrev main_v129 : Ref sig .tc := ⟨.hbm, 181, rfl⟩
abbrev main_c_25 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg7_0 : Ref sig .tc := ⟨.vmem, 59, rfl⟩
abbrev cc6_stg8_0 : Ref sig .tc := ⟨.vmem, 60, rfl⟩
abbrev cc6_stg9_0 : Ref sig .tc := ⟨.vmem, 61, rfl⟩
abbrev cc6_stg10_0 : Ref sig .tc := ⟨.vmem, 62, rfl⟩
abbrev cc6_stg11_0 : Ref sig .tc := ⟨.vmem, 63, rfl⟩
abbrev cc6_stg11_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem6_0 : DmaSem sig := 58
abbrev cc6_sem7_0 : DmaSem sig := 59
abbrev cc6_sem8_0 : DmaSem sig := 60
abbrev cc6_sem9_0 : DmaSem sig := 61
abbrev cc6_sem10_0 : DmaSem sig := 62
abbrev cc6_sem11_0 : DmaSem sig := 63
abbrev cc6_sem11_1 : DmaSem sig := 64

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S64x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S5000x1 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  packedbf16_S5000x128_S5000x128_0_0 : (Rect.unit (s := S5000x128) ![0, 0] S5000x128.size inb_S5000x128_S5000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S256x256_S128x256_0_0 : S256x256.Slices ![0, 0] S128x256
  slices_S256x256_S128x256_128_0 : S256x256.Slices ![128, 0] S128x256
  shapeCasts_S64_S1x64 : S64.ShapeCasts S1x64
  shapeCasts_S1_S1x1 : S1.ShapeCasts S1x1
  shapeCasts_S5000x128_S5000x128 : S5000x128.ShapeCasts S5000x128
  shapeCasts_S128x256_S128x256 : S128x256.ShapeCasts S128x256
  broadcasts_S1x256_S5000x256 : S1x256.Broadcasts S5000x256
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S200000x1_S200000x128_1_0_n_n_0_1_1128_wf : GatherDims.WF S50000x128 S200000x1 S200000x128 [1] [0] [] [0] [] 1 ![1, 128]
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .bf16 = 32 ∨ (Rect.block (s := S50000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .bf16 = 32 ∨ (Rect.block (s := S50000x256) S2000x256.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .bf16 = 32 ∨ (Rect.block (s := S50000x256) S5000x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .bf16 = 32 ∨ (Rect.block (s := S50000x256) S2000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .bf16 = 32 ∨ (Rect.block (s := S50000x256) S2000x256.size (cc3_transform_8 i) (hinb3_8 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .bf16 = 32 ∨ (Rect.block (s := S50000x256) S5000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .bf16 = 32 ∨ (Rect.block (s := S50000x128) S5000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .bf16 = 32 ∨ (Rect.block (s := S50000x128) S2000x128.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S200000x128.size a
  hwx6_0 : ∀ i : grid6.Coords, EltTy.bits .bf16 = 32 ∨ (Rect.block (s := S200000x128) S5000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S200000x128.size a
  hwx6_1 : ∀ i : grid6.Coords, EltTy.bits .bf16 = 32 ∨ (Rect.block (s := S200000x128) S5000x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x256.size a ≤ S128x256.size a
  hwx6_2 : ∀ i : grid6.Coords, EltTy.bits .f32 = 32 ∨ (Rect.block (s := S128x256) S128x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .f32 = 32 ∨ (Rect.block (s := S128x256) S128x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x128.size a ≤ S256x128.size a
  hwx6_5 : ∀ i : grid6.Coords, EltTy.bits .f32 = 32 ∨ (Rect.block (s := S256x128) S256x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x64.size a ≤ S128x64.size a
  hwx6_7 : ∀ i : grid6.Coords, EltTy.bits .f32 = 32 ∨ (Rect.block (s := S128x64) S128x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S64x1.size a ≤ S64x1.size a
  hwx6_9 : ∀ i : grid6.Coords, EltTy.bits .f32 = 32 ∨ (Rect.block (s := S64x1) S64x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x1.size a ≤ S1x1.size a
  hwx6_10 : ∀ i : grid6.Coords, EltTy.bits .f32 = 32 ∨ (Rect.block (s := S1x1) S1x1.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S5000x1.size a ≤ S200000x1.size a
  hwx6_11 : ∀ i : grid6.Coords, EltTy.bits .f32 = 32 ∨ (Rect.block (s := S200000x1) S5000x1.size (cc6_transform_11 i) (hinb6_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v48) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v83) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v84) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v84) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v114) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v115) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v116) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v127) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v134) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v135) S128x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v136) S128x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v137) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg19) S256x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v138) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg21) S128x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v139) S1x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg23) S64x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v140) S1x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v141) S5000x1.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S200000x64 : Shape := ⟨2, ![200000, 64]⟩
abbrev S1x64 : Shape := ⟨2, ![1, 64]⟩
abbrev S1x1 : Shape := ⟨2, ![1, 1]⟩

abbrev nBuf : Space → Nat
  | .hbm => 257
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256x256, .f32⟩
  | 18 => ⟨S256, .f32⟩
  | 19 => ⟨S256x128, .f32⟩
  | 20 => ⟨S128, .f32⟩
  | 21 => ⟨S128x64, .f32⟩
  | 22 => ⟨S64, .f32⟩
  | 23 => ⟨S64x1, .f32⟩
  | 24 => ⟨S1, .f32⟩
  | 25 => ⟨S1x800000, .i32⟩
  | 26 => ⟨S800000, .i32⟩
  | 27 => ⟨S1x800000, .i32⟩
  | 28 => ⟨S800000, .i32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000, .f32⟩
  | 39 => ⟨S50000x256, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .f32⟩
  | 68 => ⟨S800000x1, .f32⟩
  | 69 => ⟨S800000x256, .f32⟩
  | 70 => ⟨S800000x256, .f32⟩
  | 71 => ⟨S_, .f32⟩
  | 72 => ⟨S50000x256, .f32⟩
  | 73 => ⟨S800000x1, .i32⟩
  | 74 => ⟨S50000x256, .f32⟩
  | 75 => ⟨S50000, .f32⟩
  | 76 => ⟨S50000x1, .f32⟩
  | 77 => ⟨S50000x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S256, .f32⟩
  | 88 => ⟨S256, .f32⟩
  | 89 => ⟨S256, .f32⟩
  | 90 => ⟨S1x256, .f32⟩
  | 91 => ⟨S50000x256, .f32⟩
  | 92 => ⟨S50000x256, .f32⟩
  | 93 => ⟨S1x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x256, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x256, .f32⟩
  | 3 => ⟨S800000x1, .f32⟩
  | 4 => ⟨S800000x256, .f32⟩
  | 5 => ⟨S800000x256, .f32⟩
  | 6 => ⟨S_, .f32⟩
  | 7 => ⟨S50000x256, .f32⟩
  | 8 => ⟨S800000x1, .i32⟩
  | 9 => ⟨S50000x256, .f32⟩
  | 10 => ⟨S50000, .f32⟩
  | 11 => ⟨S50000x1, .f32⟩
  | 12 => ⟨S50000x256, .f32⟩
  | 13 => ⟨S50000x256, .f32⟩
  | 14 => ⟨S50000x256, .f32⟩
  | 15 => ⟨S1x256, .f32⟩
  | 16 => ⟨S50000x256, .f32⟩
  | 17 => ⟨S50000x256, .f32⟩
  | 18 => ⟨S1x256, .f32⟩
  | 19 => ⟨S50000x256, .f32⟩
  | 20 => ⟨S50000x256, .f32⟩
  | 21 => ⟨S_, .f32⟩
  | 22 => ⟨S256, .f32⟩
  | 23 => ⟨S256, .f32⟩
  | 24 => ⟨S256, .f32⟩
  | 25 => ⟨S1x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S1x256, .f32⟩
  | 32 => ⟨S50000x256, .f32⟩
  | 33 => ⟨S50000x256, .f32⟩
  | 34 => ⟨S_, .f32⟩
  | 35 => ⟨S50000x256, .f32⟩
  | 36 => ⟨S50000x256, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x200000, .i32⟩
  | 82 => ⟨S200000, .i32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x128, .f32⟩
  | 92 => ⟨S1x200000, .i32⟩
  | 93 => ⟨S200000, .i32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x128, .f32⟩
  | 103 => ⟨S200000x256, .f32⟩
  | 104 => ⟨S200000x256, .f32⟩
  | 105 => ⟨S1x256, .f32⟩
  | 106 => ⟨S200000x256, .f32⟩
  | 107 => ⟨S200000x256, .f32⟩
  | 108 => ⟨S_, .f32⟩
  | 109 => ⟨S200000x256, .f32⟩
  | 110 => ⟨S200000x256, .f32⟩
  | 111 => ⟨S200000x128, .f32⟩
  | 112 => ⟨S1x128, .f32⟩
  | 113 => ⟨S200000x128, .f32⟩
  | 114 => ⟨S200000x128, .f32⟩
  | 115 => ⟨S_, .f32⟩
  | 116 => ⟨S200000x128, .f32⟩
  | 117 => ⟨S200000x128, .f32⟩
  | 118 => ⟨S200000x64, .f32⟩
  | 119 => ⟨S1x64, .f32⟩
  | 120 => ⟨S200000x64, .f32⟩
  | 121 => ⟨S200000x64, .f32⟩
  | 122 => ⟨S_, .f32⟩
  | 123 => ⟨S200000x64, .f32⟩
  | 124 => ⟨S200000x64, .f32⟩
  | 125 => ⟨S200000x1, .f32⟩
  | 126 => ⟨S1x1, .f32⟩
  | 127 => ⟨S200000x1, .f32⟩
  | _ => ⟨S50000x128, .f32⟩

abbrev hbmTy0_2 (i : Nat) : BufTy := match i % 128 with
  | 0 => ⟨S200000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_3 : Ref sig .tc := ⟨.hbm, 49, rfl⟩
abbrev main_v19 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call0_cst : Ref sig .tc := ⟨.hbm, 99, rfl⟩
abbrev main_call0_v0 : Ref sig .tc := ⟨.hbm, 100, rfl⟩
abbrev main_v63 : Ref sig .tc := ⟨.hbm, 101, rfl⟩
abbrev main_v64 : Ref sig .tc := ⟨.hbm, 102, rfl⟩
abbrev main_c_9 : Ref sig .tc := ⟨.hbm, 103, rfl⟩
abbrev main_v65 : Ref sig .tc := ⟨.hbm, 104, rfl⟩
abbrev main_v66 : Ref sig .tc := ⟨.hbm, 105, rfl⟩
abbrev main_c_10 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_11 : Ref sig .tc := ⟨.hbm, 112, rfl⟩
abbrev main_v72 : Ref sig .tc := ⟨.hbm, 113, rfl⟩
abbrev main_v73 : Ref sig .tc := ⟨.hbm, 114, rfl⟩
abbrev main_c_12 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c_13 : Ref sig .tc := ⟨.hbm, 122, rfl⟩
abbrev main_v80 : Ref sig .tc := ⟨.hbm, 123, rfl⟩
abbrev main_v81 : Ref sig .tc := ⟨.hbm, 124, rfl⟩
abbrev main_c_14 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_15 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_16 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call1_cst : Ref sig .tc := ⟨.hbm, 162, rfl⟩
abbrev main_call1_v0 : Ref sig .tc := ⟨.hbm, 163, rfl⟩
abbrev main_v116 : Ref sig .tc := ⟨.hbm, 164, rfl⟩
abbrev main_v117 : Ref sig .tc := ⟨.hbm, 165, rfl⟩
abbrev main_c_17 : Ref sig .tc := ⟨.hbm, 166, rfl⟩
abbrev main_v118 : Ref sig .tc := ⟨.hbm, 167, rfl⟩
abbrev main_v119 : Ref sig .tc := ⟨.hbm, 168, rfl⟩
abbrev main_c_18 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_c_19 : Ref sig .tc := ⟨.hbm, 175, rfl⟩
abbrev main_v125 : Ref sig .tc := ⟨.hbm, 176, rfl⟩
abbrev main_v126 : Ref sig .tc := ⟨.hbm, 177, rfl⟩
abbrev main_c_20 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_c_21 : Ref sig .tc := ⟨.hbm, 185, rfl⟩
abbrev main_v133 : Ref sig .tc := ⟨.hbm, 186, rfl⟩
abbrev main_v134 : Ref sig .tc := ⟨.hbm, 187, rfl⟩
abbrev main_c_22 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_23 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_c_24 : Ref sig .tc := ⟨.hbm, 211, rfl⟩
abbrev main_v156 : Ref sig .tc := ⟨.hbm, 212, rfl⟩
abbrev main_v157 : Ref sig .tc := ⟨.hbm, 213, rfl⟩
abbrev main_c_25 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_c_26 : Ref sig .tc := ⟨.hbm, 222, rfl⟩
abbrev main_v165 : Ref sig .tc := ⟨.hbm, 223, rfl⟩
abbrev main_v166 : Ref sig .tc := ⟨.hbm, 224, rfl⟩
abbrev main_c_27 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_call2_cst : Ref sig .tc := ⟨.hbm, 236, rfl⟩
abbrev main_call2_v0 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_call3_cst : Ref sig .tc := ⟨.hbm, 243, rfl⟩
abbrev main_call3_v0 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_call4_cst : Ref sig .tc := ⟨.hbm, 250, rfl⟩
abbrev main_call4_v0 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x256_d1 : Shape.Concatenates [S200000x128, S200000x128] S200000x256 1
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S200000x1_S200000x128_1_0_n_n_0_1_1128_wf : GatherDims.WF S50000x128 S200000x1 S200000x128 [1] [0] [] [0] [] 1 ![1, 128]
  dot_S200000x256_S256x256_S200000x256_1_0_0_1_n_n_wf : DotDims.WF S200000x256 S256x256 S200000x256 [1] [0] [0] [1] [] []
  dot_S200000x256_S256x128_S200000x128_1_0_0_1_n_n_wf : DotDims.WF S200000x256 S256x128 S200000x128 [1] [0] [0] [1] [] []
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KernelRun.lean ====
/-
  The idealized kernel's run with its result named.

  The program is twelve stretches in order: five stretches of host operations and seven kernel launches. After each
  stretch the contents of every buffer are a function of the contents before it: a host stretch applies its operations,
  a launch leaves its operand arrays as found and its output array at what the grid points wrote back. Folding these
  from the launch memory gives the contents after the last stretch; every weakly fair execution terminates, without a
  fault, in a state whose result array holds those final contents and whose argument arrays are as launched.
-/
import proofs.«181210_j52458730553561_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents the
    fold of the twelve stretches leaves there and every argument array as launched. -/
theorem run_result : θ_run defs (onTc (τ := τ) (main (F := F))) ⟨m, fun _ => 0, ρ⟩ (fun r => ∀ c : Dev nD,
      r.2.mem ((c.tc : Thread nD τ).loc main_v141) = W12 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v141 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c)⟩)

end Cert.KernelIdeal.Run

end
-- ==== Proof.ChainArgs.lean ====
/-
  The argument arrays at the boundaries between the program's stretches.

  No host operation and no kernel launch writes an argument array: a host stretch leaves every buffer it does not write
  as it found it, and a launch leaves its operand arrays and every buffer that is not one of its arrays as it found them.
  So at whichever boundary an argument is consumed it still holds its launch contents. Each argument is followed either
  up from the launch or down from the final contents, whichever road to the boundary that consumes it is shorter.
-/
import proofs.«181210_j52458730553561_2_alg».proof.Proof.Gen.KernelIdeal.Frame
import Idealize.ShloMosaic.Lib.StableHlo.Run
import Idealize.ShloMosaic.Lib.ValueIdx

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Arguments read on the way up from the launch -/

theorem at0_arg0 : W0 m ρ c (Proc.devRef .tc main_arg0) = (m ((c : Thread nD τ).loc main_arg0)) := rfl
theorem at1_arg0 : W1 m ρ c (Proc.devRef .tc main_arg0) = (m ((c : Thread nD τ).loc main_arg0)) :=
  Eq.trans (by show StableHlo.after hostOps0 (W0 m ρ c) (Proc.devRef .tc main_arg0) = _; after_results_simp) (at0_arg0 m ρ c)

theorem at0_arg3 : W0 m ρ c (Proc.devRef .tc main_arg3) = (m ((c : Thread nD τ).loc main_arg3)) := rfl
theorem at1_arg3 : W1 m ρ c (Proc.devRef .tc main_arg3) = (m ((c : Thread nD τ).loc main_arg3)) :=
  Eq.trans (by show StableHlo.after hostOps0 (W0 m ρ c) (Proc.devRef .tc main_arg3) = _; after_results_simp) (at0_arg3 m ρ c)

theorem at0_arg4 : W0 m ρ c (Proc.devRef .tc main_arg4) = (m ((c : Thread nD τ).loc main_arg4)) := rfl
theorem at1_arg4 : W1 m ρ c (Proc.devRef .tc main_arg4) = (m ((c : Thread nD τ).loc main_arg4)) :=
  Eq.trans (by show StableHlo.after hostOps0 (W0 m ρ c) (Proc.devRef .tc main_arg4) = _; after_results_simp) (at0_arg4 m ρ c)
theorem at2_arg4 : W2 m ρ c (Proc.devRef .tc main_arg4) = (m ((c : Thread nD τ).loc main_arg4)) :=
  Eq.trans (W2_of_ne m ρ c main_arg4 (by decide)) (at1_arg4 m ρ c)

theorem at0_arg5 : W0 m ρ c (Proc.devRef .tc main_arg5) = (m ((c : Thread nD τ).loc main_arg5)) := rfl
theorem at1_arg5 : W1 m ρ c (Proc.devRef .tc main_arg5) = (m ((c : Thread nD τ).loc main_arg5)) :=
  Eq.trans (by show StableHlo.after hostOps0 (W0 m ρ c) (Proc.devRef .tc main_arg5) = _; after_results_simp) (at0_arg5 m ρ c)
theorem at2_arg5 : W2 m ρ c (Proc.devRef .tc main_arg5) = (m ((c : Thread nD τ).loc main_arg5)) :=
  Eq.trans (W2_of_ne m ρ c main_arg5 (by decide)) (at1_arg5 m ρ c)
theorem at3_arg5 : W3 m ρ c (Proc.devRef .tc main_arg5) = (m ((c : Thread nD τ).loc main_arg5)) :=
  Eq.trans (by show StableHlo.after hostOps1 (W2 m ρ c) (Proc.devRef .tc main_arg5) = _; after_results_simp) (at2_arg5 m ρ c)
theorem at4_arg5 : W4 m ρ c (Proc.devRef .tc main_arg5) = (m ((c : Thread nD τ).loc main_arg5)) :=
  Eq.trans (W4_of_ne m ρ c main_arg5 (by decide)) (at3_arg5 m ρ c)

theorem at0_arg6 : W0 m ρ c (Proc.devRef .tc main_arg6) = (m ((c : Thread nD τ).loc main_arg6)) := rfl
theorem at1_arg6 : W1 m ρ c (Proc.devRef .tc main_arg6) = (m ((c : Thread nD τ).loc main_arg6)) :=
  Eq.trans (by show StableHlo.after hostOps0 (W0 m ρ c) (Proc.devRef .tc main_arg6) = _; after_results_simp) (at0_arg6 m ρ c)
theorem at2_arg6 : W2 m ρ c (Proc.devRef .tc main_arg6) = (m ((c : Thread nD τ).loc main_arg6)) :=
  Eq.trans (W2_of_ne m ρ c main_arg6 (by decide)) (at1_arg6 m ρ c)
theorem at3_arg6 : W3 m ρ c (Proc.devRef .tc main_arg6) = (m ((c : Thread nD τ).loc main_arg6)) :=
  Eq.trans (by show StableHlo.after hostOps1 (W2 m ρ c) (Proc.devRef .tc main_arg6) = _; after_results_simp) (at2_arg6 m ρ c)
theorem at4_arg6 : W4 m ρ c (Proc.devRef .tc main_arg6) = (m ((c : Thread nD τ).loc main_arg6)) :=
  Eq.trans (W4_of_ne m ρ c main_arg6 (by decide)) (at3_arg6 m ρ c)
theorem at5_arg6 : W5 m ρ c (Proc.devRef .tc main_arg6) = (m ((c : Thread nD τ).loc main_arg6)) :=
  Eq.trans (W5_of_ne m ρ c main_arg6 (by decide)) (at4_arg6 m ρ c)

theorem at0_arg9 : W0 m ρ c (Proc.devRef .tc main_arg9) = (m ((c : Thread nD τ).loc main_arg9)) := rfl
theorem at1_arg9 : W1 m ρ c (Proc.devRef .tc main_arg9) = (m ((c : Thread nD τ).loc main_arg9)) :=
  Eq.trans (by show StableHlo.after hostOps0 (W0 m ρ c) (Proc.devRef .tc main_arg9) = _; after_results_simp) (at0_arg9 m ρ c)
theorem at2_arg9 : W2 m ρ c (Proc.devRef .tc main_arg9) = (m ((c : Thread nD τ).loc main_arg9)) :=
  Eq.trans (W2_of_ne m ρ c main_arg9 (by decide)) (at1_arg9 m ρ c)

theorem at0_arg10 : W0 m ρ c (Proc.devRef .tc main_arg10) = (m ((c : Thread nD τ).loc main_arg10)) := rfl
theorem at1_arg10 : W1 m ρ c (Proc.devRef .tc main_arg10) = (m ((c : Thread nD τ).loc main_arg10)) :=
  Eq.trans (by show StableHlo.after hostOps0 (W0 m ρ c) (Proc.devRef .tc main_arg10) = _; after_results_simp) (at0_arg10 m ρ c)
theorem at2_arg10 : W2 m ρ c (Proc.devRef .tc main_arg10) = (m ((c : Thread nD τ).loc main_arg10)) :=
  Eq.trans (W2_of_ne m ρ c main_arg10 (by decide)) (at1_arg10 m ρ c)

theorem at0_arg11 : W0 m ρ c (Proc.devRef .tc main_arg11) = (m ((c : Thread nD τ).loc main_arg11)) := rfl
theorem at1_arg11 : W1 m ρ c (Proc.devRef .tc main_arg11) = (m ((c : Thread nD τ).loc main_arg11)) :=
  Eq.trans (by show StableHlo.after hostOps0 (W0 m ρ c) (Proc.devRef .tc main_arg11) = _; after_results_simp) (at0_arg11 m ρ c)
theorem at2_arg11 : W2 m ρ c (Proc.devRef .tc main_arg11) = (m ((c : Thread nD τ).loc main_arg11)) :=
  Eq.trans (W2_of_ne m ρ c main_arg11 (by decide)) (at1_arg11 m ρ c)

theorem at0_arg12 : W0 m ρ c (Proc.devRef .tc main_arg12) = (m ((c : Thread nD τ).loc main_arg12)) := rfl
theorem at1_arg12 : W1 m ρ c (Proc.devRef .tc main_arg12) = (m ((c : Thread nD τ).loc main_arg12)) :=
  Eq.trans (by show StableHlo.after hostOps0 (W0 m ρ c) (Proc.devRef .tc main_arg12) = _; after_results_simp) (at0_arg12 m ρ c)
theorem at2_arg12 : W2 m ρ c (Proc.devRef .tc main_arg12) = (m ((c : Thread nD τ).loc main_arg12)) :=
  Eq.trans (W2_of_ne m ρ c main_arg12 (by decide)) (at1_arg12 m ρ c)

theorem at0_arg13 : W0 m ρ c (Proc.devRef .tc main_arg13) = (m ((c : Thread nD τ).loc main_arg13)) := rfl
theorem at1_arg13 : W1 m ρ c (Proc.devRef .tc main_arg13) = (m ((c : Thread nD τ).loc main_arg13)) :=
  Eq.trans (by show StableHlo.after hostOps0 (W0 m ρ c) (Proc.devRef .tc main_arg13) = _; after_results_simp) (at0_arg13 m ρ c)
theorem at2_arg13 : W2 m ρ c (Proc.devRef .tc main_arg13) = (m ((c : Thread nD τ).loc main_arg13)) :=
  Eq.trans (W2_of_ne m ρ c main_arg13 (by decide)) (at1_arg13 m ρ c)
theorem at3_arg13 : W3 m ρ c (Proc.devRef .tc main_arg13) = (m ((c : Thread nD τ).loc main_arg13)) :=
  Eq.trans (by show StableHlo.after hostOps1 (W2 m ρ c) (Proc.devRef .tc main_arg13) = _; after_results_simp) (at2_arg13 m ρ c)
theorem at4_arg13 : W4 m ρ c (Proc.devRef .tc main_arg13) = (m ((c : Thread nD τ).loc main_arg13)) :=
  Eq.trans (W4_of_ne m ρ c main_arg13 (by decide)) (at3_arg13 m ρ c)
theorem at5_arg13 : W5 m ρ c (Proc.devRef .tc main_arg13) = (m ((c : Thread nD τ).loc main_arg13)) :=
  Eq.trans (W5_of_ne m ρ c main_arg13 (by decide)) (at4_arg13 m ρ c)

theorem at0_arg14 : W0 m ρ c (Proc.devRef .tc main_arg14) = (m ((c : Thread nD τ).loc main_arg14)) := rfl
theorem at1_arg14 : W1 m ρ c (Proc.devRef .tc main_arg14) = (m ((c : Thread nD τ).loc main_arg14)) :=
  Eq.trans (by show StableHlo.after hostOps0 (W0 m ρ c) (Proc.devRef .tc main_arg14) = _; after_results_simp) (at0_arg14 m ρ c)
theorem at2_arg14 : W2 m ρ c (Proc.devRef .tc main_arg14) = (m ((c : Thread nD τ).loc main_arg14)) :=
  Eq.trans (W2_of_ne m ρ c main_arg14 (by decide)) (at1_arg14 m ρ c)
theorem at3_arg14 : W3 m ρ c (Proc.devRef .tc main_arg14) = (m ((c : Thread nD τ).loc main_arg14)) :=
  Eq.trans (by show StableHlo.after hostOps1 (W2 m ρ c) (Proc.devRef .tc main_arg14) = _; after_results_simp) (at2_arg14 m ρ c)
theorem at4_arg14 : W4 m ρ c (Proc.devRef .tc main_arg14) = (m ((c : Thread nD τ).loc main_arg14)) :=
  Eq.trans (W4_of_ne m ρ c main_arg14 (by decide)) (at3_arg14 m ρ c)
theorem at5_arg14 : W5 m ρ c (Proc.devRef .tc main_arg14) = (m ((c : Thread nD τ).loc main_arg14)) :=
  Eq.trans (W5_of_ne m ρ c main_arg14 (by decide)) (at4_arg14 m ρ c)

theorem at0_arg15 : W0 m ρ c (Proc.devRef .tc main_arg15) = (m ((c : Thread nD τ).loc main_arg15)) := rfl
theorem at1_arg15 : W1 m ρ c (Proc.devRef .tc main_arg15) = (m ((c : Thread nD τ).loc main_arg15)) :=
  Eq.trans (by show StableHlo.after hostOps0 (W0 m ρ c) (Proc.devRef .tc main_arg15) = _; after_results_simp) (at0_arg15 m ρ c)
theorem at2_arg15 : W2 m ρ c (Proc.devRef .tc main_arg15) = (m ((c : Thread nD τ).loc main_arg15)) :=
  Eq.trans (W2_of_ne m ρ c main_arg15 (by decide)) (at1_arg15 m ρ c)
theorem at3_arg15 : W3 m ρ c (Proc.devRef .tc main_arg15) = (m ((c : Thread nD τ).loc main_arg15)) :=
  Eq.trans (by show StableHlo.after hostOps1 (W2 m ρ c) (Proc.devRef .tc main_arg15) = _; after_results_simp) (at2_arg15 m ρ c)
theorem at4_arg15 : W4 m ρ c (Proc.devRef .tc main_arg15) = (m ((c : Thread nD τ).loc main_arg15)) :=
  Eq.trans (W4_of_ne m ρ c main_arg15 (by decide)) (at3_arg15 m ρ c)
theorem at5_arg15 : W5 m ρ c (Proc.devRef .tc main_arg15) = (m ((c : Thread nD τ).loc main_arg15)) :=
  Eq.trans (W5_of_ne m ρ c main_arg15 (by decide)) (at4_arg15 m ρ c)

theorem at0_arg16 : W0 m ρ c (Proc.devRef .tc main_arg16) = (m ((c : Thread nD τ).loc main_arg16)) := rfl
theorem at1_arg16 : W1 m ρ c (Proc.devRef .tc main_arg16) = (m ((c : Thread nD τ).loc main_arg16)) :=
  Eq.trans (by show StableHlo.after hostOps0 (W0 m ρ c) (Proc.devRef .tc main_arg16) = _; after_results_simp) (at0_arg16 m ρ c)
theorem at2_arg16 : W2 m ρ c (Proc.devRef .tc main_arg16) = (m ((c : Thread nD τ).loc main_arg16)) :=
  Eq.trans (W2_of_ne m ρ c main_arg16 (by decide)) (at1_arg16 m ρ c)
theorem at3_arg16 : W3 m ρ c (Proc.devRef .tc main_arg16) = (m ((c : Thread nD τ).loc main_arg16)) :=
  Eq.trans (by show StableHlo.after hostOps1 (W2 m ρ c) (Proc.devRef .tc main_arg16) = _; after_results_simp) (at2_arg16 m ρ c)
theorem at4_arg16 : W4 m ρ c (Proc.devRef .tc main_arg16) = (m ((c : Thread nD τ).loc main_arg16)) :=
  Eq.trans (W4_of_ne m ρ c main_arg16 (by decide)) (at3_arg16 m ρ c)
theorem at5_arg16 : W5 m ρ c (Proc.devRef .tc main_arg16) = (m ((c : Thread nD τ).loc main_arg16)) :=
  Eq.trans (W5_of_ne m ρ c main_arg16 (by decide)) (at4_arg16 m ρ c)

/-! ## Arguments read on the way down from the final contents -/

theorem at12_arg2 : W12 m ρ c (Proc.devRef .tc main_arg2) = (m ((c : Thread nD τ).loc main_arg2)) := W12_main_arg2 m ρ c
theorem at11_arg2 : W11 m ρ c (Proc.devRef .tc main_arg2) = (m ((c : Thread nD τ).loc main_arg2)) :=
  Eq.trans (Eq.symm (W12_of_ne m ρ c main_arg2 (by decide))) (at12_arg2 m ρ c)
theorem at10_arg2 : W10 m ρ c (Proc.devRef .tc main_arg2) = (m ((c : Thread nD τ).loc main_arg2)) :=
  Eq.trans (Eq.symm (by show StableHlo.after hostOps6 (W10 m ρ c) (Proc.devRef .tc main_arg2) = _; after_results_simp)) (at11_arg2 m ρ c)

theorem at12_arg7 : W12 m ρ c (Proc.devRef .tc main_arg7) = (m ((c : Thread nD τ).loc main_arg7)) := W12_main_arg7 m ρ c
theorem at11_arg7 : W11 m ρ c (Proc.devRef .tc main_arg7) = (m ((c : Thread nD τ).loc main_arg7)) :=
  Eq.trans (Eq.symm (W12_of_ne m ρ c main_arg7 (by decide))) (at12_arg7 m ρ c)
theorem at10_arg7 : W10 m ρ c (Proc.devRef .tc main_arg7) = (m ((c : Thread nD τ).loc main_arg7)) :=
  Eq.trans (Eq.symm (by show StableHlo.after hostOps6 (W10 m ρ c) (Proc.devRef .tc main_arg7) = _; after_results_simp)) (at11_arg7 m ρ c)
theorem at9_arg7 : W9 m ρ c (Proc.devRef .tc main_arg7) = (m ((c : Thread nD τ).loc main_arg7)) :=
  Eq.trans (Eq.symm (W10_of_ne m ρ c main_arg7 (by decide))) (at10_arg7 m ρ c)
theorem at8_arg7 : W8 m ρ c (Proc.devRef .tc main_arg7) = (m ((c : Thread nD τ).loc main_arg7)) :=
  Eq.trans (Eq.symm (by show StableHlo.after hostOps5 (W8 m ρ c) (Proc.devRef .tc main_arg7) = _; after_results_simp)) (at9_arg7 m ρ c)
theorem at7_arg7 : W7 m ρ c (Proc.devRef .tc main_arg7) = (m ((c : Thread nD τ).loc main_arg7)) :=
  Eq.trans (Eq.symm ((W8_arr m ρ c 1).trans (((dat4 (V7 m ρ) c).arrAt_in 1 rfl _).trans (A_eq4 (V7 m ρ) c 1)))) (at8_arg7 m ρ c)

theorem at12_arg8 : W12 m ρ c (Proc.devRef .tc main_arg8) = (m ((c : Thread nD τ).loc main_arg8)) := W12_main_arg8 m ρ c
theorem at11_arg8 : W11 m ρ c (Proc.devRef .tc main_arg8) = (m ((c : Thread nD τ).loc main_arg8)) :=
  Eq.trans (Eq.symm (W12_of_ne m ρ c main_arg8 (by decide))) (at12_arg8 m ρ c)
theorem at10_arg8 : W10 m ρ c (Proc.devRef .tc main_arg8) = (m ((c : Thread nD τ).loc main_arg8)) :=
  Eq.trans (Eq.symm (by show StableHlo.after hostOps6 (W10 m ρ c) (Proc.devRef .tc main_arg8) = _; after_results_simp)) (at11_arg8 m ρ c)
theorem at9_arg8 : W9 m ρ c (Proc.devRef .tc main_arg8) = (m ((c : Thread nD τ).loc main_arg8)) :=
  Eq.trans (Eq.symm (W10_of_ne m ρ c main_arg8 (by decide))) (at10_arg8 m ρ c)
theorem at8_arg8 : W8 m ρ c (Proc.devRef .tc main_arg8) = (m ((c : Thread nD τ).loc main_arg8)) :=
  Eq.trans (Eq.symm (by show StableHlo.after hostOps5 (W8 m ρ c) (Proc.devRef .tc main_arg8) = _; after_results_simp)) (at9_arg8 m ρ c)

theorem at12_arg17 : W12 m ρ c (Proc.devRef .tc main_arg17) = (m ((c : Thread nD τ).loc main_arg17)) := W12_main_arg17 m ρ c
theorem at11_arg17 : W11 m ρ c (Proc.devRef .tc main_arg17) = (m ((c : Thread nD τ).loc main_arg17)) :=
  Eq.trans (Eq.symm (W12_of_ne m ρ c main_arg17 (by decide))) (at12_arg17 m ρ c)
theorem at10_arg17 : W10 m ρ c (Proc.devRef .tc main_arg17) = (m ((c : Thread nD τ).loc main_arg17)) :=
  Eq.trans (Eq.symm (by show StableHlo.after hostOps6 (W10 m ρ c) (Proc.devRef .tc main_arg17) = _; after_results_simp)) (at11_arg17 m ρ c)

theorem at12_arg18 : W12 m ρ c (Proc.devRef .tc main_arg18) = (m ((c : Thread nD τ).loc main_arg18)) := W12_main_arg18 m ρ c
theorem at11_arg18 : W11 m ρ c (Proc.devRef .tc main_arg18) = (m ((c : Thread nD τ).loc main_arg18)) :=
  Eq.trans (Eq.symm (W12_of_ne m ρ c main_arg18 (by decide))) (at12_arg18 m ρ c)
theorem at10_arg18 : W10 m ρ c (Proc.devRef .tc main_arg18) = (m ((c : Thread nD τ).loc main_arg18)) :=
  Eq.trans (Eq.symm (by show StableHlo.after hostOps6 (W10 m ρ c) (Proc.devRef .tc main_arg18) = _; after_results_simp)) (at11_arg18 m ρ c)

theorem at12_arg19 : W12 m ρ c (Proc.devRef .tc main_arg19) = (m ((c : Thread nD τ).loc main_arg19)) := W12_main_arg19 m ρ c
theorem at11_arg19 : W11 m ρ c (Proc.devRef .tc main_arg19) = (m ((c : Thread nD τ).loc main_arg19)) :=
  Eq.trans (Eq.symm ((W12_arr m ρ c 5).trans (((dat6 (V11 m ρ) c).arrAt_in 5 rfl _).trans (A_eq6 (V11 m ρ) c 5)))) (at12_arg19 m ρ c)
theorem at10_arg19 : W10 m ρ c (Proc.devRef .tc main_arg19) = (m ((c : Thread nD τ).loc main_arg19)) :=
  Eq.trans (Eq.symm (by show StableHlo.after hostOps6 (W10 m ρ c) (Proc.devRef .tc main_arg19) = _; after_results_simp)) (at11_arg19 m ρ c)

theorem at12_arg20 : W12 m ρ c (Proc.devRef .tc main_arg20) = (m ((c : Thread nD τ).loc main_arg20)) := W12_main_arg20 m ρ c
theorem at11_arg20 : W11 m ρ c (Proc.devRef .tc main_arg20) = (m ((c : Thread nD τ).loc main_arg20)) :=
  Eq.trans (Eq.symm (W12_of_ne m ρ c main_arg20 (by decide))) (at12_arg20 m ρ c)
theorem at10_arg20 : W10 m ρ c (Proc.devRef .tc main_arg20) = (m ((c : Thread nD τ).loc main_arg20)) :=
  Eq.trans (Eq.symm (by show StableHlo.after hostOps6 (W10 m ρ c) (Proc.devRef .tc main_arg20) = _; after_results_simp)) (at11_arg20 m ρ c)

theorem at12_arg21 : W12 m ρ c (Proc.devRef .tc main_arg21) = (m ((c : Thread nD τ).loc main_arg21)) := W12_main_arg21 m ρ c
theorem at11_arg21 : W11 m ρ c (Proc.devRef .tc main_arg21) = (m ((c : Thread nD τ).loc main_arg21)) :=
  Eq.trans (Eq.symm ((W12_arr m ρ c 7).trans (((dat6 (V11 m ρ) c).arrAt_in 7 rfl _).trans (A_eq6 (V11 m ρ) c 7)))) (at12_arg21 m ρ c)
theorem at10_arg21 : W10 m ρ c (Proc.devRef .tc main_arg21) = (m ((c : Thread nD τ).loc main_arg21)) :=
  Eq.trans (Eq.symm (by show StableHlo.after hostOps6 (W10 m ρ c) (Proc.devRef .tc main_arg21) = _; after_results_simp)) (at11_arg21 m ρ c)

theorem at12_arg22 : W12 m ρ c (Proc.devRef .tc main_arg22) = (m ((c : Thread nD τ).loc main_arg22)) := W12_main_arg22 m ρ c
theorem at11_arg22 : W11 m ρ c (Proc.devRef .tc main_arg22) = (m ((c : Thread nD τ).loc main_arg22)) :=
  Eq.trans (Eq.symm (W12_of_ne m ρ c main_arg22 (by decide))) (at12_arg22 m ρ c)
theorem at10_arg22 : W10 m ρ c (Proc.devRef .tc main_arg22) = (m ((c : Thread nD τ).loc main_arg22)) :=
  Eq.trans (Eq.symm (by show StableHlo.after hostOps6 (W10 m ρ c) (Proc.devRef .tc main_arg22) = _; after_results_simp)) (at11_arg22 m ρ c)

theorem at12_arg23 : W12 m ρ c (Proc.devRef .tc main_arg23) = (m ((c : Thread nD τ).loc main_arg23)) := W12_main_arg23 m ρ c
theorem at11_arg23 : W11 m ρ c (Proc.devRef .tc main_arg23) = (m ((c : Thread nD τ).loc main_arg23)) :=
  Eq.trans (Eq.symm ((W12_arr m ρ c 9).trans (((dat6 (V11 m ρ) c).arrAt_in 9 rfl _).trans (A_eq6 (V11 m ρ) c 9)))) (at12_arg23 m ρ c)
theorem at10_arg23 : W10 m ρ c (Proc.devRef .tc main_arg23) = (m ((c : Thread nD τ).loc main_arg23)) :=
  Eq.trans (Eq.symm (by show StableHlo.after hostOps6 (W10 m ρ c) (Proc.devRef .tc main_arg23) = _; after_results_simp)) (at11_arg23 m ρ c)

theorem at12_arg24 : W12 m ρ c (Proc.devRef .tc main_arg24) = (m ((c : Thread nD τ).loc main_arg24)) := W12_main_arg24 m ρ c
theorem at11_arg24 : W11 m ρ c (Proc.devRef .tc main_arg24) = (m ((c : Thread nD τ).loc main_arg24)) :=
  Eq.trans (Eq.symm (W12_of_ne m ρ c main_arg24 (by decide))) (at12_arg24 m ρ c)
theorem at10_arg24 : W10 m ρ c (Proc.devRef .tc main_arg24) = (m ((c : Thread nD τ).loc main_arg24)) :=
  Eq.trans (Eq.symm (by show StableHlo.after hostOps6 (W10 m ρ c) (Proc.devRef .tc main_arg24) = _; after_results_simp)) (at11_arg24 m ρ c)

end Cert.KernelIdeal.Chain

end
-- ==== Proof.Spec.lean ====
/-
  The dense stages of the network as functions of whole arrays, entry by entry, over the extended reals.

  A graph-convolution layer first projects the node features, `h = x · W`; an aggregation over the edges (not stated
  here) gives `seg`; the layer's value at node `p`, feature `q` is `seg (p, q) + h (p, q) · d p + b q`, where `d p`
  is the squared inverse root degree of node `p` (the self loop) and `b` the bias. The first two layers are followed
  by a normalisation with stored statistics, `(· - μ q) · rsqrt (v q + ε) · g q + β q`, and a cut at zero. The decoder
  scores a pair of node embeddings by four dense layers, the first applied to the two embeddings side by side —
  which is the sum of the first embedding times the upper half of the weight and the second times the lower half.

  Every per-feature vector is presented as a one-row matrix and the degree factor as a one-column matrix, as the
  kernels receive them. The two float words that occur are kept as words: zero, and the normalisation's ε.
-/
import Idealize.ShloMosaic.Lib.ValueIdx
import Idealize.ShloMosaic.PureOps.Ideal

noncomputable section

open scoped BigOperators

namespace Cert.Spec

open Idealize.ShloMosaic Idealize.ShloMosaic.ValueIdx

/-- An `[a, b]` array of extended reals. -/
abbrev Mat (a b : ℕ) : Type := (⟨2, ![a, b]⟩ : Shape).Idx → EReal

/-- The float word zero, as an extended real. -/
abbrev zeroW : EReal := Ideal.ofBits .f32 0x00000000#32
/-- The normalisation's ε, as the extended real its float word encodes. -/
abbrev epsW : EReal := Ideal.ofBits .f32 0x3727C5AC#32

/-- The matrix product `x · w`: entry `(p, q)` is the sum over `k` of `x (p, k) · w (k, q)`. -/
def proj {M K N : ℕ} (x : Mat M K) (w : Mat K N) : Mat M N :=
  fun i => ∑ k : Fin K, x (ix2 (i 0) k) * w (ix2 k (i 1))

/-- A layer before its normalisation: aggregated messages, plus the node's own projected features scaled by its degree
    factor, plus the bias. -/
def selfLoopBias {M N : ℕ} (seg h : Mat M N) (d : Mat M 1) (b : Mat 1 N) : Mat M N :=
  fun i => seg i + h i * d (ix2 (i 0) (0 : Fin 1)) + b (ix2 (0 : Fin 1) (i 1))

/-- A normalised layer: the layer above, centred, scaled by the inverse root of the stored variance plus ε and by
    the gain, shifted, and cut at zero. -/
def normRelu {M N : ℕ} (seg h : Mat M N) (d : Mat M 1) (b g be mu v : Mat 1 N) : Mat M N :=
  fun i => max ((selfLoopBias seg h d b i - mu (ix2 (0 : Fin 1) (i 1)))
      * Ideal.rsqrt (v (ix2 (0 : Fin 1) (i 1)) + epsW) * g (ix2 (0 : Fin 1) (i 1)) + be (ix2 (0 : Fin 1) (i 1))) zeroW

/-- One dense layer with a cut at zero: `max (x · w + b) 0`. -/
def denseRelu {M K N : ℕ} (x : Mat M K) (w : Mat K N) (b : Mat 1 N) : Mat M N :=
  fun i => max (proj x w i + b (ix2 (0 : Fin 1) (i 1))) zeroW

/-- The decoder's first layer on a pair of embeddings, the weight given as its upper and lower halves. -/
def pairRelu {M K N : ℕ} (x y : Mat M K) (wa wb : Mat K N) (b : Mat 1 N) : Mat M N :=
  fun i => max (proj x wa i + proj y wb i + b (ix2 (0 : Fin 1) (i 1))) zeroW

/-- The decoder: four dense layers over a pair of embeddings, the last without a cut. -/
def decoder {P : ℕ} (x y : Mat P 128) (wa wb : Mat 128 256) (b1 : Mat 1 256) (w2 : Mat 256 128) (b2 : Mat 1 128)
    (w3 : Mat 128 64) (b3 : Mat 1 64) (w4 : Mat 64 1) (b4 : Mat 1 1) : Mat P 1 :=
  fun i => proj (denseRelu (denseRelu (pairRelu x y wa wb b1) w2 b2) w3 b3) w4 i + b4 (ix2 (0 : Fin 1) (i 1))

/-- A row of a product depends on that row of the left factor only: if `x'` holds rows `o, o + 1, …` of `x` then
    row `r` of `x' · w` is row `o + r` of `x · w`. -/
theorem proj_rows {M M' K N : ℕ} (x : Mat M K) (x' : Mat M' K) (w : Mat K N) (r : Fin M') (s : Fin M)
    (hx : ∀ k : Fin K, x' (ix2 r k) = x (ix2 s k)) (q : Fin N) :
    proj x' w (ix2 r q) = proj x w (ix2 s q) := by
  unfold proj
  refine Finset.sum_congr rfl fun k _ => ?_
  show x' (ix2 r k) * w (ix2 k q) = x (ix2 s k) * w (ix2 k q)
  rw [hx k]

end Cert.Spec

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.RegionProj0.lean ====
/-
  The first dense projection: node features [50000,128] times the first layer's weight [128,256], computed a band of
  5000 rows at a time. Each grid point reads its band of the features and the whole weight and writes the band's
  product; the ten bands tile the output array, so after the launch the array is the product of the whole arrays.
-/
import proofs.«181210_j52458730553561_2_alg».proof.Proof.Gen.KernelIdeal.Frame
import proofs.«181210_j52458730553561_2_alg».proof.Proof.Spec
import proofs.«181210_j52458730553561_2_alg».proof.Proof.LibPlainDot
import Idealize.ShloMosaic.Lib.Pipeline.Value
import Idealize.ShloMosaic.Lib.ValueIdx

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The origin of a rank-2 block. -/
theorem origin0 : (![0, 0] : Fin 2 → Nat) = fun _ => 0 := funext fun a => by fin_cases a <;> rfl

/-- The body's one store, entry (p, q): the contraction of row p of the left block with column q of the weight
    (a change of float format is the identity on the extended reals). -/
theorem body0_apply (x0 : Vec Ideal S5000x128 .f32) (x1 : Vec Ideal S128x256 .f32) (p : Fin 5000) (q : Fin 256) :
    k0_pay1 (F := Ideal) x0 x1 (ix2 p q) = ∑ k : Fin 128, x0 (ix2 p k) * x1 (ix2 k q) := by
  unfold k0_pay1
  exact Cert.Lib.matmul_zero_apply (M := 5000) (K := 128) (N := 256) dot_S5000x128_S128x256_S5000x256_1_0_0_1_n_n.wf none _ _ p q

/-- The printed index maps over the grid: the left operand's and the output's blocks are the same band of rows, all
    their columns; the weight's block is the whole weight. -/
theorem bands0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every band of rows is some point's. -/
theorem bands0_onto : ∀ q0 : Fin 10, ∃ t : Fin cfg0.N, win0_2.index t = ![q0.val, 0] :=
  (by decide +kernel : ∀ q0 : Fin 10, ∃ t : Fin grid0.N, win0_2.index t = ![q0.val, 0])

/-- WHAT POINT t WRITES BACK is its band of rows of the product of the whole operand arrays. -/
theorem written0 (c : Dev nD) (t : Fin cfg0.N) :
    (dat0 (F := Ideal) V c).flushed 2 t
      = ((cfg0.win 2).blk t).view.read (Elt Ideal) (Cert.Spec.proj (V c main_arg0) (V c main_arg3)) := by
  show (cfg0.win 2).cut (grid0.coords t) ((dat0 (F := Ideal) V c).after 2 t) = _
  rw [after0_2]
  unfold out0_2
  rw [View.canon_unit_zero origin0]
  simp only [View.ld_unit_zero (S := S5000x128) origin0, View.ld_unit_zero (S := S128x256) origin0]
  obtain ⟨e0, e1, e2, e3, e4, e5⟩ := bands0 t
  funext j
  obtain ⟨p, q, rfl⟩ : ∃ (p : Fin 5000) (q : Fin 256), j = ix2 p q := ⟨j 0, j 1, eq_ix2 j⟩
  refine (body0_apply (iblk0 V c 0 t) (iblk0 V c 1 t) p q).trans ?_
  show _ = Cert.Spec.proj (V c main_arg0) (V c main_arg3) (((cfg0.win 2).blk t).view.emb (ix2 p q))
  unfold Cert.Spec.proj
  refine Finset.sum_congr rfl fun k _ => ?_
  have hl : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hr : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega
  have hL : iblk0 V c 0 t (ix2 p k) = V c main_arg0 (ix2 ((((cfg0.win 2).blk t).view.emb (ix2 p q)) 0) k) := by
    show V c main_arg0 (((cfg0.win 0).blk t).view.emb (ix2 p k)) = _
    rw [hl]
    rfl
  have hR : iblk0 V c 1 t (ix2 k q) = V c main_arg3 (ix2 k ((((cfg0.win 2).blk t).view.emb (ix2 p q)) 1)) := by
    show V c main_arg3 (((cfg0.win 1).blk t).view.emb (ix2 k q)) = _
    rw [hr]
    rfl
  rw [hL, hR]

/-- An index of the output array is in point t's block iff each coordinate is in the block's range on its axis. -/
theorem mem_band0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v13).slice (win0_2.rect t)).set ↔ _
  rw [View.set_slice_whole, Rect.mem_set_unit]
  exact Iff.rfl

/-- The bands of rows cover the output array: row r lies in band r / 5000. -/
theorem bands0_cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := bands0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_band0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE OUTPUT ARRAY after the launch is the product of the operand arrays as the launch found them. -/
theorem proj0_array (c : Dev nD) :
    (dat0 (F := Ideal) V c).arrAt 2 cfg0.N = Cert.Spec.proj (V c main_arg0) (V c main_arg3) :=
  (dat0 (F := Ideal) V c).arrAt_eq_of_cover 2 _ (fun t _ => written0 V c t) (bands0_cover)

end Cert.KernelIdeal.Regions

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibRowColumn.lean ====
/-
  Vectors as rows and columns, and rows and columns spread over a matrix, read at an index. Independent of any program.

  A `broadcast_in_dim` of a vector of length b along the second axis is the one-row matrix holding it, along the first axis
  of a vector of length a the one-column matrix; a reshape of the vector to `[1, b]` or `[a, 1]` is the same array. A
  `broadcast_in_dim` with dimensions `[0, 1]` of a one-row matrix to `[a, b]` repeats the row in every row, of a one-column
  matrix repeats the column in every column; of a scalar (no dimensions) it is the scalar everywhere.
-/
import Idealize.ShloMosaic.Lib.Pipeline.Value
import Idealize.ShloMosaic.Lib.ValueIdx
import Idealize.ShloMosaic.Lib.ValueLayout
import proofs.«181210_j52458730553561_2_alg».proof.Proof.LibColumnCast

noncomputable section

namespace Cert.Lib

open Idealize.ShloMosaic Idealize.ShloMosaic.ValueIdx

variable {α : Type}

/-- A vector of length `b` laid along the second axis of `[1, b]`: entry `(u, q)` is the vector's entry `q`. -/
theorem bcastRow_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x (ix2 u q) (ix1 q) fun ax => by
    match ax with
    | ⟨0, _⟩ =>
      show q.val = if b = 1 then 0 else q.val
      split
      · have := q.isLt; omega
      · rfl

/-- A vector of length `a` laid along the first axis of `[a, 1]`: entry `(p, u)` is the vector's entry `p`. -/
theorem bcastCol_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- A one-row matrix repeated in every row of `[a, b]`: entry `(p, q)` is the row's entry `q`. -/
theorem spreadRow_apply {a b : ℕ} (y : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h y (ix2 p q) = y (ix2 (0 : Fin 1) q) :=
  broadcastInDim_apply _ h y (ix2 p q) (ix2 (0 : Fin 1) q) fun ax => by
    match ax with
    | ⟨0, _⟩ => rfl
    | ⟨1, _⟩ =>
      show q.val = if b = 1 then 0 else q.val
      split
      · have := q.isLt; omega
      · rfl

/-- A one-column matrix repeated in every column of `[a, b]`: entry `(p, q)` is the column's entry `p`. -/
theorem spreadCol_apply {a b : ℕ} (y : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h y (ix2 p q) = y (ix2 p (0 : Fin 1)) :=
  broadcastInDim_apply _ h y (ix2 p q) (ix2 p (0 : Fin 1)) fun ax => by
    match ax with
    | ⟨0, _⟩ =>
      show p.val = if a = 1 then 0 else p.val
      split
      · have := p.isLt; omega
      · rfl
    | ⟨1, _⟩ => rfl

/-- A scalar spread over any shape is the scalar at every index. -/
theorem splat_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply _ h x j ix0 fun ax => ax.elim0

/-- A vector reshaped to one row is the vector laid along the second axis. -/
theorem reshapeRow_eq {b : ℕ} (x : (⟨1, ![b]⟩ : Shape).Idx → α) (h : (⟨1, ![b]⟩ : Shape).ShapeCasts ⟨2, ![1, b]⟩)
    (h' : (⟨1, ![b]⟩ : Shape).BroadcastsInDim ⟨2, ![1, b]⟩ ![1]) :
    shapeCast ⟨2, ![1, b]⟩ x h = broadcastInDim ⟨2, ![1, b]⟩ ![1] h' x := by
  funext j
  obtain ⟨u, q, rfl⟩ : ∃ (u : Fin 1) (q : Fin b), j = ix2 u q := ⟨j 0, j 1, eq_ix2 j⟩
  rw [shapeCast_a_1a_apply, bcastRow_apply]

/-- A vector reshaped to one column is the vector laid along the first axis. -/
theorem reshapeCol_eq {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨p, u, rfl⟩ : ∃ (p : Fin a) (u : Fin 1), j = ix2 p u := ⟨j 0, j 1, eq_ix2 j⟩
  rw [shapeCast_a_a1_apply, bcastCol_apply]

end Cert.Lib

end
-- ==== Proof.LibBandSplit.lean ====
/-
  Sums over an index range cut into bands, and three matrices joined side by side read at an index.

  A sum over the 2n + 1 positions 0 … 2n is the sum over the first n, plus the sum over the next n, plus the last
  term; a sum over 2n positions is the sum over the first n plus the sum over the next n. Only the laws of a commutative
  monoid are used, so the statements hold over the extended reals with no finiteness side condition.

  Three matrices of A, B and C columns joined side by side (a concatenation along axis 1 into T columns): at column
  j < A the join reads the first at column j, at column A + i it reads the second at column i, and at column A + B + i
  it reads the third at column i. Any element type.
-/
import Mathlib.Algebra.BigOperators.Fin
import Idealize.ShloMosaic.Lib.Pipeline.Value
import Idealize.ShloMosaic.Lib.ValueIdx

namespace Cert.Lib

open Idealize.ShloMosaic Idealize.ShloMosaic.ValueIdx

/-- A sum over 2n positions is the sum over the first n plus the sum over the last n. -/
theorem sum_two_bands {M : Type*} [AddCommMonoid M] (n : ℕ) (f : Fin (n + n) → M) :
    ∑ k, f k = (∑ k : Fin n, f ⟨k.val, by have := k.isLt; omega⟩) + (∑ k : Fin n, f ⟨n + k.val, by have := k.isLt; omega⟩) := by
  rw [Fin.sum_univ_add]
  rfl

/-- A sum over 2n + 1 positions is the sum over the first n, plus the sum over the next n, plus the last term. -/
theorem sum_two_bands_and_last {M : Type*} [AddCommMonoid M] (n : ℕ) (f : Fin (n + n + 1) → M) :
    ∑ k, f k = (∑ k : Fin n, f ⟨k.val, by have := k.isLt; omega⟩) + (∑ k : Fin n, f ⟨n + k.val, by have := k.isLt; omega⟩)
      + f ⟨n + n, by omega⟩ := by
  rw [Fin.sum_univ_castSucc, Fin.sum_univ_add]
  rfl

namespace ConcatTriple

variable {α : Type}

/-- Three matrices joined side by side, read in the FIRST one's columns. -/
theorem cols_first {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin A)
    (hi : i.val = j.val) :
    concatenate ⟨2, ![R, T]⟩ 1 [⟨⟨2, ![R, A]⟩, x₁⟩, ⟨⟨2, ![R, B]⟩, x₂⟩, ⟨⟨2, ![R, C]⟩, x₃⟩] h (ix2 r j) = x₁ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 0 (Nat.zero_lt_succ _) ⟨2, ![R, A]⟩ x₁ rfl rfl 0 rfl (ix2 r i)
    (fun b => match b with
      | ⟨0, _⟩ => fun _ => rfl
      | ⟨1, _⟩ => fun hb => absurd rfl hb)
    (by show 0 + i.val = j.val; omega)

/-- Three matrices joined side by side, read in the SECOND one's columns: column A + i of the join is its column i. -/
theorem cols_second {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin B)
    (hi : A + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₂ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 1 (Nat.succ_lt_succ (Nat.zero_lt_succ _)) ⟨2, ![R, B]⟩ x₂ rfl rfl A
    (by show A + 0 = A; rfl) (ix2 r i)
    (fun b => match b with
      | ⟨0, _⟩ => fun _ => rfl
      | ⟨1, _⟩ => fun hb => absurd rfl hb)
    hi

/-- Three matrices joined side by side, read in the THIRD one's columns: column A + B + i of the join is its column i. -/
theorem cols_third {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin C)
    (hi : A + B + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₃ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 2 (Nat.succ_lt_succ (Nat.succ_lt_succ (Nat.zero_lt_succ _))) ⟨2, ![R, C]⟩ x₃ rfl rfl (A + B)
    (by show A + (B + 0) = A + B; rfl) (ix2 r i)
    (fun b => match b with
      | ⟨0, _⟩ => fun _ => rfl
      | ⟨1, _⟩ => fun hb => absurd rfl hb)
    hi

end ConcatTriple

end Cert.Lib
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.Bridge.lean ====
/-
  The reference's dense stages are the whole-array functions.

  The reference program computes each dense stage of the network with whole-array operations: a product of two matrices,
  a bias laid out as one row and repeated in every row, a degree factor held as one column and repeated in every
  column, a scalar repeated everywhere, and entry-by-entry arithmetic. Read at an index, each such term is the
  corresponding function of the dense stages: the product is the sum over the shared axis, a repeated row reads the
  row, a repeated column the column, a repeated scalar the scalar. The decoder's first product is taken against two
  embeddings joined side by side; its sum over the 256 joined columns is the sum over the first embedding's 128
  against the upper half of the weight plus the sum over the second's 128 against the lower half.

  Every statement is generic in the extents and takes the side conditions of its operations as hypotheses.
-/
import proofs.«181210_j52458730553561_2_alg».proof.Proof.Spec
import proofs.«181210_j52458730553561_2_alg».proof.Proof.LibPlainDot
import proofs.«181210_j52458730553561_2_alg».proof.Proof.LibRowColumn
import proofs.«181210_j52458730553561_2_alg».proof.Proof.LibBandSplit
import proofs.«181210_j52458730553561_2_alg».proof.Proof.LibConcatPair
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx
open Cert.Spec (Mat proj selfLoopBias normRelu denseRelu pairRelu decoder zeroW epsW)
open Cert.Lib (bcastRow_apply bcastCol_apply spreadRow_apply spreadCol_apply splat_apply)

/-- (1) THE HOST'S PRODUCT IS THE SUM OVER THE SHARED AXIS. -/
theorem hostDot_eq_proj {M K N : ℕ} (d : DotDims ⟨2, ![M, K]⟩ ⟨2, ![K, N]⟩ ⟨2, ![M, N]⟩) (wf : DotDims.WF ⟨2, ![M, K]⟩ ⟨2, ![K, N]⟩ ⟨2, ![M, N]⟩ [1] [0] [0] [1] [] [])
    (hd : d = Cert.Lib.plainDot M K N wf) (x : FVec Ideal ⟨2, ![M, K]⟩ .f32) (w : FVec Ideal ⟨2, ![K, N]⟩ .f32) :
    (Host.dotGeneral (F := Ideal) d none x w) = proj x w := by
  subst hd
  funext i
  obtain ⟨p, q, rfl⟩ : ∃ (p : Fin M) (q : Fin N), i = ix2 p q := ⟨i 0, i 1, eq_ix2 i⟩
  exact Cert.Lib.dotGeneral_plain_apply wf none .single x w p q

/-- (2) A LAYER BEFORE ITS NORMALISATION: the messages, plus the projected features times the degree column repeated in
    every column, plus the bias row repeated in every row. -/
theorem selfLoopBias_eq_host {M N : ℕ} (seg h : FVec Ideal ⟨2, ![M, N]⟩ .f32) (d : FVec Ideal ⟨2, ![M, 1]⟩ .f32) (b : FVec Ideal ⟨1, ![N]⟩ .f32)
    (hrow : (⟨1, ![N]⟩ : Shape).BroadcastsInDim ⟨2, ![1, N]⟩ ![1]) (hsp : (⟨2, ![1, N]⟩ : Shape).BroadcastsInDim ⟨2, ![M, N]⟩ ![0, 1]) (hcol : (⟨2, ![M, 1]⟩ : Shape).BroadcastsInDim ⟨2, ![M, N]⟩ ![0, 1]) :
    addf (addf seg (mulf h (broadcastInDim ⟨2, ![M, N]⟩ ![0, 1] hcol d))) (broadcastInDim ⟨2, ![M, N]⟩ ![0, 1] hsp (broadcastInDim ⟨2, ![1, N]⟩ ![1] hrow b))
      = selfLoopBias seg h d (broadcastInDim ⟨2, ![1, N]⟩ ![1] hrow b) := by
  funext i
  obtain ⟨p, q, rfl⟩ : ∃ (p : Fin M) (q : Fin N), i = ix2 p q := ⟨i 0, i 1, eq_ix2 i⟩
  show seg (ix2 p q) + h (ix2 p q) * (broadcastInDim ⟨2, ![M, N]⟩ ![0, 1] hcol d) (ix2 p q) + (broadcastInDim ⟨2, ![M, N]⟩ ![0, 1] hsp (broadcastInDim ⟨2, ![1, N]⟩ ![1] hrow b)) (ix2 p q)
    = seg (ix2 p q) + h (ix2 p q) * d (ix2 p (0 : Fin 1)) + (broadcastInDim ⟨2, ![1, N]⟩ ![1] hrow b) (ix2 (0 : Fin 1) q)
  rw [spreadCol_apply, spreadRow_apply]

/-- (3) A NORMALISED LAYER: the layer above, less the mean row, times the row of inverse roots of the variance plus ε,
    times the gain row, plus the shift row, cut at zero. -/
theorem normRelu_eq_host {M N : ℕ} (seg h : FVec Ideal ⟨2, ![M, N]⟩ .f32) (d : FVec Ideal ⟨2, ![M, 1]⟩ .f32) (b g be mu v : FVec Ideal ⟨1, ![N]⟩ .f32)
    (hrow : (⟨1, ![N]⟩ : Shape).BroadcastsInDim ⟨2, ![1, N]⟩ ![1]) (hsp : (⟨2, ![1, N]⟩ : Shape).BroadcastsInDim ⟨2, ![M, N]⟩ ![0, 1]) (hcol : (⟨2, ![M, 1]⟩ : Shape).BroadcastsInDim ⟨2, ![M, N]⟩ ![0, 1])
    (hs : (⟨0, ![]⟩ : Shape).BroadcastsInDim ⟨1, ![N]⟩ ![]) (hz : (⟨0, ![]⟩ : Shape).BroadcastsInDim ⟨2, ![M, N]⟩ ![]) :
    maximumf (addf (mulf (mulf (subf (addf (addf seg (mulf h (broadcastInDim ⟨2, ![M, N]⟩ ![0, 1] hcol d))) (broadcastInDim ⟨2, ![M, N]⟩ ![0, 1] hsp (broadcastInDim ⟨2, ![1, N]⟩ ![1] hrow b))) (broadcastInDim ⟨2, ![M, N]⟩ ![0, 1] hsp (broadcastInDim ⟨2, ![1, N]⟩ ![1] hrow mu)))
        (broadcastInDim ⟨2, ![M, N]⟩ ![0, 1] hsp (broadcastInDim ⟨2, ![1, N]⟩ ![1] hrow (Host.rsqrt (F := Ideal) (addf v (broadcastInDim ⟨1, ![N]⟩ ![] hs (constant (F := Ideal) ⟨0, ![]⟩ .f32 0x3727C5AC#32))))))) (broadcastInDim ⟨2, ![M, N]⟩ ![0, 1] hsp (broadcastInDim ⟨2, ![1, N]⟩ ![1] hrow g))) (broadcastInDim ⟨2, ![M, N]⟩ ![0, 1] hsp (broadcastInDim ⟨2, ![1, N]⟩ ![1] hrow be))) (broadcastInDim ⟨2, ![M, N]⟩ ![] hz (constant (F := Ideal) ⟨0, ![]⟩ .f32 0x00000000#32))
      = normRelu seg h d (broadcastInDim ⟨2, ![1, N]⟩ ![1] hrow b) (broadcastInDim ⟨2, ![1, N]⟩ ![1] hrow g) (broadcastInDim ⟨2, ![1, N]⟩ ![1] hrow be) (broadcastInDim ⟨2, ![1, N]⟩ ![1] hrow mu) (broadcastInDim ⟨2, ![1, N]⟩ ![1] hrow v) := by
  funext i
  obtain ⟨p, q, rfl⟩ : ∃ (p : Fin M) (q : Fin N), i = ix2 p q := ⟨i 0, i 1, eq_ix2 i⟩
  show max ((seg (ix2 p q) + h (ix2 p q) * (broadcastInDim ⟨2, ![M, N]⟩ ![0, 1] hcol d) (ix2 p q) + (broadcastInDim ⟨2, ![M, N]⟩ ![0, 1] hsp (broadcastInDim ⟨2, ![1, N]⟩ ![1] hrow b)) (ix2 p q)
        - (broadcastInDim ⟨2, ![M, N]⟩ ![0, 1] hsp (broadcastInDim ⟨2, ![1, N]⟩ ![1] hrow mu)) (ix2 p q)) * (broadcastInDim ⟨2, ![M, N]⟩ ![0, 1] hsp (broadcastInDim ⟨2, ![1, N]⟩ ![1] hrow (Host.rsqrt (F := Ideal) (addf v (broadcastInDim ⟨1, ![N]⟩ ![] hs (constant (F := Ideal) ⟨0, ![]⟩ .f32 0x3727C5AC#32)))))) (ix2 p q) * (broadcastInDim ⟨2, ![M, N]⟩ ![0, 1] hsp (broadcastInDim ⟨2, ![1, N]⟩ ![1] hrow g)) (ix2 p q)
        + (broadcastInDim ⟨2, ![M, N]⟩ ![0, 1] hsp (broadcastInDim ⟨2, ![1, N]⟩ ![1] hrow be)) (ix2 p q)) ((broadcastInDim ⟨2, ![M, N]⟩ ![] hz (constant (F := Ideal) ⟨0, ![]⟩ .f32 0x00000000#32)) (ix2 p q))
    = max ((seg (ix2 p q) + h (ix2 p q) * d (ix2 p (0 : Fin 1)) + (broadcastInDim ⟨2, ![1, N]⟩ ![1] hrow b) (ix2 (0 : Fin 1) q)
        - (broadcastInDim ⟨2, ![1, N]⟩ ![1] hrow mu) (ix2 (0 : Fin 1) q)) * Ideal.rsqrt ((broadcastInDim ⟨2, ![1, N]⟩ ![1] hrow v) (ix2 (0 : Fin 1) q) + epsW) * (broadcastInDim ⟨2, ![1, N]⟩ ![1] hrow g) (ix2 (0 : Fin 1) q)
        + (broadcastInDim ⟨2, ![1, N]⟩ ![1] hrow be) (ix2 (0 : Fin 1) q)) zeroW
  rw [spreadCol_apply, spreadRow_apply, spreadRow_apply, spreadRow_apply, spreadRow_apply, spreadRow_apply, splat_apply]
  rw [bcastRow_apply (Host.rsqrt (F := Ideal) (addf v (broadcastInDim ⟨1, ![N]⟩ ![] hs (constant (F := Ideal) ⟨0, ![]⟩ .f32 0x3727C5AC#32)))), bcastRow_apply v]
  show _ = max ((seg (ix2 p q) + h (ix2 p q) * d (ix2 p (0 : Fin 1)) + (broadcastInDim ⟨2, ![1, N]⟩ ![1] hrow b) (ix2 (0 : Fin 1) q)
        - (broadcastInDim ⟨2, ![1, N]⟩ ![1] hrow mu) (ix2 (0 : Fin 1) q)) * Ideal.rsqrt (v (ix1 q) + (broadcastInDim ⟨1, ![N]⟩ ![] hs (constant (F := Ideal) ⟨0, ![]⟩ .f32 0x3727C5AC#32)) (ix1 q)) * (broadcastInDim ⟨2, ![1, N]⟩ ![1] hrow g) (ix2 (0 : Fin 1) q)
        + (broadcastInDim ⟨2, ![1, N]⟩ ![1] hrow be) (ix2 (0 : Fin 1) q)) zeroW
  rw [splat_apply]
  rfl

/-- (4) A DENSE LAYER WITH A CUT AT ZERO: the product plus the bias row repeated in every row, cut at zero. -/
theorem denseRelu_eq_host {M K N : ℕ} (x : FVec Ideal ⟨2, ![M, K]⟩ .f32) (w : FVec Ideal ⟨2, ![K, N]⟩ .f32) (b : FVec Ideal ⟨1, ![N]⟩ .f32)
    (d : DotDims ⟨2, ![M, K]⟩ ⟨2, ![K, N]⟩ ⟨2, ![M, N]⟩) (wf : DotDims.WF ⟨2, ![M, K]⟩ ⟨2, ![K, N]⟩ ⟨2, ![M, N]⟩ [1] [0] [0] [1] [] []) (hd : d = Cert.Lib.plainDot M K N wf)
    (hrow : (⟨1, ![N]⟩ : Shape).BroadcastsInDim ⟨2, ![1, N]⟩ ![1]) (hsp : (⟨2, ![1, N]⟩ : Shape).BroadcastsInDim ⟨2, ![M, N]⟩ ![0, 1]) (hz : (⟨0, ![]⟩ : Shape).BroadcastsInDim ⟨2, ![M, N]⟩ ![]) :
    maximumf (addf (Host.dotGeneral (F := Ideal) d none x w) (broadcastInDim ⟨2, ![M, N]⟩ ![0, 1] hsp (broadcastInDim ⟨2, ![1, N]⟩ ![1] hrow b))) (broadcastInDim ⟨2, ![M, N]⟩ ![] hz (constant (F := Ideal) ⟨0, ![]⟩ .f32 0x00000000#32)) = denseRelu x w (broadcastInDim ⟨2, ![1, N]⟩ ![1] hrow b) := by
  rw [hostDot_eq_proj d wf hd x w]
  funext i
  obtain ⟨p, q, rfl⟩ : ∃ (p : Fin M) (q : Fin N), i = ix2 p q := ⟨i 0, i 1, eq_ix2 i⟩
  show max (proj x w (ix2 p q) + (broadcastInDim ⟨2, ![M, N]⟩ ![0, 1] hsp (broadcastInDim ⟨2, ![1, N]⟩ ![1] hrow b)) (ix2 p q)) ((broadcastInDim ⟨2, ![M, N]⟩ ![] hz (constant (F := Ideal) ⟨0, ![]⟩ .f32 0x00000000#32)) (ix2 p q))
    = max (proj x w (ix2 p q) + (broadcastInDim ⟨2, ![1, N]⟩ ![1] hrow b) (ix2 (0 : Fin 1) q)) zeroW
  rw [spreadRow_apply, splat_apply]
  rfl

/-- The product of two embeddings joined side by side with a 256-row weight is the first embedding's product with the
    weight's upper half plus the second's with its lower half. -/
theorem joinedDot_eq {P : ℕ} (x y : FVec Ideal ⟨2, ![P, 128]⟩ .f32) (w : FVec Ideal ⟨2, ![256, 256]⟩ .f32)
    (hc : Shape.Concatenates [⟨2, ![P, 128]⟩, ⟨2, ![P, 128]⟩] ⟨2, ![P, 256]⟩ 1)
    (hs0 : (⟨2, ![256, 256]⟩ : Shape).Slices ![0, 0] ⟨2, ![128, 256]⟩) (hs1 : (⟨2, ![256, 256]⟩ : Shape).Slices ![128, 0] ⟨2, ![128, 256]⟩)
    (p : Fin P) (q : Fin 256) :
    proj (concatenate ⟨2, ![P, 256]⟩ 1 [⟨⟨2, ![P, 128]⟩, x⟩, ⟨⟨2, ![P, 128]⟩, y⟩] hc) w (ix2 p q) = proj x (extractStridedSlice ⟨2, ![128, 256]⟩ ![0, 0] w hs0) (ix2 p q) + proj y (extractStridedSlice ⟨2, ![128, 256]⟩ ![128, 0] w hs1) (ix2 p q) := by
  show ∑ k : Fin 256, (concatenate ⟨2, ![P, 256]⟩ 1 [⟨⟨2, ![P, 128]⟩, x⟩, ⟨⟨2, ![P, 128]⟩, y⟩] hc) (ix2 p k) * w (ix2 k q)
    = (∑ k : Fin 128, x (ix2 p k) * (extractStridedSlice ⟨2, ![128, 256]⟩ ![0, 0] w hs0) (ix2 k q)) + (∑ k : Fin 128, y (ix2 p k) * (extractStridedSlice ⟨2, ![128, 256]⟩ ![128, 0] w hs1) (ix2 k q))
  refine (Cert.Lib.sum_two_bands 128 (fun k : Fin (128 + 128) => (concatenate ⟨2, ![P, 256]⟩ 1 [⟨⟨2, ![P, 128]⟩, x⟩, ⟨⟨2, ![P, 128]⟩, y⟩] hc) (ix2 p k) * w (ix2 k q))).trans ?_
  congr 1
  · refine Finset.sum_congr rfl fun k _ => ?_
    have hk : k.val < 256 := by have := k.isLt; omega
    show (concatenate ⟨2, ![P, 256]⟩ 1 [⟨⟨2, ![P, 128]⟩, x⟩, ⟨⟨2, ![P, 128]⟩, y⟩] hc) (ix2 p (⟨k.val, hk⟩ : Fin 256)) * w (ix2 (⟨k.val, hk⟩ : Fin 256) q) = x (ix2 p k) * (extractStridedSlice ⟨2, ![128, 256]⟩ ![0, 0] w hs0) (ix2 k q)
    rw [Cert.Lib.ConcatPair.cols_left x y hc p ⟨k.val, hk⟩ k rfl,
      slice2_axis0_apply 0 w hs0 k q ⟨k.val, hk⟩ (Nat.zero_add _).symm]
  · refine Finset.sum_congr rfl fun k _ => ?_
    have hk : 128 + k.val < 256 := by have := k.isLt; omega
    show (concatenate ⟨2, ![P, 256]⟩ 1 [⟨⟨2, ![P, 128]⟩, x⟩, ⟨⟨2, ![P, 128]⟩, y⟩] hc) (ix2 p (⟨128 + k.val, hk⟩ : Fin 256)) * w (ix2 (⟨128 + k.val, hk⟩ : Fin 256) q) = y (ix2 p k) * (extractStridedSlice ⟨2, ![128, 256]⟩ ![128, 0] w hs1) (ix2 k q)
    rw [Cert.Lib.ConcatPair.cols_right x y hc p ⟨128 + k.val, hk⟩ k (Nat.add_comm _ _),
      slice2_axis0_apply 128 w hs1 k q ⟨128 + k.val, hk⟩ rfl]

/-- (5) THE DECODER'S FIRST LAYER: the joined embeddings' product plus the bias row, cut at zero, is the pair layer on
    the weight's two halves. -/
theorem pairRelu_eq_host {P : ℕ} (x y : FVec Ideal ⟨2, ![P, 128]⟩ .f32) (w : FVec Ideal ⟨2, ![256, 256]⟩ .f32) (b : FVec Ideal ⟨1, ![256]⟩ .f32)
    (hc : Shape.Concatenates [⟨2, ![P, 128]⟩, ⟨2, ![P, 128]⟩] ⟨2, ![P, 256]⟩ 1)
    (d : DotDims ⟨2, ![P, 256]⟩ ⟨2, ![256, 256]⟩ ⟨2, ![P, 256]⟩) (wf : DotDims.WF ⟨2, ![P, 256]⟩ ⟨2, ![256, 256]⟩ ⟨2, ![P, 256]⟩ [1] [0] [0] [1] [] []) (hd : d = Cert.Lib.plainDot P 256 256 wf)
    (hs0 : (⟨2, ![256, 256]⟩ : Shape).Slices ![0, 0] ⟨2, ![128, 256]⟩) (hs1 : (⟨2, ![256, 256]⟩ : Shape).Slices ![128, 0] ⟨2, ![128, 256]⟩)
    (hrow : (⟨1, ![256]⟩ : Shape).BroadcastsInDim ⟨2, ![1, 256]⟩ ![1]) (hsp : (⟨2, ![1, 256]⟩ : Shape).BroadcastsInDim ⟨2, ![P, 256]⟩ ![0, 1]) (hz : (⟨0, ![]⟩ : Shape).BroadcastsInDim ⟨2, ![P, 256]⟩ ![]) :
    maximumf (addf (Host.dotGeneral (F := Ideal) d none (concatenate ⟨2, ![P, 256]⟩ 1 [⟨⟨2, ![P, 128]⟩, x⟩, ⟨⟨2, ![P, 128]⟩, y⟩] hc) w) (broadcastInDim ⟨2, ![P, 256]⟩ ![0, 1] hsp (broadcastInDim ⟨2, ![1, 256]⟩ ![1] hrow b))) (broadcastInDim ⟨2, ![P, 256]⟩ ![] hz (constant (F := Ideal) ⟨0, ![]⟩ .f32 0x00000000#32))
      = pairRelu x y (extractStridedSlice ⟨2, ![128, 256]⟩ ![0, 0] w hs0) (extractStridedSlice ⟨2, ![128, 256]⟩ ![128, 0] w hs1) (broadcastInDim ⟨2, ![1, 256]⟩ ![1] hrow b) := by
  rw [hostDot_eq_proj d wf hd (concatenate ⟨2, ![P, 256]⟩ 1 [⟨⟨2, ![P, 128]⟩, x⟩, ⟨⟨2, ![P, 128]⟩, y⟩] hc) w]
  funext i
  obtain ⟨p, q, rfl⟩ : ∃ (p : Fin P) (q : Fin 256), i = ix2 p q := ⟨i 0, i 1, eq_ix2 i⟩
  show max (proj (concatenate ⟨2, ![P, 256]⟩ 1 [⟨⟨2, ![P, 128]⟩, x⟩, ⟨⟨2, ![P, 128]⟩, y⟩] hc) w (ix2 p q) + (broadcastInDim ⟨2, ![P, 256]⟩ ![0, 1] hsp (broadcastInDim ⟨2, ![1, 256]⟩ ![1] hrow b)) (ix2 p q)) ((broadcastInDim ⟨2, ![P, 256]⟩ ![] hz (constant (F := Ideal) ⟨0, ![]⟩ .f32 0x00000000#32)) (ix2 p q))
    = max (proj x (extractStridedSlice ⟨2, ![128, 256]⟩ ![0, 0] w hs0) (ix2 p q) + proj y (extractStridedSlice ⟨2, ![128, 256]⟩ ![128, 0] w hs1) (ix2 p q) + (broadcastInDim ⟨2, ![1, 256]⟩ ![1] hrow b) (ix2 (0 : Fin 1) q)) zeroW
  rw [joinedDot_eq x y w hc hs0 hs1 p q, spreadRow_apply, splat_apply]
  rfl

/-- (6) THE LAST LAYER: the product plus the bias repeated in every row, with no cut. -/
theorem lastLayer_eq_host {M K : ℕ} (x : FVec Ideal ⟨2, ![M, K]⟩ .f32) (w : FVec Ideal ⟨2, ![K, 1]⟩ .f32) (b : FVec Ideal ⟨1, ![1]⟩ .f32)
    (d : DotDims ⟨2, ![M, K]⟩ ⟨2, ![K, 1]⟩ ⟨2, ![M, 1]⟩) (wf : DotDims.WF ⟨2, ![M, K]⟩ ⟨2, ![K, 1]⟩ ⟨2, ![M, 1]⟩ [1] [0] [0] [1] [] []) (hd : d = Cert.Lib.plainDot M K 1 wf)
    (hrow : (⟨1, ![1]⟩ : Shape).BroadcastsInDim ⟨2, ![1, 1]⟩ ![1]) (hsp : (⟨2, ![1, 1]⟩ : Shape).BroadcastsInDim ⟨2, ![M, 1]⟩ ![0, 1]) :
    addf (Host.dotGeneral (F := Ideal) d none x w) (broadcastInDim ⟨2, ![M, 1]⟩ ![0, 1] hsp (broadcastInDim ⟨2, ![1, 1]⟩ ![1] hrow b))
      = fun i => proj x w i + (broadcastInDim ⟨2, ![1, 1]⟩ ![1] hrow b) (ix2 (0 : Fin 1) (i 1)) := by
  rw [hostDot_eq_proj d wf hd x w]
  funext i
  obtain ⟨p, q, rfl⟩ : ∃ (p : Fin M) (q : Fin 1), i = ix2 p q := ⟨i 0, i 1, eq_ix2 i⟩
  show proj x w (ix2 p q) + (broadcastInDim ⟨2, ![M, 1]⟩ ![0, 1] hsp (broadcastInDim ⟨2, ![1, 1]⟩ ![1] hrow b)) (ix2 p q) = proj x w (ix2 p q) + (broadcastInDim ⟨2, ![1, 1]⟩ ![1] hrow b) (ix2 (0 : Fin 1) q)
  rw [spreadRow_apply]

/-- (7) THE DECODER: the reference's four layers, nested, are the decoder of the two embeddings, the first weight's two
    halves, and the remaining weights and bias rows. -/
theorem decoder_eq_host {P : ℕ} (x y : FVec Ideal ⟨2, ![P, 128]⟩ .f32) (w1 : FVec Ideal ⟨2, ![256, 256]⟩ .f32) (b1 : FVec Ideal ⟨1, ![256]⟩ .f32)
    (w2 : FVec Ideal ⟨2, ![256, 128]⟩ .f32) (b2 : FVec Ideal ⟨1, ![128]⟩ .f32) (w3 : FVec Ideal ⟨2, ![128, 64]⟩ .f32) (b3 : FVec Ideal ⟨1, ![64]⟩ .f32) (w4 : FVec Ideal ⟨2, ![64, 1]⟩ .f32) (b4 : FVec Ideal ⟨1, ![1]⟩ .f32)
    (hc : Shape.Concatenates [⟨2, ![P, 128]⟩, ⟨2, ![P, 128]⟩] ⟨2, ![P, 256]⟩ 1)
    (hs0 : (⟨2, ![256, 256]⟩ : Shape).Slices ![0, 0] ⟨2, ![128, 256]⟩) (hs1 : (⟨2, ![256, 256]⟩ : Shape).Slices ![128, 0] ⟨2, ![128, 256]⟩)
    (d1 : DotDims ⟨2, ![P, 256]⟩ ⟨2, ![256, 256]⟩ ⟨2, ![P, 256]⟩) (wf1 : DotDims.WF ⟨2, ![P, 256]⟩ ⟨2, ![256, 256]⟩ ⟨2, ![P, 256]⟩ [1] [0] [0] [1] [] []) (hd1 : d1 = Cert.Lib.plainDot P 256 256 wf1)
    (hrow1 : (⟨1, ![256]⟩ : Shape).BroadcastsInDim ⟨2, ![1, 256]⟩ ![1]) (hsp1 : (⟨2, ![1, 256]⟩ : Shape).BroadcastsInDim ⟨2, ![P, 256]⟩ ![0, 1]) (hz1 : (⟨0, ![]⟩ : Shape).BroadcastsInDim ⟨2, ![P, 256]⟩ ![])
    (d2 : DotDims ⟨2, ![P, 256]⟩ ⟨2, ![256, 128]⟩ ⟨2, ![P, 128]⟩) (wf2 : DotDims.WF ⟨2, ![P, 256]⟩ ⟨2, ![256, 128]⟩ ⟨2, ![P, 128]⟩ [1] [0] [0] [1] [] []) (hd2 : d2 = Cert.Lib.plainDot P 256 128 wf2)
    (hrow2 : (⟨1, ![128]⟩ : Shape).BroadcastsInDim ⟨2, ![1, 128]⟩ ![1]) (hsp2 : (⟨2, ![1, 128]⟩ : Shape).BroadcastsInDim ⟨2, ![P, 128]⟩ ![0, 1]) (hz2 : (⟨0, ![]⟩ : Shape).BroadcastsInDim ⟨2, ![P, 128]⟩ ![])
    (d3 : DotDims ⟨2, ![P, 128]⟩ ⟨2, ![128, 64]⟩ ⟨2, ![P, 64]⟩) (wf3 : DotDims.WF ⟨2, ![P, 128]⟩ ⟨2, ![128, 64]⟩ ⟨2, ![P, 64]⟩ [1] [0] [0] [1] [] []) (hd3 : d3 = Cert.Lib.plainDot P 128 64 wf3)
    (hrow3 : (⟨1, ![64]⟩ : Shape).BroadcastsInDim ⟨2, ![1, 64]⟩ ![1]) (hsp3 : (⟨2, ![1, 64]⟩ : Shape).BroadcastsInDim ⟨2, ![P, 64]⟩ ![0, 1]) (hz3 : (⟨0, ![]⟩ : Shape).BroadcastsInDim ⟨2, ![P, 64]⟩ ![])
    (d4 : DotDims ⟨2, ![P, 64]⟩ ⟨2, ![64, 1]⟩ ⟨2, ![P, 1]⟩) (wf4 : DotDims.WF ⟨2, ![P, 64]⟩ ⟨2, ![64, 1]⟩ ⟨2, ![P, 1]⟩ [1] [0] [0] [1] [] []) (hd4 : d4 = Cert.Lib.plainDot P 64 1 wf4)
    (hrow4 : (⟨1, ![1]⟩ : Shape).BroadcastsInDim ⟨2, ![1, 1]⟩ ![1]) (hsp4 : (⟨2, ![1, 1]⟩ : Shape).BroadcastsInDim ⟨2, ![P, 1]⟩ ![0, 1]) :
    addf (Host.dotGeneral (F := Ideal) d4 none (maximumf (addf (Host.dotGeneral (F := Ideal) d3 none (maximumf (addf (Host.dotGeneral (F := Ideal) d2 none (maximumf (addf (Host.dotGeneral (F := Ideal) d1 none (concatenate ⟨2, ![P, 256]⟩ 1 [⟨⟨2, ![P, 128]⟩, x⟩, ⟨⟨2, ![P, 128]⟩, y⟩] hc) w1) (broadcastInDim ⟨2, ![P, 256]⟩ ![0, 1] hsp1 (broadcastInDim ⟨2, ![1, 256]⟩ ![1] hrow1 b1))) (broadcastInDim ⟨2, ![P, 256]⟩ ![] hz1 (constant (F := Ideal) ⟨0, ![]⟩ .f32 0x00000000#32))) w2) (broadcastInDim ⟨2, ![P, 128]⟩ ![0, 1] hsp2 (broadcastInDim ⟨2, ![1, 128]⟩ ![1] hrow2 b2))) (broadcastInDim ⟨2, ![P, 128]⟩ ![] hz2 (constant (F := Ideal) ⟨0, ![]⟩ .f32 0x00000000#32))) w3) (broadcastInDim ⟨2, ![P, 64]⟩ ![0, 1] hsp3 (broadcastInDim ⟨2, ![1, 64]⟩ ![1] hrow3 b3))) (broadcastInDim ⟨2, ![P, 64]⟩ ![] hz3 (constant (F := Ideal) ⟨0, ![]⟩ .f32 0x00000000#32))) w4) (broadcastInDim ⟨2, ![P, 1]⟩ ![0, 1] hsp4 (broadcastInDim ⟨2, ![1, 1]⟩ ![1] hrow4 b4))
      = decoder x y (extractStridedSlice ⟨2, ![128, 256]⟩ ![0, 0] w1 hs0) (extractStridedSlice ⟨2, ![128, 256]⟩ ![128, 0] w1 hs1) (broadcastInDim ⟨2, ![1, 256]⟩ ![1] hrow1 b1) w2 (broadcastInDim ⟨2, ![1, 128]⟩ ![1] hrow2 b2) w3 (broadcastInDim ⟨2, ![1, 64]⟩ ![1] hrow3 b3) w4 (broadcastInDim ⟨2, ![1, 1]⟩ ![1] hrow4 b4) := by
  rw [pairRelu_eq_host x y w1 b1 hc d1 wf1 hd1 hs0 hs1 hrow1 hsp1 hz1,
    denseRelu_eq_host _ w2 b2 d2 wf2 hd2 hrow2 hsp2 hz2,
    denseRelu_eq_host _ w3 b3 d3 wf3 hd3 hrow3 hsp3 hz3,
    lastLayer_eq_host _ w4 b4 d4 wf4 hd4 hrow4 hsp4]
  rfl

end Cert.Bridge

end
-- ==== Proof.ChainA.lean ====
/-
  The buffers at the first two boundaries.

  The first host stretch computes, from the edge list, the source and destination index vectors, the inverse root degree
  of every node (one plus the number of edges arriving at it, under the reciprocal square root) and its square as a
  column; these are the reference program's own operations in the same order, so each buffer holds the reference's
  stage of the same name. The first launch then leaves the projected features, the reference's first matrix product.
-/
import proofs.«181210_j52458730553561_2_alg».proof.Proof.ChainArgs
import proofs.«181210_j52458730553561_2_alg».proof.Proof.RegionProj0
import proofs.«181210_j52458730553561_2_alg».proof.Proof.Gen.ReferenceIdeal.Read
import proofs.«181210_j52458730553561_2_alg».proof.Proof.Bridge
import proofs.«181210_j52458730553561_2_alg».proof.Proof.LibRowColumn

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Boundary 1 -/

theorem at1_v1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results_simp
  rfl

theorem at1_v3 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results_simp
  rfl

theorem at1_v10 : W1 m ρ c (Proc.devRef .tc main_v10) = (Cert.ReferenceIdeal.Read.val_main_v10 (F := Ideal) (m ((c : Thread nD τ).loc main_arg1))) := by
  show StableHlo.after hostOps0 (W0 m ρ c) (Proc.devRef .tc main_v10) = _
  after_results_simp
  rfl

theorem at1_v12 : W1 m ρ c (Proc.devRef .tc main_v12) = (Cert.ReferenceIdeal.Read.val_main_v41 (F := Ideal) (m ((c : Thread nD τ).loc main_arg1))) := by
  show StableHlo.after hostOps0 (W0 m ρ c) (Proc.devRef .tc main_v12) = _
  after_results_simp
  refine Eq.trans (show _ = shapeCast S50000x1 (Cert.ReferenceIdeal.Read.val_main_v40 (F := Ideal) (m ((c : Thread nD τ).loc main_arg1))) _ from rfl) ?_
  exact Cert.Lib.reshapeCol_eq _ _ _

/-! ## Boundary 2 -/

theorem at2_v1 : W2 m ρ c (Proc.devRef .tc main_v1) = (Cert.ReferenceIdeal.Read.val_main_v1 (F := Ideal) (m ((c : Thread nD τ).loc main_arg1))) :=
  Eq.trans (W2_of_ne m ρ c main_v1 (by decide)) (at1_v1 m ρ c)

theorem at2_v3 : W2 m ρ c (Proc.devRef .tc main_v3) = (Cert.ReferenceIdeal.Read.val_main_v3 (F := Ideal) (m ((c : Thread nD τ).loc main_arg1))) :=
  Eq.trans (W2_of_ne m ρ c main_v3 (by decide)) (at1_v3 m ρ c)

theorem at2_v10 : W2 m ρ c (Proc.devRef .tc main_v10) = (Cert.ReferenceIdeal.Read.val_main_v10 (F := Ideal) (m ((c : Thread nD τ).loc main_arg1))) :=
  Eq.trans (W2_of_ne m ρ c main_v10 (by decide)) (at1_v10 m ρ c)

theorem at2_v12 : W2 m ρ c (Proc.devRef .tc main_v12) = (Cert.ReferenceIdeal.Read.val_main_v41 (F := Ideal) (m ((c : Thread nD τ).loc main_arg1))) :=
  Eq.trans (W2_of_ne m ρ c main_v12 (by decide)) (at1_v12 m ρ c)

theorem at2_v13 : W2 m ρ c (Proc.devRef .tc main_v13) = (Cert.ReferenceIdeal.Read.val_main_v11 (F := Ideal) (m ((c : Thread nD τ).loc main_arg0)) (m ((c : Thread nD τ).loc main_arg3))) :=
  Eq.trans (W2_arr m ρ c 2) (Eq.trans (Cert.KernelIdeal.Regions.proj0_array (V1 m ρ) c) (by
    show Cert.Spec.proj (W1 m ρ c (Proc.devRef .tc main_arg0)) (W1 m ρ c (Proc.devRef .tc main_arg3)) = _
    rw [at1_arg0 m ρ c, at1_arg3 m ρ c]
    exact (Cert.Bridge.hostDot_eq_proj Cert.ReferenceIdeal.dot_S50000x128_S128x256_S50000x256_1_0_0_1_n_n _ rfl _ _).symm))

end Cert.KernelIdeal.Chain

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.RegionFused1.lean ====
/-
  The first layer's dense stage with its normalisation, from the blocks the grid writes to the whole array.

  The stage's grid has 25 points; point t works on rows 2000 t … 2000 t + 1999 of the aggregated messages, of the
  projected features and of the degree factor, and on the whole rows of the bias, the gain, the shift, the stored
  mean and the stored variance. At a row p and a feature q of its block it stores
    max (((seg (p, q) + h (p, q) · d p + b q) - μ q) · rsqrt (v q + ε) · g q + β q) 0.
  The 25 blocks of 2000 rows tile the 50000 rows, so the array the stage leaves is that function of the eight whole
  arrays at every index.
-/
import proofs.«181210_j52458730553561_2_alg».proof.Proof.Gen.KernelIdeal.Frame
import proofs.«181210_j52458730553561_2_alg».proof.Proof.Spec
import proofs.«181210_j52458730553561_2_alg».proof.Proof.LibColumnBroadcast
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of a load or store of a whole block are all zero. -/
theorem fused1_zero_offsets : (![0, 0] : Fin 2 → Nat) = fun _ => 0 := funext fun a => by fin_cases a <;> rfl

/-- The value stored at row `p`, feature `q` of a block: the messages there, plus the features there times the row's
    degree factor, plus the feature's bias; centred by the feature's mean, scaled by the inverse root of its variance
    plus ε and by its gain, shifted, and cut at zero. -/
theorem fused1_payload (h : Vec Ideal S2000x256 .bf16) (seg : Vec Ideal S2000x256 .f32) (d : Vec Ideal S2000x1 .f32)
    (b mu var g be : Vec Ideal S1x256 .f32) (p : Fin 2000) (q : Fin 256) :
    k1_pay1 (F := Ideal) h seg d b mu var g be (ix2 p q)
      = max ((seg (ix2 p q) + h (ix2 p q) * d (ix2 p (0 : Fin 1)) + b (ix2 (0 : Fin 1) q) - mu (ix2 (0 : Fin 1) q))
            * Ideal.rsqrt (var (ix2 (0 : Fin 1) q) + Cert.Spec.epsW) * g (ix2 (0 : Fin 1) q)
          + be (ix2 (0 : Fin 1) q)) Cert.Spec.zeroW := by
  unfold k1_pay1
  simp only [shapeCast_self, truncf_apply, maximumf_apply, addf_apply, mulf_apply, subf_apply, extf_apply,
    broadcast_apply, Cert.Lib.broadcastTo_a1_ab_apply, broadcastTo_1b_ab_apply]
  rfl

/-- The block indices the windows' index maps give at each of the 25 grid points: the three row-blocked inputs and the
    output move together, block `t` at point `t`; each of the five per-feature rows stays at its one block. -/
theorem fused1_block_indices : ∀ t : Fin cfg1.N, t.val < 25
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- At point `t`, entry `(p, q)` of the block of the aggregated messages sits in its array where entry `(p, q)` of the output's block
    sits in the output. -/
theorem fused1_seg_at (t : Fin cfg1.N) (p : Fin 2000) (q : Fin 256) :
    ((cfg1.win 0).blk t).view.emb (ix2 p q) = ((cfg1.win 8).blk t).view.emb (ix2 p q) := by
  obtain ⟨ht, a0, b0, a1, b1, a2, b2, a3, b3, a4, b4, a5, b5, a6, b6, a7, b7, a8, b8⟩ := fused1_block_indices t
  have hp : p.val < 2000 := p.isLt
  have hq : q.val < 256 := q.isLt
  funext a; apply Fin.ext
  match a with
  | ⟨0, _⟩ => show win1_0.index t (0 : Fin 2) * 2000 + 1 * p.val = win1_8.index t (0 : Fin 2) * 2000 + 1 * p.val; omega
  | ⟨1, _⟩ => show win1_0.index t (1 : Fin 2) * 256 + 1 * q.val = win1_8.index t (1 : Fin 2) * 256 + 1 * q.val; omega

/-- At point `t`, entry `(p, q)` of the block of the projected features sits in its array where entry `(p, q)` of the output's block
    sits in the output. -/
theorem fused1_feat_at (t : Fin cfg1.N) (p : Fin 2000) (q : Fin 256) :
    ((cfg1.win 1).blk t).view.emb (ix2 p q) = ((cfg1.win 8).blk t).view.emb (ix2 p q) := by
  obtain ⟨ht, a0, b0, a1, b1, a2, b2, a3, b3, a4, b4, a5, b5, a6, b6, a7, b7, a8, b8⟩ := fused1_block_indices t
  have hp : p.val < 2000 := p.isLt
  have hq : q.val < 256 := q.isLt
  funext a; apply Fin.ext
  match a with
  | ⟨0, _⟩ => show win1_1.index t (0 : Fin 2) * 2000 + 1 * p.val = win1_8.index t (0 : Fin 2) * 2000 + 1 * p.val; omega
  | ⟨1, _⟩ => show win1_1.index t (1 : Fin 2) * 256 + 1 * q.val = win1_8.index t (1 : Fin 2) * 256 + 1 * q.val; omega

/-- At point `t`, row `p` of the block of the degree factor is the row of its array that entry `(p, q)` of the output's block
    has in the output. -/
theorem fused1_degree_at (t : Fin cfg1.N) (p : Fin 2000) (q : Fin 256) :
    ((cfg1.win 2).blk t).view.emb (ix2 p (0 : Fin 1))
      = ix2 ((((cfg1.win 8).blk t).view.emb (ix2 p q)) 0) (0 : Fin 1) := by
  obtain ⟨ht, a0, b0, a1, b1, a2, b2, a3, b3, a4, b4, a5, b5, a6, b6, a7, b7, a8, b8⟩ := fused1_block_indices t
  have hp : p.val < 2000 := p.isLt
  have hq : q.val < 256 := q.isLt
  funext a; apply Fin.ext
  match a with
  | ⟨0, _⟩ => show win1_2.index t (0 : Fin 2) * 2000 + 1 * p.val = win1_8.index t (0 : Fin 2) * 2000 + 1 * p.val; omega
  | ⟨1, _⟩ => show win1_2.index t (1 : Fin 2) * 1 + 1 * 0 = 0; omega

/-- At point `t`, feature `q` of the bias row is the feature that entry `(p, q)` of the output's block has in the output. -/
theorem fused1_bias_at (t : Fin cfg1.N) (p : Fin 2000) (q : Fin 256) :
    ((cfg1.win 3).blk t).view.emb (ix2 (0 : Fin 1) q)
      = ix2 (0 : Fin 1) ((((cfg1.win 8).blk t).view.emb (ix2 p q)) 1) := by
  obtain ⟨ht, a0, b0, a1, b1, a2, b2, a3, b3, a4, b4, a5, b5, a6, b6, a7, b7, a8, b8⟩ := fused1_block_indices t
  have hp : p.val < 2000 := p.isLt
  have hq : q.val < 256 := q.isLt
  funext a; apply Fin.ext
  match a with
  | ⟨0, _⟩ => show win1_3.index t (0 : Fin 2) * 1 + 1 * 0 = 0; omega
  | ⟨1, _⟩ => show win1_3.index t (1 : Fin 2) * 256 + 1 * q.val = win1_8.index t (1 : Fin 2) * 256 + 1 * q.val; omega

/-- At point `t`, feature `q` of the gain row is the feature that entry `(p, q)` of the output's block has in the output. -/
theorem fused1_gain_at (t : Fin cfg1.N) (p : Fin 2000) (q : Fin 256) :
    ((cfg1.win 4).blk t).view.emb (ix2 (0 : Fin 1) q)
      = ix2 (0 : Fin 1) ((((cfg1.win 8).blk t).view.emb (ix2 p q)) 1) := by
  obtain ⟨ht, a0, b0, a1, b1, a2, b2, a3, b3, a4, b4, a5, b5, a6, b6, a7, b7, a8, b8⟩ := fused1_block_indices t
  have hp : p.val < 2000 := p.isLt
  have hq : q.val < 256 := q.isLt
  funext a; apply Fin.ext
  match a with
  | ⟨0, _⟩ => show win1_4.index t (0 : Fin 2) * 1 + 1 * 0 = 0; omega
  | ⟨1, _⟩ => show win1_4.index t (1 : Fin 2) * 256 + 1 * q.val = win1_8.index t (1 : Fin 2) * 256 + 1 * q.val; omega

/-- At point `t`, feature `q` of the shift row is the feature that entry `(p, q)` of the output's block has in the output. -/
theorem fused1_shift_at (t : Fin cfg1.N) (p : Fin 2000) (q : Fin 256) :
    ((cfg1.win 5).blk t).view.emb (ix2 (0 : Fin 1) q)
      = ix2 (0 : Fin 1) ((((cfg1.win 8).blk t).view.emb (ix2 p q)) 1) := by
  obtain ⟨ht, a0, b0, a1, b1, a2, b2, a3, b3, a4, b4, a5, b5, a6, b6, a7, b7, a8, b8⟩ := fused1_block_indices t
  have hp : p.val < 2000 := p.isLt
  have hq : q.val < 256 := q.isLt
  funext a; apply Fin.ext
  match a with
  | ⟨0, _⟩ => show win1_5.index t (0 : Fin 2) * 1 + 1 * 0 = 0; omega
  | ⟨1, _⟩ => show win1_5.index t (1 : Fin 2) * 256 + 1 * q.val = win1_8.index t (1 : Fin 2) * 256 + 1 * q.val; omega

/-- At point `t`, feature `q` of the stored mean row is the feature that entry `(p, q)` of the output's block has in the output. -/
theorem fused1_mean_at (t : Fin cfg1.N) (p : Fin 2000) (q : Fin 256) :
    ((cfg1.win 6).blk t).view.emb (ix2 (0 : Fin 1) q)
      = ix2 (0 : Fin 1) ((((cfg1.win 8).blk t).view.emb (ix2 p q)) 1) := by
  obtain ⟨ht, a0, b0, a1, b1, a2, b2, a3, b3, a4, b4, a5, b5, a6, b6, a7, b7, a8, b8⟩ := fused1_block_indices t
  have hp : p.val < 2000 := p.isLt
  have hq : q.val < 256 := q.isLt
  funext a; apply Fin.ext
  match a with
  | ⟨0, _⟩ => show win1_6.index t (0 : Fin 2) * 1 + 1 * 0 = 0; omega
  | ⟨1, _⟩ => show win1_6.index t (1 : Fin 2) * 256 + 1 * q.val = win1_8.index t (1 : Fin 2) * 256 + 1 * q.val; omega

/-- At point `t`, feature `q` of the stored variance row is the feature that entry `(p, q)` of the output's block has in the output. -/
theorem fused1_variance_at (t : Fin cfg1.N) (p : Fin 2000) (q : Fin 256) :
    ((cfg1.win 7).blk t).view.emb (ix2 (0 : Fin 1) q)
      = ix2 (0 : Fin 1) ((((cfg1.win 8).blk t).view.emb (ix2 p q)) 1) := by
  obtain ⟨ht, a0, b0, a1, b1, a2, b2, a3, b3, a4, b4, a5, b5, a6, b6, a7, b7, a8, b8⟩ := fused1_block_indices t
  have hp : p.val < 2000 := p.isLt
  have hq : q.val < 256 := q.isLt
  funext a; apply Fin.ext
  match a with
  | ⟨0, _⟩ => show win1_7.index t (0 : Fin 2) * 1 + 1 * 0 = 0; omega
  | ⟨1, _⟩ => show win1_7.index t (1 : Fin 2) * 256 + 1 * q.val = win1_8.index t (1 : Fin 2) * 256 + 1 * q.val; omega

/-- What point `t` writes back is block `t` of the layer's function of the eight whole arrays. -/
theorem fused1_flushed (c : Dev nD) (t : Fin cfg1.N) :
    (dat1 (F := Ideal) V c).flushed 8 t
      = ((cfg1.win 8).blk t).view.read (Elt Ideal)
          (Cert.Spec.normRelu (V c main_v42) (V c main_v13) (V c main_v12) (V c main_v43) (V c main_v44) (V c main_v45)
            (V c main_v46) (V c main_v47)) := by
  show (cfg1.win 8).cut (grid1.coords t) ((dat1 V c).after 8 t) = _
  rw [after1_8]
  unfold out1_8
  rw [View.canon_unit_zero fused1_zero_offsets]
  simp only [View.ld_unit_zero (S := S2000x256) fused1_zero_offsets, View.ld_unit_zero (S := S2000x1) fused1_zero_offsets,
    View.ld_unit_zero (S := S1x256) fused1_zero_offsets]
  funext j
  obtain ⟨p, q, rfl⟩ : ∃ (p : Fin 2000) (q : Fin 256), j = ix2 p q := ⟨j 0, j 1, eq_ix2 j⟩
  show k1_pay1 (F := Ideal) (iblk1 V c 1 t) (iblk1 V c 0 t) (iblk1 V c 2 t) (iblk1 V c 3 t) (iblk1 V c 6 t)
        (iblk1 V c 7 t) (iblk1 V c 4 t) (iblk1 V c 5 t) (ix2 p q)
      = Cert.Spec.normRelu (V c main_v42) (V c main_v13) (V c main_v12) (V c main_v43) (V c main_v44) (V c main_v45)
          (V c main_v46) (V c main_v47) (((cfg1.win 8).blk t).view.emb (ix2 p q))
  refine (fused1_payload _ _ _ _ _ _ _ _ p q).trans ?_
  have at_index : ∀ (Seg H : Cert.Spec.Mat 50000 256) (D : Cert.Spec.Mat 50000 1) (B G Be Mu Vr : Cert.Spec.Mat 1 256),
      max ((Seg (((cfg1.win 0).blk t).view.emb (ix2 p q))
              + H (((cfg1.win 1).blk t).view.emb (ix2 p q)) * D (((cfg1.win 2).blk t).view.emb (ix2 p (0 : Fin 1)))
              + B (((cfg1.win 3).blk t).view.emb (ix2 (0 : Fin 1) q))
              - Mu (((cfg1.win 6).blk t).view.emb (ix2 (0 : Fin 1) q)))
            * Ideal.rsqrt (Vr (((cfg1.win 7).blk t).view.emb (ix2 (0 : Fin 1) q)) + Cert.Spec.epsW)
            * G (((cfg1.win 4).blk t).view.emb (ix2 (0 : Fin 1) q))
          + Be (((cfg1.win 5).blk t).view.emb (ix2 (0 : Fin 1) q))) Cert.Spec.zeroW
        = Cert.Spec.normRelu Seg H D B G Be Mu Vr (((cfg1.win 8).blk t).view.emb (ix2 p q)) := by
    intro Seg H D B G Be Mu Vr
    rw [fused1_seg_at t p q, fused1_feat_at t p q, fused1_degree_at t p q, fused1_bias_at t p q, fused1_gain_at t p q,
      fused1_shift_at t p q, fused1_mean_at t p q, fused1_variance_at t p q]
    rfl
  exact at_index (V c main_v42) (V c main_v13) (V c main_v12) (V c main_v43) (V c main_v44) (V c main_v45) (V c main_v46) (V c main_v47)

/-- An index of the array is in point `t`'s block iff each coordinate is in the block's range on its axis. -/
theorem fused1_mem_block (t : Fin cfg1.N) (i : S50000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v48).slice (win1_8.rect t)).set ↔ _
  rw [View.set_slice_whole, Rect.mem_set_unit]
  exact Iff.rfl

/-- Every one of the 25 row blocks is some grid point's. -/
theorem fused1_blocks_onto : ∀ r : Fin 25, ∃ t : Fin cfg1.N, win1_8.index t = ![r.val, 0] :=
  (by decide +kernel : ∀ r : Fin 25, ∃ t : Fin grid1.N, win1_8.index t = ![r.val, 0])

/-- The blocks tile the array: row `r` lies in the block of the point whose block index is `r / 2000`. -/
theorem fused1_cover (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  obtain ⟨t, ht⟩ := fused1_blocks_onto ⟨(i 0).val / 2000, by omega⟩
  have q0 : win1_8.index t (0 : Fin 2) = (i 0).val / 2000 := congrFun ht 0
  have q1 : win1_8.index t (1 : Fin 2) = 0 := congrFun ht 1
  refine ⟨t, flush1_8 t, ?_⟩
  rw [fused1_mem_block]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 256 ≤ (i 1).val ∧ (i 1).val < win1_8.index t (1 : Fin 2) * 256 + 256; omega

/-- The array the stage leaves is the normalised layer's function of the eight whole arrays. -/
theorem fused1_array (c : Dev nD) :
    (dat1 (F := Ideal) V c).arrAt 8 cfg1.N
      = Cert.Spec.normRelu (V c main_v42) (V c main_v13) (V c main_v12) (V c main_v43) (V c main_v44) (V c main_v45)
          (V c main_v46) (V c main_v47) :=
  (dat1 (F := Ideal) V c).arrAt_eq_of_cover 8 _ (fun t _ => fused1_flushed V c t) fused1_cover

end Cert.KernelIdeal.Regions

end
-- ==== Proof.RegionProj2.lean ====
/-
  The second dense projection: the first layer's output [50000,256] times the second layer's weight [256,256], a band
  of 5000 rows at a time; the ten bands tile the output array, so after the launch the array is the product of the
  whole arrays.
-/
import proofs.«181210_j52458730553561_2_alg».proof.Proof.Gen.KernelIdeal.Frame
import proofs.«181210_j52458730553561_2_alg».proof.Proof.Spec
import proofs.«181210_j52458730553561_2_alg».proof.Proof.LibPlainDot
import Idealize.ShloMosaic.Lib.Pipeline.Value
import Idealize.ShloMosaic.Lib.ValueIdx

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The origin of a rank-2 block. -/
theorem origin2 : (![0, 0] : Fin 2 → Nat) = fun _ => 0 := funext fun a => by fin_cases a <;> rfl

/-- The body's one store, entry (p, q): the contraction of row p of the left block with column q of the weight
    (a change of float format is the identity on the extended reals). -/
theorem body2_apply (x0 : Vec Ideal S5000x256 .bf16) (x1 : Vec Ideal S256x256 .f32) (p : Fin 5000) (q : Fin 256) :
    k2_pay1 (F := Ideal) x0 x1 (ix2 p q) = ∑ k : Fin 256, x0 (ix2 p k) * x1 (ix2 k q) := by
  unfold k2_pay1
  rw [shapeCast_self]
  exact Cert.Lib.matmul_zero_apply (φ₁ := .bf16) (φ₂ := .bf16) (M := 5000) (K := 256) (N := 256) dot_S5000x256_S256x256_S5000x256_1_0_0_1_n_n.wf none _ _ p q

/-- The printed index maps over the grid: the left operand's and the output's blocks are the same band of rows, all
    their columns; the weight's block is the whole weight. -/
theorem bands2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every band of rows is some point's. -/
theorem bands2_onto : ∀ q0 : Fin 10, ∃ t : Fin cfg2.N, win2_2.index t = ![q0.val, 0] :=
  (by decide +kernel : ∀ q0 : Fin 10, ∃ t : Fin grid2.N, win2_2.index t = ![q0.val, 0])

/-- WHAT POINT t WRITES BACK is its band of rows of the product of the whole operand arrays. -/
theorem written2 (c : Dev nD) (t : Fin cfg2.N) :
    (dat2 (F := Ideal) V c).flushed 2 t
      = ((cfg2.win 2).blk t).view.read (Elt Ideal) (Cert.Spec.proj (V c main_v48) (V c main_arg5)) := by
  show (cfg2.win 2).cut (grid2.coords t) ((dat2 (F := Ideal) V c).after 2 t) = _
  rw [after2_2]
  unfold out2_2
  rw [View.canon_unit_zero origin2]
  simp only [View.ld_unit_zero (S := S5000x256) origin2, View.ld_unit_zero (S := S256x256) origin2]
  obtain ⟨e0, e1, e2, e3, e4, e5⟩ := bands2 t
  funext j
  obtain ⟨p, q, rfl⟩ : ∃ (p : Fin 5000) (q : Fin 256), j = ix2 p q := ⟨j 0, j 1, eq_ix2 j⟩
  refine (body2_apply (iblk2 V c 0 t) (iblk2 V c 1 t) p q).trans ?_
  show _ = Cert.Spec.proj (V c main_v48) (V c main_arg5) (((cfg2.win 2).blk t).view.emb (ix2 p q))
  unfold Cert.Spec.proj
  refine Finset.sum_congr rfl fun k _ => ?_
  have hl : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 256 + 1 * k.val = k.val; omega
  have hr : ((cfg2.win 1).blk t).view.emb (ix2 k q) = ix2 k ((((cfg2.win 2).blk t).view.emb (ix2 p q)) 1) := by
    funext a; apply Fin.ext
    match a with
    | ⟨0, _⟩ => show win2_1.index t (0 : Fin 2) * 256 + 1 * k.val = k.val; omega
    | ⟨1, _⟩ => show win2_1.index t (1 : Fin 2) * 256 + 1 * q.val = win2_2.index t (1 : Fin 2) * 256 + 1 * q.val; omega
  have hL : iblk2 V c 0 t (ix2 p k) = V c main_v48 (ix2 ((((cfg2.win 2).blk t).view.emb (ix2 p q)) 0) k) := by
    show V c main_v48 (((cfg2.win 0).blk t).view.emb (ix2 p k)) = _
    rw [hl]
    rfl
  have hR : iblk2 V c 1 t (ix2 k q) = V c main_arg5 (ix2 k ((((cfg2.win 2).blk t).view.emb (ix2 p q)) 1)) := by
    show V c main_arg5 (((cfg2.win 1).blk t).view.emb (ix2 k q)) = _
    rw [hr]
    rfl
  rw [hL, hR]

/-- An index of the output array is in point t's block iff each coordinate is in the block's range on its axis. -/
theorem mem_band2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v49).slice (win2_2.rect t)).set ↔ _
  rw [View.set_slice_whole, Rect.mem_set_unit]
  exact Iff.rfl

/-- The bands of rows cover the output array: row r lies in band r / 5000. -/
theorem bands2_cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := bands2_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_band2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- THE OUTPUT ARRAY after the launch is the product of the operand arrays as the launch found them. -/
theorem proj2_array (c : Dev nD) :
    (dat2 (F := Ideal) V c).arrAt 2 cfg2.N = Cert.Spec.proj (V c main_v48) (V c main_arg5) :=
  (dat2 (F := Ideal) V c).arrAt_eq_of_cover 2 _ (fun t _ => written2 V c t) (bands2_cover)

end Cert.KernelIdeal.Regions

end
-- ==== Proof.ChainB.lean ====
/-
  The buffers at boundaries three to five: the first layer's aggregation over the edges (a gather of projected rows at
  the source indices, scaled by the two endpoints' degree factors, scatter-added at the destination indices — the
  reference's operations in the same order), the per-feature vectors as rows, then the first normalised layer and the
  second projection, which are the reference's stages entry by entry.
-/
import proofs.«181210_j52458730553561_2_alg».proof.Proof.ChainA
import proofs.«181210_j52458730553561_2_alg».proof.Proof.RegionFused1
import proofs.«181210_j52458730553561_2_alg».proof.Proof.RegionProj2

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Boundary 3 -/

theorem at3_v13 : W3 m ρ c (Proc.devRef .tc main_v13) = (Cert.ReferenceIdeal.Read.val_main_v11 (F := Ideal) (m ((c : Thread nD τ).loc main_arg0)) (m ((c : Thread nD τ).loc main_arg3))) :=
  Eq.trans (by show StableHlo.after hostOps1 (W2 m ρ c) (Proc.devRef .tc main_v13) = _; after_results_simp) (at2_v13 m ρ c)

theorem at3_v12 : W3 m ρ c (Proc.devRef .tc main_v12) = (Cert.ReferenceIdeal.Read.val_main_v41 (F := Ideal) (m ((c : Thread nD τ).loc main_arg1))) :=
  Eq.trans (by show StableHlo.after hostOps1 (W2 m ρ c) (Proc.devRef .tc main_v12) = _; after_results_simp) (at2_v12 m ρ c)

theorem at3_v1 : W3 m ρ c (Proc.devRef .tc main_v1) = (Cert.ReferenceIdeal.Read.val_main_v1 (F := Ideal) (m ((c : Thread nD τ).loc main_arg1))) :=
  Eq.trans (by show StableHlo.after hostOps1 (W2 m ρ c) (Proc.devRef .tc main_v1) = _; after_results_simp) (at2_v1 m ρ c)

theorem at3_v3 : W3 m ρ c (Proc.devRef .tc main_v3) = (Cert.ReferenceIdeal.Read.val_main_v3 (F := Ideal) (m ((c : Thread nD τ).loc main_arg1))) :=
  Eq.trans (by show StableHlo.after hostOps1 (W2 m ρ c) (Proc.devRef .tc main_v3) = _; after_results_simp) (at2_v3 m ρ c)

theorem at3_v10 : W3 m ρ c (Proc.devRef .tc main_v10) = (Cert.ReferenceIdeal.Read.val_main_v10 (F := Ideal) (m ((c : Thread nD τ).loc main_arg1))) :=
  Eq.trans (by show StableHlo.after hostOps1 (W2 m ρ c) (Proc.devRef .tc main_v10) = _; after_results_simp) (at2_v10 m ρ c)

theorem at3_v42 : W3 m ρ c (Proc.devRef .tc main_v42) = (Cert.ReferenceIdeal.Read.val_main_v39 (F := Ideal) (m ((c : Thread nD τ).loc main_arg0)) (m ((c : Thread nD τ).loc main_arg1)) (m ((c : Thread nD τ).loc main_arg3))) := by
  show StableHlo.after hostOps1 (W2 m ρ c) (Proc.devRef .tc main_v42) = _
  after_results_simp
  rw [at2_v13 m ρ c, at2_v1 m ρ c, at2_v3 m ρ c, at2_v10 m ρ c]
  rfl

theorem at3_v43 : W3 m ρ c (Proc.devRef .tc main_v43) = (Cert.ReferenceIdeal.Read.val_main_v45 (F := Ideal) (m ((c : Thread nD τ).loc main_arg4))) := by
  show StableHlo.after hostOps1 (W2 m ρ c) (Proc.devRef .tc main_v43) = _
  after_results_simp
  rw [at2_arg4 m ρ c]
  show shapeCast S1x256 _ _ = _
  exact Cert.Lib.reshapeRow_eq _ _ _

theorem at3_v44 : W3 m ρ c (Proc.devRef .tc main_v44) = (Cert.ReferenceIdeal.Read.val_main_v45 (F := Ideal) (m ((c : Thread nD τ).loc main_arg9))) := by
  show StableHlo.after hostOps1 (W2 m ρ c) (Proc.devRef .tc main_v44) = _
  after_results_simp
  rw [at2_arg9 m ρ c]
  show shapeCast S1x256 _ _ = _
  exact Cert.Lib.reshapeRow_eq _ _ _

theorem at3_v45 : W3 m ρ c (Proc.devRef .tc main_v45) = (Cert.ReferenceIdeal.Read.val_main_v45 (F := Ideal) (m ((c : Thread nD τ).loc main_arg10))) := by
  show StableHlo.after hostOps1 (W2 m ρ c) (Proc.devRef .tc main_v45) = _
  after_results_simp
  rw [at2_arg10 m ρ c]
  show shapeCast S1x256 _ _ = _
  exact Cert.Lib.reshapeRow_eq _ _ _

theorem at3_v46 : W3 m ρ c (Proc.devRef .tc main_v46) = (Cert.ReferenceIdeal.Read.val_main_v45 (F := Ideal) (m ((c : Thread nD τ).loc main_arg11))) := by
  show StableHlo.after hostOps1 (W2 m ρ c) (Proc.devRef .tc main_v46) = _
  after_results_simp
  rw [at2_arg11 m ρ c]
  show shapeCast S1x256 _ _ = _
  exact Cert.Lib.reshapeRow_eq _ _ _

theorem at3_v47 : W3 m ρ c (Proc.devRef .tc main_v47) = (Cert.ReferenceIdeal.Read.val_main_v45 (F := Ideal) (m ((c : Thread nD τ).loc main_arg12))) := by
  show StableHlo.after hostOps1 (W2 m ρ c) (Proc.devRef .tc main_v47) = _
  after_results_simp
  rw [at2_arg12 m ρ c]
  show shapeCast S1x256 _ _ = _
  exact Cert.Lib.reshapeRow_eq _ _ _

/-! ## Boundary 4 -/

theorem at4_v1 : W4 m ρ c (Proc.devRef .tc main_v1) = (Cert.ReferenceIdeal.Read.val_main_v1 (F := Ideal) (m ((c : Thread nD τ).loc main_arg1))) :=
  Eq.trans (W4_of_ne m ρ c main_v1 (by decide)) (at3_v1 m ρ c)

theorem at4_v3 : W4 m ρ c (Proc.devRef .tc main_v3) = (Cert.ReferenceIdeal.Read.val_main_v3 (F := Ideal) (m ((c : Thread nD τ).loc main_arg1))) :=
  Eq.trans (W4_of_ne m ρ c main_v3 (by decide)) (at3_v3 m ρ c)

theorem at4_v10 : W4 m ρ c (Proc.devRef .tc main_v10) = (Cert.ReferenceIdeal.Read.val_main_v10 (F := Ideal) (m ((c : Thread nD τ).loc main_arg1))) :=
  Eq.trans (W4_of_ne m ρ c main_v10 (by decide)) (at3_v10 m ρ c)

theorem at4_v12 : W4 m ρ c (Proc.devRef .tc main_v12) = (Cert.ReferenceIdeal.Read.val_main_v41 (F := Ideal) (m ((c : Thread nD τ).loc main_arg1))) :=
  Eq.trans ((W4_arr m ρ c 2).trans (((dat1 (V3 m ρ) c).arrAt_in 2 rfl _).trans (A_eq1 (V3 m ρ) c 2))) (at3_v12 m ρ c)

theorem at4_v48 : W4 m ρ c (Proc.devRef .tc main_v48) = (Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12))) :=
  Eq.trans (W4_arr m ρ c 8) (Eq.trans (Cert.KernelIdeal.Regions.fused1_array (V3 m ρ) c) (by
    show Cert.Spec.normRelu (W3 m ρ c (Proc.devRef .tc main_v42)) (W3 m ρ c (Proc.devRef .tc main_v13)) (W3 m ρ c (Proc.devRef .tc main_v12)) (W3 m ρ c (Proc.devRef .tc main_v43)) (W3 m ρ c (Proc.devRef .tc main_v44)) (W3 m ρ c (Proc.devRef .tc main_v45)) (W3 m ρ c (Proc.devRef .tc main_v46)) (W3 m ρ c (Proc.devRef .tc main_v47)) = _
    rw [at3_v42 m ρ c, at3_v13 m ρ c, at3_v12 m ρ c, at3_v43 m ρ c, at3_v44 m ρ c, at3_v45 m ρ c, at3_v46 m ρ c, at3_v47 m ρ c]
    exact (Cert.Bridge.normRelu_eq_host (Cert.ReferenceIdeal.Read.val_main_v39 (F := Ideal) (m ((c : Thread nD τ).loc main_arg0)) (m ((c : Thread nD τ).loc main_arg1)) (m ((c : Thread nD τ).loc main_arg3))) (Cert.ReferenceIdeal.Read.val_main_v11 (F := Ideal) (m ((c : Thread nD τ).loc main_arg0)) (m ((c : Thread nD τ).loc main_arg3))) (Cert.ReferenceIdeal.Read.val_main_v41 (F := Ideal) (m ((c : Thread nD τ).loc main_arg1))) (m ((c : Thread nD τ).loc main_arg4)) (m ((c : Thread nD τ).loc main_arg9)) (m ((c : Thread nD τ).loc main_arg10)) (m ((c : Thread nD τ).loc main_arg11)) (m ((c : Thread nD τ).loc main_arg12)) _ _ _ _ _).symm))

/-! ## Boundary 5 -/

theorem at5_v1 : W5 m ρ c (Proc.devRef .tc main_v1) = (Cert.ReferenceIdeal.Read.val_main_v1 (F := Ideal) (m ((c : Thread nD τ).loc main_arg1))) :=
  Eq.trans (W5_of_ne m ρ c main_v1 (by decide)) (at4_v1 m ρ c)

theorem at5_v3 : W5 m ρ c (Proc.devRef .tc main_v3) = (Cert.ReferenceIdeal.Read.val_main_v3 (F := Ideal) (m ((c : Thread nD τ).loc main_arg1))) :=
  Eq.trans (W5_of_ne m ρ c main_v3 (by decide)) (at4_v3 m ρ c)

theorem at5_v10 : W5 m ρ c (Proc.devRef .tc main_v10) = (Cert.ReferenceIdeal.Read.val_main_v10 (F := Ideal) (m ((c : Thread nD τ).loc main_arg1))) :=
  Eq.trans (W5_of_ne m ρ c main_v10 (by decide)) (at4_v10 m ρ c)

theorem at5_v12 : W5 m ρ c (Proc.devRef .tc main_v12) = (Cert.ReferenceIdeal.Read.val_main_v41 (F := Ideal) (m ((c : Thread nD τ).loc main_arg1))) :=
  Eq.trans (W5_of_ne m ρ c main_v12 (by decide)) (at4_v12 m ρ c)

theorem at5_v49 : W5 m ρ c (Proc.devRef .tc main_v49) = (Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12))) :=
  Eq.trans (W5_arr m ρ c 2) (Eq.trans (Cert.KernelIdeal.Regions.proj2_array (V4 m ρ) c) (by
    show Cert.Spec.proj (W4 m ρ c (Proc.devRef .tc main_v48)) (W4 m ρ c (Proc.devRef .tc main_arg5)) = _
    rw [at4_v48 m ρ c, at4_arg5 m ρ c]
    exact (Cert.Bridge.hostDot_eq_proj Cert.ReferenceIdeal.dot_S50000x256_S256x256_S50000x256_1_0_0_1_n_n _ rfl _ _).symm))

end Cert.KernelIdeal.Chain

end
-- ==== Proof.RegionFused3.lean ====
/-
  The second layer's dense stage with its normalisation, from the blocks the grid writes to the whole array.

  The stage's grid has 25 points; point t works on rows 2000 t … 2000 t + 1999 of the aggregated messages, of the
  projected features and of the degree factor, and on the whole rows of the bias, the gain, the shift, the stored
  mean and the stored variance. At a row p and a feature q of its block it stores
    max (((seg (p, q) + h (p, q) · d p + b q) - μ q) · rsqrt (v q + ε) · g q + β q) 0.
  The 25 blocks of 2000 rows tile the 50000 rows, so the array the stage leaves is that function of the eight whole
  arrays at every index.
-/
import proofs.«181210_j52458730553561_2_alg».proof.Proof.Gen.KernelIdeal.Frame
import proofs.«181210_j52458730553561_2_alg».proof.Proof.Spec
import proofs.«181210_j52458730553561_2_alg».proof.Proof.LibColumnBroadcast
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of a load or store of a whole block are all zero. -/
theorem fused3_zero_offsets : (![0, 0] : Fin 2 → Nat) = fun _ => 0 := funext fun a => by fin_cases a <;> rfl

/-- The value stored at row `p`, feature `q` of a block: the messages there, plus the features there times the row's
    degree factor, plus the feature's bias; centred by the feature's mean, scaled by the inverse root of its variance
    plus ε and by its gain, shifted, and cut at zero. -/
theorem fused3_payload (h : Vec Ideal S2000x256 .bf16) (seg : Vec Ideal S2000x256 .f32) (d : Vec Ideal S2000x1 .f32)
    (b mu var g be : Vec Ideal S1x256 .f32) (p : Fin 2000) (q : Fin 256) :
    k3_pay1 (F := Ideal) h seg d b mu var g be (ix2 p q)
      = max ((seg (ix2 p q) + h (ix2 p q) * d (ix2 p (0 : Fin 1)) + b (ix2 (0 : Fin 1) q) - mu (ix2 (0 : Fin 1) q))
            * Ideal.rsqrt (var (ix2 (0 : Fin 1) q) + Cert.Spec.epsW) * g (ix2 (0 : Fin 1) q)
          + be (ix2 (0 : Fin 1) q)) Cert.Spec.zeroW := by
  unfold k3_pay1
  simp only [shapeCast_self, truncf_apply, maximumf_apply, addf_apply, mulf_apply, subf_apply, extf_apply,
    broadcast_apply, Cert.Lib.broadcastTo_a1_ab_apply, broadcastTo_1b_ab_apply]
  rfl

/-- The block indices the windows' index maps give at each of the 25 grid points: the three row-blocked inputs and the
    output move together, block `t` at point `t`; each of the five per-feature rows stays at its one block. -/
theorem fused3_block_indices : ∀ t : Fin cfg3.N, t.val < 25
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- At point `t`, entry `(p, q)` of the block of the aggregated messages sits in its array where entry `(p, q)` of the output's block
    sits in the output. -/
theorem fused3_seg_at (t : Fin cfg3.N) (p : Fin 2000) (q : Fin 256) :
    ((cfg3.win 0).blk t).view.emb (ix2 p q) = ((cfg3.win 8).blk t).view.emb (ix2 p q) := by
  obtain ⟨ht, a0, b0, a1, b1, a2, b2, a3, b3, a4, b4, a5, b5, a6, b6, a7, b7, a8, b8⟩ := fused3_block_indices t
  have hp : p.val < 2000 := p.isLt
  have hq : q.val < 256 := q.isLt
  funext a; apply Fin.ext
  match a with
  | ⟨0, _⟩ => show win3_0.index t (0 : Fin 2) * 2000 + 1 * p.val = win3_8.index t (0 : Fin 2) * 2000 + 1 * p.val; omega
  | ⟨1, _⟩ => show win3_0.index t (1 : Fin 2) * 256 + 1 * q.val = win3_8.index t (1 : Fin 2) * 256 + 1 * q.val; omega

/-- At point `t`, entry `(p, q)` of the block of the projected features sits in its array where entry `(p, q)` of the output's block
    sits in the output. -/
theorem fused3_feat_at (t : Fin cfg3.N) (p : Fin 2000) (q : Fin 256) :
    ((cfg3.win 1).blk t).view.emb (ix2 p q) = ((cfg3.win 8).blk t).view.emb (ix2 p q) := by
  obtain ⟨ht, a0, b0, a1, b1, a2, b2, a3, b3, a4, b4, a5, b5, a6, b6, a7, b7, a8, b8⟩ := fused3_block_indices t
  have hp : p.val < 2000 := p.isLt
  have hq : q.val < 256 := q.isLt
  funext a; apply Fin.ext
  match a with
  | ⟨0, _⟩ => show win3_1.index t (0 : Fin 2) * 2000 + 1 * p.val = win3_8.index t (0 : Fin 2) * 2000 + 1 * p.val; omega
  | ⟨1, _⟩ => show win3_1.index t (1 : Fin 2) * 256 + 1 * q.val = win3_8.index t (1 : Fin 2) * 256 + 1 * q.val; omega

/-- At point `t`, row `p` of the block of the degree factor is the row of its array that entry `(p, q)` of the output's block
    has in the output. -/
theorem fused3_degree_at (t : Fin cfg3.N) (p : Fin 2000) (q : Fin 256) :
    ((cfg3.win 2).blk t).view.emb (ix2 p (0 : Fin 1))
      = ix2 ((((cfg3.win 8).blk t).view.emb (ix2 p q)) 0) (0 : Fin 1) := by
  obtain ⟨ht, a0, b0, a1, b1, a2, b2, a3, b3, a4, b4, a5, b5, a6, b6, a7, b7, a8, b8⟩ := fused3_block_indices t
  have hp : p.val < 2000 := p.isLt
  have hq : q.val < 256 := q.isLt
  funext a; apply Fin.ext
  match a with
  | ⟨0, _⟩ => show win3_2.index t (0 : Fin 2) * 2000 + 1 * p.val = win3_8.index t (0 : Fin 2) * 2000 + 1 * p.val; omega
  | ⟨1, _⟩ => show win3_2.index t (1 : Fin 2) * 1 + 1 * 0 = 0; omega

/-- At point `t`, feature `q` of the bias row is the feature that entry `(p, q)` of the output's block has in the output. -/
theorem fused3_bias_at (t : Fin cfg3.N) (p : Fin 2000) (q : Fin 256) :
    ((cfg3.win 3).blk t).view.emb (ix2 (0 : Fin 1) q)
      = ix2 (0 : Fin 1) ((((cfg3.win 8).blk t).view.emb (ix2 p q)) 1) := by
  obtain ⟨ht, a0, b0, a1, b1, a2, b2, a3, b3, a4, b4, a5, b5, a6, b6, a7, b7, a8, b8⟩ := fused3_block_indices t
  have hp : p.val < 2000 := p.isLt
  have hq : q.val < 256 := q.isLt
  funext a; apply Fin.ext
  match a with
  | ⟨0, _⟩ => show win3_3.index t (0 : Fin 2) * 1 + 1 * 0 = 0; omega
  | ⟨1, _⟩ => show win3_3.index t (1 : Fin 2) * 256 + 1 * q.val = win3_8.index t (1 : Fin 2) * 256 + 1 * q.val; omega

/-- At point `t`, feature `q` of the gain row is the feature that entry `(p, q)` of the output's block has in the output. -/
theorem fused3_gain_at (t : Fin cfg3.N) (p : Fin 2000) (q : Fin 256) :
    ((cfg3.win 4).blk t).view.emb (ix2 (0 : Fin 1) q)
      = ix2 (0 : Fin 1) ((((cfg3.win 8).blk t).view.emb (ix2 p q)) 1) := by
  obtain ⟨ht, a0, b0, a1, b1, a2, b2, a3, b3, a4, b4, a5, b5, a6, b6, a7, b7, a8, b8⟩ := fused3_block_indices t
  have hp : p.val < 2000 := p.isLt
  have hq : q.val < 256 := q.isLt
  funext a; apply Fin.ext
  match a with
  | ⟨0, _⟩ => show win3_4.index t (0 : Fin 2) * 1 + 1 * 0 = 0; omega
  | ⟨1, _⟩ => show win3_4.index t (1 : Fin 2) * 256 + 1 * q.val = win3_8.index t (1 : Fin 2) * 256 + 1 * q.val; omega

/-- At point `t`, feature `q` of the shift row is the feature that entry `(p, q)` of the output's block has in the output. -/
theorem fused3_shift_at (t : Fin cfg3.N) (p : Fin 2000) (q : Fin 256) :
    ((cfg3.win 5).blk t).view.emb (ix2 (0 : Fin 1) q)
      = ix2 (0 : Fin 1) ((((cfg3.win 8).blk t).view.emb (ix2 p q)) 1) := by
  obtain ⟨ht, a0, b0, a1, b1, a2, b2, a3, b3, a4, b4, a5, b5, a6, b6, a7, b7, a8, b8⟩ := fused3_block_indices t
  have hp : p.val < 2000 := p.isLt
  have hq : q.val < 256 := q.isLt
  funext a; apply Fin.ext
  match a with
  | ⟨0, _⟩ => show win3_5.index t (0 : Fin 2) * 1 + 1 * 0 = 0; omega
  | ⟨1, _⟩ => show win3_5.index t (1 : Fin 2) * 256 + 1 * q.val = win3_8.index t (1 : Fin 2) * 256 + 1 * q.val; omega

/-- At point `t`, feature `q` of the stored mean row is the feature that entry `(p, q)` of the output's block has in the output. -/
theorem fused3_mean_at (t : Fin cfg3.N) (p : Fin 2000) (q : Fin 256) :
    ((cfg3.win 6).blk t).view.emb (ix2 (0 : Fin 1) q)
      = ix2 (0 : Fin 1) ((((cfg3.win 8).blk t).view.emb (ix2 p q)) 1) := by
  obtain ⟨ht, a0, b0, a1, b1, a2, b2, a3, b3, a4, b4, a5, b5, a6, b6, a7, b7, a8, b8⟩ := fused3_block_indices t
  have hp : p.val < 2000 := p.isLt
  have hq : q.val < 256 := q.isLt
  funext a; apply Fin.ext
  match a with
  | ⟨0, _⟩ => show win3_6.index t (0 : Fin 2) * 1 + 1 * 0 = 0; omega
  | ⟨1, _⟩ => show win3_6.index t (1 : Fin 2) * 256 + 1 * q.val = win3_8.index t (1 : Fin 2) * 256 + 1 * q.val; omega

/-- At point `t`, feature `q` of the stored variance row is the feature that entry `(p, q)` of the output's block has in the output. -/
theorem fused3_variance_at (t : Fin cfg3.N) (p : Fin 2000) (q : Fin 256) :
    ((cfg3.win 7).blk t).view.emb (ix2 (0 : Fin 1) q)
      = ix2 (0 : Fin 1) ((((cfg3.win 8).blk t).view.emb (ix2 p q)) 1) := by
  obtain ⟨ht, a0, b0, a1, b1, a2, b2, a3, b3, a4, b4, a5, b5, a6, b6, a7, b7, a8, b8⟩ := fused3_block_indices t
  have hp : p.val < 2000 := p.isLt
  have hq : q.val < 256 := q.isLt
  funext a; apply Fin.ext
  match a with
  | ⟨0, _⟩ => show win3_7.index t (0 : Fin 2) * 1 + 1 * 0 = 0; omega
  | ⟨1, _⟩ => show win3_7.index t (1 : Fin 2) * 256 + 1 * q.val = win3_8.index t (1 : Fin 2) * 256 + 1 * q.val; omega

/-- What point `t` writes back is block `t` of the layer's function of the eight whole arrays. -/
theorem fused3_flushed (c : Dev nD) (t : Fin cfg3.N) :
    (dat3 (F := Ideal) V c).flushed 8 t
      = ((cfg3.win 8).blk t).view.read (Elt Ideal)
          (Cert.Spec.normRelu (V c main_v78) (V c main_v49) (V c main_v12) (V c main_v79) (V c main_v80) (V c main_v81)
            (V c main_v82) (V c main_v83)) := by
  show (cfg3.win 8).cut (grid3.coords t) ((dat3 V c).after 8 t) = _
  rw [after3_8]
  unfold out3_8
  rw [View.canon_unit_zero fused3_zero_offsets]
  simp only [View.ld_unit_zero (S := S2000x256) fused3_zero_offsets, View.ld_unit_zero (S := S2000x1) fused3_zero_offsets,
    View.ld_unit_zero (S := S1x256) fused3_zero_offsets]
  funext j
  obtain ⟨p, q, rfl⟩ : ∃ (p : Fin 2000) (q : Fin 256), j = ix2 p q := ⟨j 0, j 1, eq_ix2 j⟩
  show k3_pay1 (F := Ideal) (iblk3 V c 1 t) (iblk3 V c 0 t) (iblk3 V c 2 t) (iblk3 V c 3 t) (iblk3 V c 6 t)
        (iblk3 V c 7 t) (iblk3 V c 4 t) (iblk3 V c 5 t) (ix2 p q)
      = Cert.Spec.normRelu (V c main_v78) (V c main_v49) (V c main_v12) (V c main_v79) (V c main_v80) (V c main_v81)
          (V c main_v82) (V c main_v83) (((cfg3.win 8).blk t).view.emb (ix2 p q))
  refine (fused3_payload _ _ _ _ _ _ _ _ p q).trans ?_
  have at_index : ∀ (Seg H : Cert.Spec.Mat 50000 256) (D : Cert.Spec.Mat 50000 1) (B G Be Mu Vr : Cert.Spec.Mat 1 256),
      max ((Seg (((cfg3.win 0).blk t).view.emb (ix2 p q))
              + H (((cfg3.win 1).blk t).view.emb (ix2 p q)) * D (((cfg3.win 2).blk t).view.emb (ix2 p (0 : Fin 1)))
              + B (((cfg3.win 3).blk t).view.emb (ix2 (0 : Fin 1) q))
              - Mu (((cfg3.win 6).blk t).view.emb (ix2 (0 : Fin 1) q)))
            * Ideal.rsqrt (Vr (((cfg3.win 7).blk t).view.emb (ix2 (0 : Fin 1) q)) + Cert.Spec.epsW)
            * G (((cfg3.win 4).blk t).view.emb (ix2 (0 : Fin 1) q))
          + Be (((cfg3.win 5).blk t).view.emb (ix2 (0 : Fin 1) q))) Cert.Spec.zeroW
        = Cert.Spec.normRelu Seg H D B G Be Mu Vr (((cfg3.win 8).blk t).view.emb (ix2 p q)) := by
    intro Seg H D B G Be Mu Vr
    rw [fused3_seg_at t p q, fused3_feat_at t p q, fused3_degree_at t p q, fused3_bias_at t p q, fused3_gain_at t p q,
      fused3_shift_at t p q, fused3_mean_at t p q, fused3_variance_at t p q]
    rfl
  exact at_index (V c main_v78) (V c main_v49) (V c main_v12) (V c main_v79) (V c main_v80) (V c main_v81) (V c main_v82) (V c main_v83)

/-- An index of the array is in point `t`'s block iff each coordinate is in the block's range on its axis. -/
theorem fused3_mem_block (t : Fin cfg3.N) (i : S50000x256.Idx) :
    i ∈ ((cfg3.win 8).blk t).view.set ↔ ∀ a : Fin 2, win3_8.index t a * S2000x256.size a ≤ (i a).val
      ∧ (i a).val < win3_8.index t a * S2000x256.size a + S2000x256.size a := by
  show i ∈ ((View.whole main_v84).slice (win3_8.rect t)).set ↔ _
  rw [View.set_slice_whole, Rect.mem_set_unit]
  exact Iff.rfl

/-- Every one of the 25 row blocks is some grid point's. -/
theorem fused3_blocks_onto : ∀ r : Fin 25, ∃ t : Fin cfg3.N, win3_8.index t = ![r.val, 0] :=
  (by decide +kernel : ∀ r : Fin 25, ∃ t : Fin grid3.N, win3_8.index t = ![r.val, 0])

/-- The blocks tile the array: row `r` lies in the block of the point whose block index is `r / 2000`. -/
theorem fused3_cover (i : S50000x256.Idx) :
    ∃ t : Fin cfg3.N, (cfg3.win 8).flush t = true ∧ i ∈ ((cfg3.win 8).blk t).view.set := by
  have hi0 : (i 0).val < 50000 := (i 0).isLt
  have hi1 : (i 1).val < 256 := (i 1).isLt
  obtain ⟨t, ht⟩ := fused3_blocks_onto ⟨(i 0).val / 2000, by omega⟩
  have q0 : win3_8.index t (0 : Fin 2) = (i 0).val / 2000 := congrFun ht 0
  have q1 : win3_8.index t (1 : Fin 2) = 0 := congrFun ht 1
  refine ⟨t, flush3_8 t, ?_⟩
  rw [fused3_mem_block]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 256 ≤ (i 1).val ∧ (i 1).val < win3_8.index t (1 : Fin 2) * 256 + 256; omega

/-- The array the stage leaves is the normalised layer's function of the eight whole arrays. -/
theorem fused3_array (c : Dev nD) :
    (dat3 (F := Ideal) V c).arrAt 8 cfg3.N
      = Cert.Spec.normRelu (V c main_v78) (V c main_v49) (V c main_v12) (V c main_v79) (V c main_v80) (V c main_v81)
          (V c main_v82) (V c main_v83) :=
  (dat3 (F := Ideal) V c).arrAt_eq_of_cover 8 _ (fun t _ => fused3_flushed V c t) fused3_cover

end Cert.KernelIdeal.Regions

end
-- ==== Proof.RegionProj4.lean ====
/-
  The third dense projection: the second layer's output [50000,256] times the third layer's weight [256,128], a band
  of 5000 rows at a time; the ten bands tile the output array, so after the launch the array is the product of the
  whole arrays.
-/
import proofs.«181210_j52458730553561_2_alg».proof.Proof.Gen.KernelIdeal.Frame
import proofs.«181210_j52458730553561_2_alg».proof.Proof.Spec
import proofs.«181210_j52458730553561_2_alg».proof.Proof.LibPlainDot
import Idealize.ShloMosaic.Lib.Pipeline.Value
import Idealize.ShloMosaic.Lib.ValueIdx

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The origin of a rank-2 block. -/
theorem origin4 : (![0, 0] : Fin 2 → Nat) = fun _ => 0 := funext fun a => by fin_cases a <;> rfl

/-- The body's one store, entry (p, q): the contraction of row p of the left block with column q of the weight
    (a change of float format is the identity on the extended reals). -/
theorem body4_apply (x0 : Vec Ideal S5000x256 .bf16) (x1 : Vec Ideal S256x128 .f32) (p : Fin 5000) (q : Fin 128) :
    k4_pay1 (F := Ideal) x0 x1 (ix2 p q) = ∑ k : Fin 256, x0 (ix2 p k) * x1 (ix2 k q) := by
  unfold k4_pay1
  rw [shapeCast_self]
  exact Cert.Lib.matmul_zero_apply (φ₁ := .bf16) (φ₂ := .bf16) (M := 5000) (K := 256) (N := 128) dot_S5000x256_S256x128_S5000x128_1_0_0_1_n_n.wf none _ _ p q

/-- The printed index maps over the grid: the left operand's and the output's blocks are the same band of rows, all
    their columns; the weight's block is the whole weight. -/
theorem bands4 : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every band of rows is some point's. -/
theorem bands4_onto : ∀ q0 : Fin 10, ∃ t : Fin cfg4.N, win4_2.index t = ![q0.val, 0] :=
  (by decide +kernel : ∀ q0 : Fin 10, ∃ t : Fin grid4.N, win4_2.index t = ![q0.val, 0])

set_option maxHeartbeats 1600000 in
/-- WHAT POINT t WRITES BACK is its band of rows of the product of the whole operand arrays. -/
theorem written4 (c : Dev nD) (t : Fin cfg4.N) :
    (dat4 (F := Ideal) V c).flushed 2 t
      = ((cfg4.win 2).blk t).view.read (Elt Ideal) (Cert.Spec.proj (V c main_v84) (V c main_arg7)) := by
  show (cfg4.win 2).cut (grid4.coords t) ((dat4 (F := Ideal) V c).after 2 t) = _
  rw [after4_2]
  unfold out4_2
  rw [View.canon_unit_zero origin4]
  simp only [View.ld_unit_zero (S := S5000x256) origin4, View.ld_unit_zero (S := S256x128) origin4]
  obtain ⟨e0, e1, e2, e3, e4, e5⟩ := bands4 t
  funext j
  obtain ⟨p, q, rfl⟩ : ∃ (p : Fin 5000) (q : Fin 128), j = ix2 p q := ⟨j 0, j 1, eq_ix2 j⟩
  refine (body4_apply (iblk4 V c 0 t) (iblk4 V c 1 t) p q).trans ?_
  show _ = Cert.Spec.proj (V c main_v84) (V c main_arg7) (((cfg4.win 2).blk t).view.emb (ix2 p q))
  unfold Cert.Spec.proj
  refine Finset.sum_congr rfl fun k _ => ?_
  have hl : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 256 + 1 * k.val = k.val; omega
  have hr : ((cfg4.win 1).blk t).view.emb (ix2 k q) = ix2 k ((((cfg4.win 2).blk t).view.emb (ix2 p q)) 1) := by
    funext a; apply Fin.ext
    match a with
    | ⟨0, _⟩ => show win4_1.index t (0 : Fin 2) * 256 + 1 * k.val = k.val; omega
    | ⟨1, _⟩ => show win4_1.index t (1 : Fin 2) * 128 + 1 * q.val = win4_2.index t (1 : Fin 2) * 128 + 1 * q.val; omega
  have hL : iblk4 V c 0 t (ix2 p k) = V c main_v84 (ix2 ((((cfg4.win 2).blk t).view.emb (ix2 p q)) 0) k) := by
    show V c main_v84 (((cfg4.win 0).blk t).view.emb (ix2 p k)) = _
    rw [hl]
    rfl
  have hR : iblk4 V c 1 t (ix2 k q) = V c main_arg7 (ix2 k ((((cfg4.win 2).blk t).view.emb (ix2 p q)) 1)) := by
    show V c main_arg7 (((cfg4.win 1).blk t).view.emb (ix2 k q)) = _
    rw [hr]
    rfl
  rw [hL, hR]

/-- An index of the output array is in point t's block iff each coordinate is in the block's range on its axis. -/
theorem mem_band4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v85).slice (win4_2.rect t)).set ↔ _
  rw [View.set_slice_whole, Rect.mem_set_unit]
  exact Iff.rfl

/-- The bands of rows cover the output array: row r lies in band r / 5000. -/
theorem bands4_cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := bands4_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_band4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- THE OUTPUT ARRAY after the launch is the product of the operand arrays as the launch found them. -/
theorem proj4_array (c : Dev nD) :
    (dat4 (F := Ideal) V c).arrAt 2 cfg4.N = Cert.Spec.proj (V c main_v84) (V c main_arg7) :=
  (dat4 (F := Ideal) V c).arrAt_eq_of_cover 2 _ (fun t _ => written4 V c t) (bands4_cover)

end Cert.KernelIdeal.Regions

end
-- ==== Proof.ChainC.lean ====
/-
  The buffers at boundaries six to eight: the second layer's aggregation, its per-feature rows, the second normalised
  layer and the third projection.
-/
import proofs.«181210_j52458730553561_2_alg».proof.Proof.ChainB
import proofs.«181210_j52458730553561_2_alg».proof.Proof.RegionFused3
import proofs.«181210_j52458730553561_2_alg».proof.Proof.RegionProj4

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Boundary 6 -/

theorem at6_v49 : W6 m ρ c (Proc.devRef .tc main_v49) = (Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12))) :=
  Eq.trans (by show StableHlo.after hostOps3 (W5 m ρ c) (Proc.devRef .tc main_v49) = _; after_results_simp) (at5_v49 m ρ c)

theorem at6_v12 : W6 m ρ c (Proc.devRef .tc main_v12) = (Cert.ReferenceIdeal.Read.val_main_v41 (F := Ideal) (m ((c : Thread nD τ).loc main_arg1))) :=
  Eq.trans (by show StableHlo.after hostOps3 (W5 m ρ c) (Proc.devRef .tc main_v12) = _; after_results_simp) (at5_v12 m ρ c)

theorem at6_v1 : W6 m ρ c (Proc.devRef .tc main_v1) = (Cert.ReferenceIdeal.Read.val_main_v1 (F := Ideal) (m ((c : Thread nD τ).loc main_arg1))) :=
  Eq.trans (by show StableHlo.after hostOps3 (W5 m ρ c) (Proc.devRef .tc main_v1) = _; after_results_simp) (at5_v1 m ρ c)

theorem at6_v3 : W6 m ρ c (Proc.devRef .tc main_v3) = (Cert.ReferenceIdeal.Read.val_main_v3 (F := Ideal) (m ((c : Thread nD τ).loc main_arg1))) :=
  Eq.trans (by show StableHlo.after hostOps3 (W5 m ρ c) (Proc.devRef .tc main_v3) = _; after_results_simp) (at5_v3 m ρ c)

theorem at6_v10 : W6 m ρ c (Proc.devRef .tc main_v10) = (Cert.ReferenceIdeal.Read.val_main_v10 (F := Ideal) (m ((c : Thread nD τ).loc main_arg1))) :=
  Eq.trans (by show StableHlo.after hostOps3 (W5 m ρ c) (Proc.devRef .tc main_v10) = _; after_results_simp) (at5_v10 m ρ c)

theorem at6_v78 : W6 m ρ c (Proc.devRef .tc main_v78) = (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12))) := by
  show StableHlo.after hostOps3 (W5 m ρ c) (Proc.devRef .tc main_v78) = _
  after_results_simp
  rw [at5_v49 m ρ c, at5_v1 m ρ c, at5_v3 m ρ c, at5_v10 m ρ c]
  rfl

theorem at6_v79 : W6 m ρ c (Proc.devRef .tc main_v79) = (Cert.ReferenceIdeal.Read.val_main_v45 (F := Ideal) (m ((c : Thread nD τ).loc main_arg6))) := by
  show StableHlo.after hostOps3 (W5 m ρ c) (Proc.devRef .tc main_v79) = _
  after_results_simp
  rw [at5_arg6 m ρ c]
  show shapeCast S1x256 _ _ = _
  exact Cert.Lib.reshapeRow_eq _ _ _

theorem at6_v80 : W6 m ρ c (Proc.devRef .tc main_v80) = (Cert.ReferenceIdeal.Read.val_main_v45 (F := Ideal) (m ((c : Thread nD τ).loc main_arg13))) := by
  show StableHlo.after hostOps3 (W5 m ρ c) (Proc.devRef .tc main_v80) = _
  after_results_simp
  rw [at5_arg13 m ρ c]
  show shapeCast S1x256 _ _ = _
  exact Cert.Lib.reshapeRow_eq _ _ _

theorem at6_v81 : W6 m ρ c (Proc.devRef .tc main_v81) = (Cert.ReferenceIdeal.Read.val_main_v45 (F := Ideal) (m ((c : Thread nD τ).loc main_arg14))) := by
  show StableHlo.after hostOps3 (W5 m ρ c) (Proc.devRef .tc main_v81) = _
  after_results_simp
  rw [at5_arg14 m ρ c]
  show shapeCast S1x256 _ _ = _
  exact Cert.Lib.reshapeRow_eq _ _ _

theorem at6_v82 : W6 m ρ c (Proc.devRef .tc main_v82) = (Cert.ReferenceIdeal.Read.val_main_v45 (F := Ideal) (m ((c : Thread nD τ).loc main_arg15))) := by
  show StableHlo.after hostOps3 (W5 m ρ c) (Proc.devRef .tc main_v82) = _
  after_results_simp
  rw [at5_arg15 m ρ c]
  show shapeCast S1x256 _ _ = _
  exact Cert.Lib.reshapeRow_eq _ _ _

theorem at6_v83 : W6 m ρ c (Proc.devRef .tc main_v83) = (Cert.ReferenceIdeal.Read.val_main_v45 (F := Ideal) (m ((c : Thread nD τ).loc main_arg16))) := by
  show StableHlo.after hostOps3 (W5 m ρ c) (Proc.devRef .tc main_v83) = _
  after_results_simp
  rw [at5_arg16 m ρ c]
  show shapeCast S1x256 _ _ = _
  exact Cert.Lib.reshapeRow_eq _ _ _

/-! ## Boundary 7 -/

theorem at7_v1 : W7 m ρ c (Proc.devRef .tc main_v1) = (Cert.ReferenceIdeal.Read.val_main_v1 (F := Ideal) (m ((c : Thread nD τ).loc main_arg1))) :=
  Eq.trans (W7_of_ne m ρ c main_v1 (by decide)) (at6_v1 m ρ c)

theorem at7_v3 : W7 m ρ c (Proc.devRef .tc main_v3) = (Cert.ReferenceIdeal.Read.val_main_v3 (F := Ideal) (m ((c : Thread nD τ).loc main_arg1))) :=
  Eq.trans (W7_of_ne m ρ c main_v3 (by decide)) (at6_v3 m ρ c)

theorem at7_v10 : W7 m ρ c (Proc.devRef .tc main_v10) = (Cert.ReferenceIdeal.Read.val_main_v10 (F := Ideal) (m ((c : Thread nD τ).loc main_arg1))) :=
  Eq.trans (W7_of_ne m ρ c main_v10 (by decide)) (at6_v10 m ρ c)

theorem at7_v12 : W7 m ρ c (Proc.devRef .tc main_v12) = (Cert.ReferenceIdeal.Read.val_main_v41 (F := Ideal) (m ((c : Thread nD τ).loc main_arg1))) :=
  Eq.trans ((W7_arr m ρ c 2).trans (((dat3 (V6 m ρ) c).arrAt_in 2 rfl _).trans (A_eq3 (V6 m ρ) c 2))) (at6_v12 m ρ c)

theorem at7_v84 : W7 m ρ c (Proc.devRef .tc main_v84) = (Cert.ReferenceIdeal.Read.val_main_v116 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
  Eq.trans (W7_arr m ρ c 8) (Eq.trans (Cert.KernelIdeal.Regions.fused3_array (V6 m ρ) c) (by
    show Cert.Spec.normRelu (W6 m ρ c (Proc.devRef .tc main_v78)) (W6 m ρ c (Proc.devRef .tc main_v49)) (W6 m ρ c (Proc.devRef .tc main_v12)) (W6 m ρ c (Proc.devRef .tc main_v79)) (W6 m ρ c (Proc.devRef .tc main_v80)) (W6 m ρ c (Proc.devRef .tc main_v81)) (W6 m ρ c (Proc.devRef .tc main_v82)) (W6 m ρ c (Proc.devRef .tc main_v83)) = _
    rw [at6_v78 m ρ c, at6_v49 m ρ c, at6_v12 m ρ c, at6_v79 m ρ c, at6_v80 m ρ c, at6_v81 m ρ c, at6_v82 m ρ c, at6_v83 m ρ c]
    exact (Cert.Bridge.normRelu_eq_host (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12))) (Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12))) (Cert.ReferenceIdeal.Read.val_main_v41 (F := Ideal) (m ((c : Thread nD τ).loc main_arg1))) (m ((c : Thread nD τ).loc main_arg6)) (m ((c : Thread nD τ).loc main_arg13)) (m ((c : Thread nD τ).loc main_arg14)) (m ((c : Thread nD τ).loc main_arg15)) (m ((c : Thread nD τ).loc main_arg16)) _ _ _ _ _).symm))

/-! ## Boundary 8 -/

theorem at8_v1 : W8 m ρ c (Proc.devRef .tc main_v1) = (Cert.ReferenceIdeal.Read.val_main_v1 (F := Ideal) (m ((c : Thread nD τ).loc main_arg1))) :=
  Eq.trans (W8_of_ne m ρ c main_v1 (by decide)) (at7_v1 m ρ c)

theorem at8_v3 : W8 m ρ c (Proc.devRef .tc main_v3) = (Cert.ReferenceIdeal.Read.val_main_v3 (F := Ideal) (m ((c : Thread nD τ).loc main_arg1))) :=
  Eq.trans (W8_of_ne m ρ c main_v3 (by decide)) (at7_v3 m ρ c)

theorem at8_v10 : W8 m ρ c (Proc.devRef .tc main_v10) = (Cert.ReferenceIdeal.Read.val_main_v10 (F := Ideal) (m ((c : Thread nD τ).loc main_arg1))) :=
  Eq.trans (W8_of_ne m ρ c main_v10 (by decide)) (at7_v10 m ρ c)

theorem at8_v12 : W8 m ρ c (Proc.devRef .tc main_v12) = (Cert.ReferenceIdeal.Read.val_main_v41 (F := Ideal) (m ((c : Thread nD τ).loc main_arg1))) :=
  Eq.trans (W8_of_ne m ρ c main_v12 (by decide)) (at7_v12 m ρ c)

theorem at8_v85 : W8 m ρ c (Proc.devRef .tc main_v85) = (Cert.ReferenceIdeal.Read.val_main_v117 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
  Eq.trans (W8_arr m ρ c 2) (Eq.trans (Cert.KernelIdeal.Regions.proj4_array (V7 m ρ) c) (by
    show Cert.Spec.proj (W7 m ρ c (Proc.devRef .tc main_v84)) (W7 m ρ c (Proc.devRef .tc main_arg7)) = _
    rw [at7_v84 m ρ c, at7_arg7 m ρ c]
    exact (Cert.Bridge.hostDot_eq_proj Cert.ReferenceIdeal.dot_S50000x256_S256x128_S50000x128_1_0_0_1_n_n _ rfl _ _).symm))

end Cert.KernelIdeal.Chain

end
-- ==== Proof.RegionBias5.lean ====
/-
  The third layer's dense stage, from the blocks the grid writes to the whole array.

  The stage's grid has 25 points; point t works on rows 2000 t … 2000 t + 1999 of the aggregated messages, of the
  projected features and of the degree factor, and on the whole bias row. At a row p and a feature q of its block it
  stores  seg (p, q) + h (p, q) · d p + b q.  The 25 blocks of 2000 rows tile the 50000 rows, so the array the stage
  leaves is that function of the four whole arrays at every index.
-/
import proofs.«181210_j52458730553561_2_alg».proof.Proof.Gen.KernelIdeal.Frame
import proofs.«181210_j52458730553561_2_alg».proof.Proof.Spec
import proofs.«181210_j52458730553561_2_alg».proof.Proof.LibColumnBroadcast
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of a load or store of a whole block are all zero. -/
theorem bias5_zero_offsets : (![0, 0] : Fin 2 → Nat) = fun _ => 0 := funext fun a => by fin_cases a <;> rfl

/-- The value stored at row `p`, feature `q` of a block: the messages there, plus the features there times the row's
    degree factor, plus the feature's bias. -/
theorem bias5_payload (h : Vec Ideal S2000x128 .bf16) (seg : Vec Ideal S2000x128 .f32) (d : Vec Ideal S2000x1 .f32)
    (b : Vec Ideal S1x128 .f32) (p : Fin 2000) (q : Fin 128) :
    k5_pay1 (F := Ideal) h seg d b (ix2 p q)
      = seg (ix2 p q) + h (ix2 p q) * d (ix2 p (0 : Fin 1)) + b (ix2 (0 : Fin 1) q) := by
  unfold k5_pay1
  simp only [shapeCast_self, truncf_apply, addf_apply, mulf_apply, extf_apply]
  rw [Cert.Lib.broadcastTo_a1_ab_apply, broadcastTo_1b_ab_apply]

/-- The block indices the windows' index maps give at each of the 25 grid points: the three row-blocked inputs and the
    output move together, block `t` at point `t`; the bias row stays at its one block. -/
theorem bias5_block_indices : ∀ t : Fin cfg5.N, t.val < 25
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the layer's function of the four whole arrays. -/
theorem bias5_flushed (c : Dev nD) (t : Fin cfg5.N) :
    (dat5 (F := Ideal) V c).flushed 4 t
      = ((cfg5.win 4).blk t).view.read (Elt Ideal)
          (Cert.Spec.selfLoopBias (V c main_v114) (V c main_v85) (V c main_v12) (V c main_v115)) := by
  show (cfg5.win 4).cut (grid5.coords t) ((dat5 V c).after 4 t) = _
  rw [after5_4]
  unfold out5_4
  rw [View.canon_unit_zero bias5_zero_offsets]
  simp only [View.ld_unit_zero (S := S2000x128) bias5_zero_offsets, View.ld_unit_zero (S := S2000x1) bias5_zero_offsets,
    View.ld_unit_zero (S := S1x128) bias5_zero_offsets]
  obtain ⟨ht, a0, b0, a1, b1, a2, b2, a3, b3, a4, b4⟩ := bias5_block_indices t
  funext j
  obtain ⟨p, q, rfl⟩ : ∃ (p : Fin 2000) (q : Fin 128), j = ix2 p q := ⟨j 0, j 1, eq_ix2 j⟩
  show k5_pay1 (F := Ideal) (iblk5 V c 1 t) (iblk5 V c 0 t) (iblk5 V c 2 t) (iblk5 V c 3 t) (ix2 p q)
      = Cert.Spec.selfLoopBias (V c main_v114) (V c main_v85) (V c main_v12) (V c main_v115)
          (((cfg5.win 4).blk t).view.emb (ix2 p q))
  refine (bias5_payload _ _ _ _ p q).trans ?_
  have hp : p.val < 2000 := p.isLt
  have hq : q.val < 128 := q.isLt
  have h0 : ((cfg5.win 0).blk t).view.emb (ix2 p q) = ((cfg5.win 4).blk t).view.emb (ix2 p q) := by
    funext a; apply Fin.ext
    match a with
    | ⟨0, _⟩ => show win5_0.index t (0 : Fin 2) * 2000 + 1 * p.val = win5_4.index t (0 : Fin 2) * 2000 + 1 * p.val; omega
    | ⟨1, _⟩ => show win5_0.index t (1 : Fin 2) * 128 + 1 * q.val = win5_4.index t (1 : Fin 2) * 128 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 2000 + 1 * p.val = win5_4.index t (0 : Fin 2) * 2000 + 1 * p.val; omega
    | ⟨1, _⟩ => show win5_1.index t (1 : Fin 2) * 128 + 1 * q.val = win5_4.index t (1 : Fin 2) * 128 + 1 * q.val; omega
  have h2 : ((cfg5.win 2).blk t).view.emb (ix2 p (0 : Fin 1))
      = ix2 ((((cfg5.win 4).blk t).view.emb (ix2 p q)) 0) (0 : Fin 1) := by
    funext a; apply Fin.ext
    match a with
    | ⟨0, _⟩ => show win5_2.index t (0 : Fin 2) * 2000 + 1 * p.val = win5_4.index t (0 : Fin 2) * 2000 + 1 * p.val; omega
    | ⟨1, _⟩ => show win5_2.index t (1 : Fin 2) * 1 + 1 * 0 = 0; omega
  have h3 : ((cfg5.win 3).blk t).view.emb (ix2 (0 : Fin 1) q)
      = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega
  have at_index : ∀ (Seg H : Cert.Spec.Mat 50000 128) (D : Cert.Spec.Mat 50000 1) (B : Cert.Spec.Mat 1 128),
      Seg (((cfg5.win 0).blk t).view.emb (ix2 p q))
          + H (((cfg5.win 1).blk t).view.emb (ix2 p q)) * D (((cfg5.win 2).blk t).view.emb (ix2 p (0 : Fin 1)))
          + B (((cfg5.win 3).blk t).view.emb (ix2 (0 : Fin 1) q))
        = Cert.Spec.selfLoopBias Seg H D B (((cfg5.win 4).blk t).view.emb (ix2 p q)) := by
    intro Seg H D B
    rw [h0, h1, h2, h3]
    rfl
  exact at_index (V c main_v114) (V c main_v85) (V c main_v12) (V c main_v115)

/-- An index of the array is in point `t`'s block iff each coordinate is in the block's range on its axis. -/
theorem bias5_mem_block (t : Fin cfg5.N) (i : S50000x128.Idx) :
    i ∈ ((cfg5.win 4).blk t).view.set ↔ ∀ a : Fin 2, win5_4.index t a * S2000x128.size a ≤ (i a).val
      ∧ (i a).val < win5_4.index t a * S2000x128.size a + S2000x128.size a := by
  show i ∈ ((View.whole main_v116).slice (win5_4.rect t)).set ↔ _
  rw [View.set_slice_whole, Rect.mem_set_unit]
  exact Iff.rfl

/-- Every one of the 25 row blocks is some grid point's. -/
theorem bias5_blocks_onto : ∀ r : Fin 25, ∃ t : Fin cfg5.N, win5_4.index t = ![r.val, 0] :=
  (by decide +kernel : ∀ r : Fin 25, ∃ t : Fin grid5.N, win5_4.index t = ![r.val, 0])

/-- The blocks tile the array: row `r` lies in the block of the point whose block index is `r / 2000`. -/
theorem bias5_cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := bias5_blocks_onto ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [bias5_mem_block]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 128 ≤ (i 1).val ∧ (i 1).val < win5_4.index t (1 : Fin 2) * 128 + 128; omega

/-- The array the stage leaves is the layer's function of the four whole arrays. -/
theorem bias5_array (c : Dev nD) :
    (dat5 (F := Ideal) V c).arrAt 4 cfg5.N
      = Cert.Spec.selfLoopBias (V c main_v114) (V c main_v85) (V c main_v12) (V c main_v115) :=
  (dat5 (F := Ideal) V c).arrAt_eq_of_cover 4 _ (fun t _ => bias5_flushed V c t) bias5_cover

end Cert.KernelIdeal.Regions

end
-- ==== Proof.ChainD.lean ====
/-
  The buffers at boundaries nine and ten: the third layer's aggregation and the node embeddings (aggregation plus self
  loop plus bias, no normalisation).
-/
import proofs.«181210_j52458730553561_2_alg».proof.Proof.ChainC
import proofs.«181210_j52458730553561_2_alg».proof.Proof.RegionBias5

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Boundary 9 -/

theorem at9_v85 : W9 m ρ c (Proc.devRef .tc main_v85) = (Cert.ReferenceIdeal.Read.val_main_v117 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
  Eq.trans (by show StableHlo.after hostOps5 (W8 m ρ c) (Proc.devRef .tc main_v85) = _; after_results_simp) (at8_v85 m ρ c)

theorem at9_v12 : W9 m ρ c (Proc.devRef .tc main_v12) = (Cert.ReferenceIdeal.Read.val_main_v41 (F := Ideal) (m ((c : Thread nD τ).loc main_arg1))) :=
  Eq.trans (by show StableHlo.after hostOps5 (W8 m ρ c) (Proc.devRef .tc main_v12) = _; after_results_simp) (at8_v12 m ρ c)

theorem at9_v114 : W9 m ρ c (Proc.devRef .tc main_v114) = (Cert.ReferenceIdeal.Read.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show StableHlo.after hostOps5 (W8 m ρ c) (Proc.devRef .tc main_v114) = _
  after_results_simp
  rw [at8_v85 m ρ c, at8_v1 m ρ c, at8_v3 m ρ c, at8_v10 m ρ c]
  rfl

theorem at9_v115 : W9 m ρ c (Proc.devRef .tc main_v115) = (Cert.ReferenceIdeal.Read.val_main_v151 (F := Ideal) (m ((c : Thread nD τ).loc main_arg8))) := by
  show StableHlo.after hostOps5 (W8 m ρ c) (Proc.devRef .tc main_v115) = _
  after_results_simp
  rw [at8_arg8 m ρ c]
  show shapeCast S1x128 _ _ = _
  exact Cert.Lib.reshapeRow_eq _ _ _

/-! ## Boundary 10 -/

theorem at10_v116 : W10 m ρ c (Proc.devRef .tc main_v116) = (Cert.ReferenceIdeal.Read.val_main_v153 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
  Eq.trans (W10_arr m ρ c 4) (Eq.trans (Cert.KernelIdeal.Regions.bias5_array (V9 m ρ) c) (by
    show Cert.Spec.selfLoopBias (W9 m ρ c (Proc.devRef .tc main_v114)) (W9 m ρ c (Proc.devRef .tc main_v85)) (W9 m ρ c (Proc.devRef .tc main_v12)) (W9 m ρ c (Proc.devRef .tc main_v115)) = _
    rw [at9_v114 m ρ c, at9_v85 m ρ c, at9_v12 m ρ c, at9_v115 m ρ c]
    exact (Cert.Bridge.selfLoopBias_eq_host (Cert.ReferenceIdeal.Read.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (Cert.ReferenceIdeal.Read.val_main_v117 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (Cert.ReferenceIdeal.Read.val_main_v41 (F := Ideal) (m ((c : Thread nD τ).loc main_arg1))) (m ((c : Thread nD τ).loc main_arg8)) _ _ _).symm))

end Cert.KernelIdeal.Chain

end
-- ==== Proof.RegionDecoder6.lean ====
/-
  The decoder region: the output array after its forty grid points, as one function of the arrays the region finds.

  The region scores 200000 pairs of node embeddings, 5000 pairs to a grid point. On a band of 5000 rows of the two
  embedding arrays the body computes max (x · wa + y · wb + b1) 0, two more dense layers each with a cut at zero, and
  a last dense layer plus its bias; the weights and biases are read whole at every point. Each product is accumulated
  from zero, and a row of a product depends on that row of the left factor only, so the body's value on band t is
  band t of the same four layers applied to the whole embedding arrays. The forty bands tile the output array, so it
  ends holding the decoder's scores of the arrays as the region found them.

  The parts: the layers' rows; the body's stored value at an index, from the eleven blocks it loads; the blocks as
  bands of the arrays (the index maps decided over the grid); what each point writes back; the cover; the array.
-/
import proofs.«181210_j52458730553561_2_alg».proof.Proof.Gen.KernelIdeal.Frame
import proofs.«181210_j52458730553561_2_alg».proof.Proof.Spec
import proofs.«181210_j52458730553561_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen
open Cert.Spec (Mat proj denseRelu pairRelu decoder zeroW proj_rows)

namespace Decoder6

/-! ## Rows of the layers

Each layer's row depends on the same row of its input only, so a layer applied to a band of rows is that band of
the layer applied to the whole array. -/

/-- Row `r` of the first layer on a band of the two embeddings is row `s` of it on the whole embeddings, when row
    `r` of each band is row `s` of the whole. -/
theorem pairRelu_rows {M M' K N : ℕ} (x y : Mat M K) (x' y' : Mat M' K) (wa wb : Mat K N) (b : Mat 1 N)
    (r : Fin M') (s : Fin M) (hx : ∀ k : Fin K, x' (ix2 r k) = x (ix2 s k)) (hy : ∀ k : Fin K, y' (ix2 r k) = y (ix2 s k))
    (q : Fin N) : pairRelu x' y' wa wb b (ix2 r q) = pairRelu x y wa wb b (ix2 s q) := by
  show max (proj x' wa (ix2 r q) + proj y' wb (ix2 r q) + b (ix2 (0 : Fin 1) q)) zeroW
    = max (proj x wa (ix2 s q) + proj y wb (ix2 s q) + b (ix2 (0 : Fin 1) q)) zeroW
  rw [proj_rows x x' wa r s hx q, proj_rows y y' wb r s hy q]

/-- The same for a dense layer with a cut at zero. -/
theorem denseRelu_rows {M M' K N : ℕ} (x : Mat M K) (x' : Mat M' K) (w : Mat K N) (b : Mat 1 N)
    (r : Fin M') (s : Fin M) (hx : ∀ k : Fin K, x' (ix2 r k) = x (ix2 s k)) (q : Fin N) :
    denseRelu x' w b (ix2 r q) = denseRelu x w b (ix2 s q) := by
  show max (proj x' w (ix2 r q) + b (ix2 (0 : Fin 1) q)) zeroW = max (proj x w (ix2 s q) + b (ix2 (0 : Fin 1) q)) zeroW
  rw [proj_rows x x' w r s hx q]

/-- The decoder's score of row `r` of a band of the embeddings is its score of row `s` of the whole embeddings. -/
theorem decoder_rows {P P' : ℕ} (x y : Mat P 128) (x' y' : Mat P' 128) (wa wb : Mat 128 256) (b1 : Mat 1 256)
    (w2 : Mat 256 128) (b2 : Mat 1 128) (w3 : Mat 128 64) (b3 : Mat 1 64) (w4 : Mat 64 1) (b4 : Mat 1 1)
    (r : Fin P') (s : Fin P) (hx : ∀ k : Fin 128, x' (ix2 r k) = x (ix2 s k)) (hy : ∀ k : Fin 128, y' (ix2 r k) = y (ix2 s k))
    (q : Fin 1) : decoder x' y' wa wb b1 w2 b2 w3 b3 w4 b4 (ix2 r q) = decoder x y wa wb b1 w2 b2 w3 b3 w4 b4 (ix2 s q) := by
  show proj (denseRelu (denseRelu (pairRelu x' y' wa wb b1) w2 b2) w3 b3) w4 (ix2 r q) + b4 (ix2 (0 : Fin 1) q)
    = proj (denseRelu (denseRelu (pairRelu x y wa wb b1) w2 b2) w3 b3) w4 (ix2 s q) + b4 (ix2 (0 : Fin 1) q)
  rw [proj_rows _ _ w4 r s (fun k => denseRelu_rows _ _ w3 b3 r s (fun k => denseRelu_rows _ _ w2 b2 r s
    (fun k => pairRelu_rows x y x' y' wa wb b1 r s hx hy k) k) k) q]

/-! ## The body's value at an index

The body loads the eleven blocks whole, computes, and stores one whole block. Every operation but the four products,
the row broadcasts of the biases and the same-shape casts acts entry by entry; over the extended reals a change of
float format is the identity. -/

/-- The zero offsets of a whole-buffer rectangle. -/
theorem zeros2 : (![0, 0] : Fin 2 → Nat) = fun _ => 0 := funext fun a => by fin_cases a <;> rfl

/-- The four products' dimension numbers are those of a plain matrix product. -/
theorem dotPair_eq : dot_S5000x128_S128x256_S5000x256_1_0_0_1_n_n
    = Cert.Lib.plainDot 5000 128 256 Facts₀.dot_S5000x128_S128x256_S5000x256_1_0_0_1_n_n_wf := rfl
theorem dotSecond_eq : dot_S5000x256_S256x128_S5000x128_1_0_0_1_n_n
    = Cert.Lib.plainDot 5000 256 128 Facts₀.dot_S5000x256_S256x128_S5000x128_1_0_0_1_n_n_wf := rfl
theorem dotThird_eq : dot_S5000x128_S128x64_S5000x64_1_0_0_1_n_n
    = Cert.Lib.plainDot 5000 128 64 Facts₀.dot_S5000x128_S128x64_S5000x64_1_0_0_1_n_n_wf := rfl
theorem dotLast_eq : dot_S5000x64_S64x1_S5000x1_1_0_0_1_n_n
    = Cert.Lib.plainDot 5000 64 1 Facts₀.dot_S5000x64_S64x1_S5000x1_1_0_0_1_n_n_wf := rfl

/-- THE BODY ON ONE BLOCK: what the body stores, from the eleven blocks it loads, is the decoder of those blocks. -/
theorem body_apply (x0 x1 : Vec Ideal S5000x128 .bf16) (x2 x3 : Vec Ideal S128x256 .f32) (x4 : Vec Ideal S1x256 .f32)
    (x5 : Vec Ideal S256x128 .f32) (x6 : Vec Ideal S1x128 .f32) (x7 : Vec Ideal S128x64 .f32) (x8 : Vec Ideal S1x64 .f32)
    (x9 : Vec Ideal S64x1 .f32) (x10 : Vec Ideal S1x1 .f32) (r : Fin 5000) (q : Fin 1) :
    out6_11 (F := Ideal) x0 x1 x2 x3 x4 x5 x6 x7 x8 x9 x10 (ix2 r q)
      = decoder x0 x1 x2 x3 x4 x5 x6 x7 x8 x9 x10 (ix2 r q) := by
  unfold out6_11
  rw [View.canon_unit_zero zeros2]
  simp only [View.ld_unit_zero (S := S5000x128) zeros2, View.ld_unit_zero (S := S128x256) zeros2,
    View.ld_unit_zero (S := S1x256) zeros2, View.ld_unit_zero (S := S256x128) zeros2, View.ld_unit_zero (S := S1x128) zeros2,
    View.ld_unit_zero (S := S128x64) zeros2, View.ld_unit_zero (S := S1x64) zeros2, View.ld_unit_zero (S := S64x1) zeros2,
    View.ld_unit_zero (S := S1x1) zeros2]
  unfold k6_pay1 k6_pay2 k6_pay3
  dsimp only
  simp only [shapeCast_self, dotPair_eq, dotSecond_eq, dotThird_eq, dotLast_eq, addf_apply, maximumf_apply, truncf_apply,
    broadcast_apply, Cert.Lib.matmul_zero_apply, broadcastTo_1b_ab_apply]
  rfl

/-- ONE BLOCK AGAINST THE WHOLE ARRAYS: when row `r` of the two embedding blocks is row `s` of the embedding arrays
    and the nine constant blocks are the constant arrays, the body's value at row `r` is the decoder's score of row `s`. -/
theorem block_value (x0 x1 : Vec Ideal S5000x128 .bf16) (x2 x3 : Vec Ideal S128x256 .f32) (x4 : Vec Ideal S1x256 .f32)
    (x5 : Vec Ideal S256x128 .f32) (x6 : Vec Ideal S1x128 .f32) (x7 : Vec Ideal S128x64 .f32) (x8 : Vec Ideal S1x64 .f32)
    (x9 : Vec Ideal S64x1 .f32) (x10 : Vec Ideal S1x1 .f32)
    (a0 a1 : Mat 200000 128) (a2 a3 : Mat 128 256) (a4 : Mat 1 256) (a5 : Mat 256 128) (a6 : Mat 1 128) (a7 : Mat 128 64)
    (a8 : Mat 1 64) (a9 : Mat 64 1) (a10 : Mat 1 1) (r : Fin 5000) (s : Fin 200000) (q q' : Fin 1)
    (h0 : ∀ k : Fin 128, x0 (ix2 r k) = a0 (ix2 s k)) (h1 : ∀ k : Fin 128, x1 (ix2 r k) = a1 (ix2 s k))
    (h2 : x2 = a2) (h3 : x3 = a3) (h4 : x4 = a4) (h5 : x5 = a5) (h6 : x6 = a6) (h7 : x7 = a7) (h8 : x8 = a8)
    (h9 : x9 = a9) (h10 : x10 = a10) :
    out6_11 (F := Ideal) x0 x1 x2 x3 x4 x5 x6 x7 x8 x9 x10 (ix2 r q)
      = decoder a0 a1 a2 a3 a4 a5 a6 a7 a8 a9 a10 (ix2 s q') := by
  subst h2 h3 h4 h5 h6 h7 h8 h9 h10
  rw [body_apply, Subsingleton.elim q' q]
  exact decoder_rows a0 a1 x0 x1 x2 x3 x4 x5 x6 x7 x8 x9 x10 r s h0 h1 q

/-! ## From blocks to the array

The grid has forty points. At point `t` the two embedding windows and the output window hold rows
`5000 t … 5000 t + 4999` of their arrays; each of the nine constant windows holds its whole array at every point. -/

section Array

variable (V : (c : Dev nD) → (b : Ref sig .tc) → Buf (Elt Ideal) ((c : Thread nD τ).loc b)) (c : Dev nD)

/-- The index maps, decided over the forty points: the embeddings' and the output's block index is `(t, 0)`, every
    constant window's is `(0, 0)`. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0
    ∧ win6_11.index t (0 : Fin 2) = t.val ∧ win6_11.index t (1 : Fin 2) = 0 :=
  (by decide +kernel : ∀ t : Fin grid6.N, _)

/-- A point's number is below forty. -/
theorem point_lt (t : Fin cfg6.N) : t.val < 40 := t.isLt

/-- Row `r` of the first embedding's block at point `t` is row `5000 t + r` of the array. -/
theorem first_block_row (t : Fin cfg6.N) (r : Fin 5000) (s : Fin 200000) (hs : s.val = 5000 * t.val + r.val) (k : Fin 128) :
    (iblk6 V c 0 t : S5000x128.Idx → EReal) (ix2 r k) = (V c main_v127 : S200000x128.Idx → EReal) (ix2 s k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  show V c main_v127 (((cfg6.win 0).blk t).view.emb (ix2 r k)) = V c main_v127 (ix2 s k)
  congr 1
  funext a
  apply Fin.ext
  match a with
  | ⟨0, _⟩ => show win6_0.index t (0 : Fin 2) * 5000 + 1 * r.val = s.val; omega
  | ⟨1, _⟩ => show win6_0.index t (1 : Fin 2) * 128 + 1 * k.val = k.val; omega

/-- The same for the second embedding. -/
theorem second_block_row (t : Fin cfg6.N) (r : Fin 5000) (s : Fin 200000) (hs : s.val = 5000 * t.val + r.val) (k : Fin 128) :
    (iblk6 V c 1 t : S5000x128.Idx → EReal) (ix2 r k) = (V c main_v134 : S200000x128.Idx → EReal) (ix2 s k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  show V c main_v134 (((cfg6.win 1).blk t).view.emb (ix2 r k)) = V c main_v134 (ix2 s k)
  congr 1
  funext a
  apply Fin.ext
  match a with
  | ⟨0, _⟩ => show win6_1.index t (0 : Fin 2) * 5000 + 1 * r.val = s.val; omega
  | ⟨1, _⟩ => show win6_1.index t (1 : Fin 2) * 128 + 1 * k.val = k.val; omega

/-- The block of the upper half of the first weight at every point is the whole array. -/
theorem const_block_2 (t : Fin cfg6.N) : (iblk6 V c 2 t : S128x256.Idx → EReal) = V c main_v135 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_v135 (((cfg6.win 2).blk t).view.emb y) = V c main_v135 y
  congr 1
  funext a
  apply Fin.ext
  match a with
  | ⟨0, _⟩ => show win6_2.index t (0 : Fin 2) * 128 + 1 * (y 0).val = (y 0).val; omega
  | ⟨1, _⟩ => show win6_2.index t (1 : Fin 2) * 256 + 1 * (y 1).val = (y 1).val; omega

/-- The block of the lower half of the first weight at every point is the whole array. -/
theorem const_block_3 (t : Fin cfg6.N) : (iblk6 V c 3 t : S128x256.Idx → EReal) = V c main_v136 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_v136 (((cfg6.win 3).blk t).view.emb y) = V c main_v136 y
  congr 1
  funext a
  apply Fin.ext
  match a with
  | ⟨0, _⟩ => show win6_3.index t (0 : Fin 2) * 128 + 1 * (y 0).val = (y 0).val; omega
  | ⟨1, _⟩ => show win6_3.index t (1 : Fin 2) * 256 + 1 * (y 1).val = (y 1).val; omega

/-- The block of the first bias at every point is the whole array. -/
theorem const_block_4 (t : Fin cfg6.N) : (iblk6 V c 4 t : S1x256.Idx → EReal) = V c main_v137 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_v137 (((cfg6.win 4).blk t).view.emb y) = V c main_v137 y
  congr 1
  funext a
  apply Fin.ext
  match a with
  | ⟨0, _⟩ => show win6_4.index t (0 : Fin 2) * 1 + 1 * (y 0).val = (y 0).val; omega
  | ⟨1, _⟩ => show win6_4.index t (1 : Fin 2) * 256 + 1 * (y 1).val = (y 1).val; omega

/-- The block of the second weight at every point is the whole array. -/
theorem const_block_5 (t : Fin cfg6.N) : (iblk6 V c 5 t : S256x128.Idx → EReal) = V c main_arg19 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_arg19 (((cfg6.win 5).blk t).view.emb y) = V c main_arg19 y
  congr 1
  funext a
  apply Fin.ext
  match a with
  | ⟨0, _⟩ => show win6_5.index t (0 : Fin 2) * 256 + 1 * (y 0).val = (y 0).val; omega
  | ⟨1, _⟩ => show win6_5.index t (1 : Fin 2) * 128 + 1 * (y 1).val = (y 1).val; omega

/-- The block of the second bias at every point is the whole array. -/
theorem const_block_6 (t : Fin cfg6.N) : (iblk6 V c 6 t : S1x128.Idx → EReal) = V c main_v138 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_v138 (((cfg6.win 6).blk t).view.emb y) = V c main_v138 y
  congr 1
  funext a
  apply Fin.ext
  match a with
  | ⟨0, _⟩ => show win6_6.index t (0 : Fin 2) * 1 + 1 * (y 0).val = (y 0).val; omega
  | ⟨1, _⟩ => show win6_6.index t (1 : Fin 2) * 128 + 1 * (y 1).val = (y 1).val; omega

/-- The block of the third weight at every point is the whole array. -/
theorem const_block_7 (t : Fin cfg6.N) : (iblk6 V c 7 t : S128x64.Idx → EReal) = V c main_arg21 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_arg21 (((cfg6.win 7).blk t).view.emb y) = V c main_arg21 y
  congr 1
  funext a
  apply Fin.ext
  match a with
  | ⟨0, _⟩ => show win6_7.index t (0 : Fin 2) * 128 + 1 * (y 0).val = (y 0).val; omega
  | ⟨1, _⟩ => show win6_7.index t (1 : Fin 2) * 64 + 1 * (y 1).val = (y 1).val; omega

/-- The block of the third bias at every point is the whole array. -/
theorem const_block_8 (t : Fin cfg6.N) : (iblk6 V c 8 t : S1x64.Idx → EReal) = V c main_v139 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_v139 (((cfg6.win 8).blk t).view.emb y) = V c main_v139 y
  congr 1
  funext a
  apply Fin.ext
  match a with
  | ⟨0, _⟩ => show win6_8.index t (0 : Fin 2) * 1 + 1 * (y 0).val = (y 0).val; omega
  | ⟨1, _⟩ => show win6_8.index t (1 : Fin 2) * 64 + 1 * (y 1).val = (y 1).val; omega

/-- The block of the last weight at every point is the whole array. -/
theorem const_block_9 (t : Fin cfg6.N) : (iblk6 V c 9 t : S64x1.Idx → EReal) = V c main_arg23 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_arg23 (((cfg6.win 9).blk t).view.emb y) = V c main_arg23 y
  congr 1
  funext a
  apply Fin.ext
  match a with
  | ⟨0, _⟩ => show win6_9.index t (0 : Fin 2) * 64 + 1 * (y 0).val = (y 0).val; omega
  | ⟨1, _⟩ => show win6_9.index t (1 : Fin 2) * 1 + 1 * (y 1).val = (y 1).val; omega

/-- The block of the last bias at every point is the whole array. -/
theorem const_block_10 (t : Fin cfg6.N) : (iblk6 V c 10 t : S1x1.Idx → EReal) = V c main_v140 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  funext y
  show V c main_v140 (((cfg6.win 10).blk t).view.emb y) = V c main_v140 y
  congr 1
  funext a
  apply Fin.ext
  match a with
  | ⟨0, _⟩ => show win6_10.index t (0 : Fin 2) * 1 + 1 * (y 0).val = (y 0).val; omega
  | ⟨1, _⟩ => show win6_10.index t (1 : Fin 2) * 1 + 1 * (y 1).val = (y 1).val; omega

/-- WHAT POINT `t` WRITES BACK is block `t` of the decoder's scores of the whole arrays. -/
theorem flushed_eq (t : Fin cfg6.N) :
    (dat6 (F := Ideal) V c).flushed 11 t
      = ((cfg6.win 11).blk t).view.read (Elt Ideal) (decoder (V c main_v127) (V c main_v134) (V c main_v135) (V c main_v136) (V c main_v137) (V c main_arg19) (V c main_v138) (V c main_arg21) (V c main_v139) (V c main_arg23) (V c main_v140)) := by
  show (cfg6.win 11).cut (grid6.coords t) ((dat6 V c).after 11 t) = _
  rw [after6_11]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  have ht := point_lt t
  funext y
  obtain ⟨r, q, rfl⟩ : ∃ (r : Fin 5000) (q : Fin 1), y = ix2 r q := ⟨y 0, y 1, eq_ix2 y⟩
  show out6_11 (F := Ideal) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (ix2 r q)
    = decoder (V c main_v127) (V c main_v134) (V c main_v135) (V c main_v136) (V c main_v137) (V c main_arg19) (V c main_v138) (V c main_arg21) (V c main_v139) (V c main_arg23) (V c main_v140) (((cfg6.win 11).blk t).view.emb (ix2 r q))
  have hr := r.isLt
  refine (block_value _ _ _ _ _ _ _ _ _ _ _ (V c main_v127) (V c main_v134) (V c main_v135) (V c main_v136) (V c main_v137) (V c main_arg19) (V c main_v138) (V c main_arg21) (V c main_v139) (V c main_arg23) (V c main_v140) r ⟨5000 * t.val + r.val, by omega⟩ q q
    (first_block_row V c t r _ rfl) (second_block_row V c t r _ rfl)
    (const_block_2 V c t) (const_block_3 V c t) (const_block_4 V c t) (const_block_5 V c t) (const_block_6 V c t)
    (const_block_7 V c t) (const_block_8 V c t) (const_block_9 V c t) (const_block_10 V c t)).trans ?_
  congr 1
  funext a
  apply Fin.ext
  match a with
  | ⟨0, _⟩ => show 5000 * t.val + r.val = win6_11.index t (0 : Fin 2) * 5000 + 1 * r.val; omega
  | ⟨1, _⟩ => show q.val = win6_11.index t (1 : Fin 2) * 1 + 1 * q.val; omega

/-- An index of the output array is in point `t`'s block iff each coordinate is in the block's range on its axis. -/
theorem mem_block (t : Fin cfg6.N) (i : S200000x1.Idx) :
    i ∈ ((cfg6.win 11).blk t).view.set ↔ ∀ a : Fin 2, win6_11.index t a * S5000x1.size a ≤ (i a).val
      ∧ (i a).val < win6_11.index t a * S5000x1.size a + S5000x1.size a := by
  show i ∈ ((View.whole main_v141).slice (win6_11.rect t)).set ↔ _
  rw [View.set_slice_whole, Rect.mem_set_unit]
  exact Iff.rfl

/-- Every row of the output array is in some point's block: row `p` in the block of point `p / 5000`. -/
theorem cover (i : S200000x1.Idx) :
    ∃ t : Fin cfg6.N, (cfg6.win 11).flush t = true ∧ i ∈ ((cfg6.win 11).blk t).view.set := by
  have hi0 : (i 0).val < 200000 := (i 0).isLt
  have hi1 : (i 1).val < 1 := (i 1).isLt
  let t : Fin cfg6.N := ⟨(i 0).val / 5000, show (i 0).val / 5000 < 40 by omega⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_facts t
  have ht : t.val = (i 0).val / 5000 := rfl
  refine ⟨t, flush6_11 t, ?_⟩
  rw [mem_block]
  intro a
  match a with
  | ⟨0, _⟩ => show win6_11.index t (0 : Fin 2) * 5000 ≤ (i 0).val ∧ (i 0).val < win6_11.index t (0 : Fin 2) * 5000 + 5000; omega
  | ⟨1, _⟩ => show win6_11.index t (1 : Fin 2) * 1 ≤ (i 1).val ∧ (i 1).val < win6_11.index t (1 : Fin 2) * 1 + 1; omega

end Array

end Decoder6

section Array

variable (V : (c : Dev nD) → (b : Ref sig .tc) → Buf (Elt Ideal) ((c : Thread nD τ).loc b)) (c : Dev nD)

/-- THE OUTPUT ARRAY after the region: the decoder's scores of the arrays the region found. -/
theorem decoder6_array : (Gen.dat6 (F := Ideal) V c).arrAt 11 cfg6.N = Cert.Spec.decoder (V c main_v127) (V c main_v134) (V c main_v135) (V c main_v136) (V c main_v137) (V c main_arg19) (V c main_v138) (V c main_arg21) (V c main_v139) (V c main_arg23) (V c main_v140) :=
  (Gen.dat6 (F := Ideal) V c).arrAt_eq_of_cover 11 _ (fun t _ => Decoder6.flushed_eq V c t) Decoder6.cover

end Array

end Cert.KernelIdeal.Regions

end
-- ==== Proof.ChainE.lean ====
/-
  The buffers at the last two boundaries: the two gathers of node embeddings at the pair indices, the first decoder
  weight cut in its upper and lower halves, the decoder's biases as rows, and the decoder's output — the reference's
  result.
-/
import proofs.«181210_j52458730553561_2_alg».proof.Proof.ChainD
import proofs.«181210_j52458730553561_2_alg».proof.Proof.RegionDecoder6

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Boundary 11 -/

theorem at11_v127 : W11 m ρ c (Proc.devRef .tc main_v127) = (Cert.ReferenceIdeal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show StableHlo.after hostOps6 (W10 m ρ c) (Proc.devRef .tc main_v127) = _
  after_results_simp
  rw [at10_v116 m ρ c, at10_arg2 m ρ c]
  rfl

theorem at11_v134 : W11 m ρ c (Proc.devRef .tc main_v134) = (Cert.ReferenceIdeal.Read.val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show StableHlo.after hostOps6 (W10 m ρ c) (Proc.devRef .tc main_v134) = _
  after_results_simp
  rw [at10_v116 m ρ c, at10_arg2 m ρ c]
  rfl

theorem at11_v135 : W11 m ρ c (Proc.devRef .tc main_v135) = (extractStridedSlice S128x256 ![0, 0] (m ((c : Thread nD τ).loc main_arg17)) slices_S256x256_S128x256_0_0) := by
  show StableHlo.after hostOps6 (W10 m ρ c) (Proc.devRef .tc main_v135) = _
  after_results_simp
  rw [at10_arg17 m ρ c]

theorem at11_v136 : W11 m ρ c (Proc.devRef .tc main_v136) = (extractStridedSlice S128x256 ![128, 0] (m ((c : Thread nD τ).loc main_arg17)) slices_S256x256_S128x256_128_0) := by
  show StableHlo.after hostOps6 (W10 m ρ c) (Proc.devRef .tc main_v136) = _
  after_results_simp
  rw [at10_arg17 m ρ c]

theorem at11_v137 : W11 m ρ c (Proc.devRef .tc main_v137) = (Cert.ReferenceIdeal.Read.val_main_v174 (F := Ideal) (m ((c : Thread nD τ).loc main_arg18))) := by
  show StableHlo.after hostOps6 (W10 m ρ c) (Proc.devRef .tc main_v137) = _
  after_results_simp
  rw [at10_arg18 m ρ c]
  show shapeCast S1x256 _ _ = _
  exact Cert.Lib.reshapeRow_eq _ _ _

theorem at11_v138 : W11 m ρ c (Proc.devRef .tc main_v138) = (Cert.ReferenceIdeal.Read.val_main_v179 (F := Ideal) (m ((c : Thread nD τ).loc main_arg20))) := by
  show StableHlo.after hostOps6 (W10 m ρ c) (Proc.devRef .tc main_v138) = _
  after_results_simp
  rw [at10_arg20 m ρ c]
  show shapeCast S1x128 _ _ = _
  exact Cert.Lib.reshapeRow_eq _ _ _

theorem at11_v139 : W11 m ρ c (Proc.devRef .tc main_v139) = (Cert.ReferenceIdeal.Read.val_main_v184 (F := Ideal) (m ((c : Thread nD τ).loc main_arg22))) := by
  show StableHlo.after hostOps6 (W10 m ρ c) (Proc.devRef .tc main_v139) = _
  after_results_simp
  rw [at10_arg22 m ρ c]
  show shapeCast S1x64 _ _ = _
  exact Cert.Lib.reshapeRow_eq _ _ _

theorem at11_v140 : W11 m ρ c (Proc.devRef .tc main_v140) = (Cert.ReferenceIdeal.Read.val_main_v189 (F := Ideal) (m ((c : Thread nD τ).loc main_arg24))) := by
  show StableHlo.after hostOps6 (W10 m ρ c) (Proc.devRef .tc main_v140) = _
  after_results_simp
  rw [at10_arg24 m ρ c]
  show shapeCast S1x1 _ _ = _
  exact Cert.Lib.reshapeRow_eq _ _ _

/-! ## Boundary 12 -/

theorem at12_v141 : W12 m ρ c (Proc.devRef .tc main_v141) = (Cert.ReferenceIdeal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) :=
  Eq.trans (W12_arr m ρ c 11) (Eq.trans (Cert.KernelIdeal.Regions.decoder6_array (V11 m ρ) c) (by
    show Cert.Spec.decoder (W11 m ρ c (Proc.devRef .tc main_v127)) (W11 m ρ c (Proc.devRef .tc main_v134)) (W11 m ρ c (Proc.devRef .tc main_v135)) (W11 m ρ c (Proc.devRef .tc main_v136)) (W11 m ρ c (Proc.devRef .tc main_v137)) (W11 m ρ c (Proc.devRef .tc main_arg19)) (W11 m ρ c (Proc.devRef .tc main_v138)) (W11 m ρ c (Proc.devRef .tc main_arg21)) (W11 m ρ c (Proc.devRef .tc main_v139)) (W11 m ρ c (Proc.devRef .tc main_arg23)) (W11 m ρ c (Proc.devRef .tc main_v140)) = _
    rw [at11_v127 m ρ c, at11_v134 m ρ c, at11_v135 m ρ c, at11_v136 m ρ c, at11_v137 m ρ c, at11_arg19 m ρ c, at11_v138 m ρ c, at11_arg21 m ρ c, at11_v139 m ρ c, at11_arg23 m ρ c, at11_v140 m ρ c]
    exact (Cert.Bridge.decoder_eq_host (Cert.ReferenceIdeal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (Cert.ReferenceIdeal.Read.val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) _ _ _ Cert.ReferenceIdeal.dot_S200000x256_S256x256_S200000x256_1_0_0_1_n_n _ rfl _ _ _ Cert.ReferenceIdeal.dot_S200000x256_S256x128_S200000x128_1_0_0_1_n_n _ rfl _ _ _ Cert.ReferenceIdeal.dot_S200000x128_S128x64_S200000x64_1_0_0_1_n_n _ rfl _ _ _ Cert.ReferenceIdeal.dot_S200000x64_S64x1_S200000x1_1_0_0_1_n_n _ rfl _ _).symm))

end Cert.KernelIdeal.Chain

end
-- ==== Proof.lean ====
/-
  Equivalence of the link-prediction kernel and its reference over the extended reals.

  The network: three graph-convolution layers over 50 000 nodes and 800 000 edges — each a dense projection, an
  aggregation of the projected rows over the edges weighted by the endpoints' inverse root degrees, a self loop and a
  bias; the first two followed by a normalisation with stored statistics and a cut at zero — and a four-layer decoder
  over 200 000 pairs of node embeddings.

  The kernel program runs the dense parts in seven launches and keeps the gathers and scatter-adds between them as host
  operations; the reference is one line of host operations. Read at the ideal instance, where a change of float format
  is the identity, both programs apply the same host operations in the same order between the dense parts, so it is
  enough that each launch leaves in its output array the reference's stage of the same place in the network:

  * a projection launch, tiled in bands of 5000 rows, leaves the matrix product of its operand arrays;
  * a fused launch, tiled in bands of 2000 rows, leaves aggregation + own features × degree factor + bias, normalised and
    cut at zero, entry by entry — the reference's chain of broadcasts and pointwise operations;
  * the decoder launch, tiled in bands of 5000 pairs, multiplies the two gathered embeddings by the upper and lower
    halves of the first weight and adds the products; the reference multiplies the two embeddings laid side by side by
    the whole weight. The contraction over 256 positions is the sum of the contractions over its first and last 128,
    in any commutative monoid; no distributivity and hence no finiteness of the inputs is used.

  So after the last launch the result array holds the reference's result as a function of the argument arrays
  (the chain through the twelve boundaries), and the reference's run ends at the same function of arguments that agree.
  The three frame claims are the generated frames (the reference's is its run with the result dropped); the idealisation
  rewrote nothing, so there is nothing to preserve.
-/
import proofs.«181210_j52458730553561_2_alg».proof.Defs
import proofs.«181210_j52458730553561_2_alg».proof.Proof.Gen.Kernel
import proofs.«181210_j52458730553561_2_alg».proof.Proof.Gen.Kernel.Frame
import proofs.«181210_j52458730553561_2_alg».proof.Proof.Gen.KernelIdeal
import proofs.«181210_j52458730553561_2_alg».proof.Proof.Gen.KernelIdeal.Frame
import proofs.«181210_j52458730553561_2_alg».proof.Proof.Gen.ReferenceIdeal
import proofs.«181210_j52458730553561_2_alg».proof.Proof.Gen.ReferenceIdeal.Run
import proofs.«181210_j52458730553561_2_alg».proof.Proof.Gen.ReferenceIdeal.Read
import proofs.«181210_j52458730553561_2_alg».proof.Proof.Gen.Pre_finite_inputs
import proofs.«181210_j52458730553561_2_alg».proof.Proof.KernelRun
import proofs.«181210_j52458730553561_2_alg».proof.Proof.ChainE
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result forgotten. -/
theorem frame_referenceIdeal : Cert.frame_ReferenceIdeal :=
  fun m ρ _ => (θ_run Cert.ReferenceIdeal.defs _ _).mono (fun _ h c => (h c).2) (Cert.ReferenceIdeal.Value.run (F := Ideal) m ρ)

/-- Both programs end with the result array at the reference's last stage as a function of the argument arrays: the
    kernel's by the chain through its boundaries, the reference's by its run, the arguments' agreement rewritten. -/
theorem algebraic :
    Cert.algebraic_KernelIdeal_ReferenceIdeal := by
  intro m ρ m' ρ' _ hagree
  refine ⟨_, (θ_run Cert.KernelIdeal.defs _ _).mono
      (fun r h c => ⟨(h c).1.trans (Cert.KernelIdeal.Chain.at12_v141 m ρ c), (h c).2⟩)
      (Cert.KernelIdeal.Run.run_result (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24⟩ := hagree c
  rw [Cert.ReferenceIdeal.Read.val_main_v191_eq, e0, e1, e2, e3, e4, e5, e6, e7, e8, e9, e10, e11, e12, e13, e14, e15, e16, e17, e18, e19, e20, e21, e22, e23, e24]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
